-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x512 : Shape := ⟨2, ![8, 512]⟩
abbrev S64x512 : Shape := ⟨2, ![64, 512]⟩
abbrev S64 : Shape := ⟨1, ![64]⟩
abbrev S512x64 : Shape := ⟨2, ![512, 64]⟩
abbrev S512 : Shape := ⟨1, ![512]⟩
abbrev S512x512 : Shape := ⟨2, ![512, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x512 : S_.BroadcastsInDim S8x512 (![] : Fin 0 → Fin S8x512.rank)
  reducesTo_S8x512_S_d0_1 : S8x512.ReducesTo [0, 1] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part4 {F : FTy → Type} [FloatOps F] (main_arg14 : FVec F S512 .f32) (main_arg15 : FVec F S512x512 .f32) (main_arg16 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  main_v83

def fn_part3 {F : FTy → Type} [FloatOps F] (main_arg11 : FVec F S512x64 .f32) (main_arg12 : FVec F S512 .f32) (main_arg13 : FVec F S512 .f32) (main_arg14 : FVec F S512 .f32) (main_arg15 : FVec F S512x512 .f32) (main_arg16 : FVec F S512 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S512x64 .f32 := Host.absf main_arg11
  let main_cst_20 : FVec F S_ .f32 := constant S_ .f32 0x7F800000#32
  let main_v55 : FVec F S512x64 .f32 := broadcastInDim S512x64 ![] bcast_S_S512x64 main_cst_20
  let main_v56 : IVec S512x64 1 := cmpf .olt main_v54 main_v55
  let main_c_21 : IVec S_ 1 := constantI S_ 1 1#1
  let main_v57 : IVec S_ 1 := (fun x v => Host.reduce IntOp.andi x v reducesTo_S512x64_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_v63 main_v67

def fn_part2 {F : FTy → Type} [FloatOps F] (main_arg7 : FVec F S512x64 .f32) (main_arg8 : FVec F S512 .f32) (main_arg9 : FVec F S64x512 .f32) (main_arg10 : FVec F S64 .f32) (main_arg11 : FVec F S512x64 .f32) (main_arg12 : FVec F S512 .f32) (main_arg13 : FVec F S512 .f32) (main_arg14 : FVec F S512 .f32) (main_arg15 : FVec F S512x512 .f32) (main_arg16 : FVec F S512 .f32) (main_v33 : IVec S_ 1) : IVec S_ 1 :=
  let main_v34 : FVec F S512x64 .f32 := Host.absf main_arg7
  let main_cst_12 : FVec F S_ .f32 := constant S_ .f32 0x7F800000#32
  let main_v35 : FVec F S512x64 .f32 := broadcastInDim S512x64 ![] bcast_S_S512x64 main_cst_12
  let main_v36 : IVec S512x64 1 := cmpf .olt main_v34 main_v35
  let main_c_13 : IVec S_ 1 := constantI S_ 1 1#1
  let main_v37 : IVec S_ 1 := (fun x v => Host.reduce IntOp.andi x v reducesTo_S512x64_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S64x512 .f32 := Host.absf main_arg9
  let main_cst_16 : FVec F S_ .f32 := constant S_ .f32 0x7F800000#32
  let main_v45 : FVec F S64x512 .f32 := broadcastInDim S64x512 ![] bcast_S_S64x512 main_cst_16
  let main_v46 : IVec S64x512 1 := cmpf .olt main_v44 main_v45
  let main_c_17 : IVec S_ 1 := constantI S_ 1 1#1
  let main_v47 : IVec S_ 1 := (fun x v => Host.reduce IntOp.andi x v reducesTo_S64x512_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_v48 main_v49 main_v50

def fn_part1 {F : FTy → Type} [FloatOps F] (main_arg4 : FVec F S64 .f32) (main_arg5 : FVec F S64x512 .f32) (main_arg6 : FVec F S64 .f32) (main_arg7 : FVec F S512x64 .f32) (main_arg8 : FVec F S512 .f32) (main_arg9 : FVec F S64x512 .f32) (main_arg10 : FVec F S64 .f32) (main_arg11 : FVec F S512x64 .f32) (main_arg12 : FVec F S512 .f32) (main_arg13 : FVec F S512 .f32) (main_arg14 : FVec F S512 .f32) (main_arg15 : FVec F S512x512 .f32) (main_arg16 : FVec F S512 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x512 .f32 := Host.absf main_arg5
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8x4096x512 .f32) (main_arg1 : FVec F S8x4096x512 .f32) (main_arg2 : FVec F S8x512 .f32) (main_arg3 : FVec F S64x512 .f32) (main_arg4 : FVec F S64 .f32) (main_arg5 : FVec F S64x512 .f32) (main_arg6 : FVec F S64 .f32) (main_arg7 : FVec F S512x64 .f32) (main_arg8 : FVec F S512 .f32) (main_arg9 : FVec F S64x512 .f32) (main_arg10 : FVec F S64 .f32) (main_arg11 : FVec F S512x64 .f32) (main_arg12 : FVec F S512 .f32) (main_arg13 : FVec F S512 .f32) (main_arg14 : FVec F S512 .f32) (main_arg15 : FVec F S512x512 .f32) (main_arg16 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8x4096x512 : Shape := ⟨3, ![8, 4096, 512]⟩
abbrev S8x512 : Shape := ⟨2, ![8, 512]⟩
abbrev S64x512 : Shape := ⟨2, ![64, 512]⟩
abbrev S64 : Shape := ⟨1, ![64]⟩
abbrev S512x64 : Shape := ⟨2, ![512, 64]⟩
abbrev S512 : Shape := ⟨1, ![512]⟩
abbrev S512x512 : Shape := ⟨2, ![512, 512]⟩
abbrev S1x1x64 : Shape := ⟨3, ![1, 1, 64]⟩
abbrev S2x8x64 : Shape := ⟨3, ![2, 8, 64]⟩
abbrev S8x512x512 : Shape := ⟨3, ![8, 512, 512]⟩
abbrev S1x8x64 : Shape := ⟨3, ![1, 8, 64]⟩
abbrev S8x64 : Shape := ⟨2, ![8, 64]⟩
abbrev S8x256x512 : Shape := ⟨3, ![8, 256, 512]⟩
abbrev S2048x512 : Shape := ⟨2, ![2048, 512]⟩
abbrev S2048x64 : Shape := ⟨2, ![2048, 64]⟩
abbrev S8x256x64 : Shape := ⟨3, ![8, 256, 64]⟩
abbrev S_ : Shape := ⟨0, ![]⟩
abbrev S1x512 : Shape := ⟨2, ![1, 512]⟩
abbrev S1x64 : Shape := ⟨2, ![1, 64]⟩
abbrev S8 : Shape := ⟨1, ![8]⟩
abbrev S8x1 : Shape := ⟨2, ![8, 1]⟩

abbrev nBuf : Space → Nat
  | .hbm => 91
  | .vmem => 10
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x512, .f32⟩
  | .hbm, ⟨3, _⟩ => ⟨S64x512, .f32⟩
  | .hbm, ⟨4, _⟩ => ⟨S64, .f32⟩
  | .hbm, ⟨5, _⟩ => ⟨S64x512, .f32⟩
  | .hbm, ⟨6, _⟩ => ⟨S64, .f32⟩
  | .hbm, ⟨7, _⟩ => ⟨S512x64, .f32⟩
  | .hbm, ⟨8, _⟩ => ⟨S512, .f32⟩
  | .hbm, ⟨9, _⟩ => ⟨S64x512, .f32⟩
  | .hbm, ⟨10, _⟩ => ⟨S64, .f32⟩
  | .hbm, ⟨11, _⟩ => ⟨S512x64, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x64, .f32⟩
  | .hbm, ⟨18, _⟩ => ⟨S512x64, .f32⟩
  | .hbm, ⟨19, _⟩ => ⟨S1x1x64, .f32⟩
  | .hbm, ⟨20, _⟩ => ⟨S1x1x64, .f32⟩
  | .hbm, ⟨21, _⟩ => ⟨S2x8x64, .f32⟩
  | .hbm, ⟨22, _⟩ => ⟨S_, .f32⟩
  | .hbm, ⟨23, _⟩ => ⟨S8x64, .f32⟩
  | .hbm, ⟨24, _⟩ => ⟨S64x512, .f32⟩
  | .hbm, ⟨25, _⟩ => ⟨S8x512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S1x512, .f32⟩
  | .hbm, ⟨30, _⟩ => ⟨S8x512, .f32⟩
  | .hbm, ⟨31, _⟩ => ⟨S8x512, .f32⟩
  | .hbm, ⟨32, _⟩ => ⟨S512x64, .f32⟩
  | .hbm, ⟨33, _⟩ => ⟨S8x64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S1x64, .f32⟩
  | .hbm, ⟨38, _⟩ => ⟨S8x64, .f32⟩
  | .hbm, ⟨39, _⟩ => ⟨S8x64, .f32⟩
  | .hbm, ⟨40, _⟩ => ⟨S512x64, .f32⟩
  | .hbm, ⟨41, _⟩ => ⟨S8x64, .f32⟩
  | .hbm, ⟨42, _⟩ => ⟨S1x64, .f32⟩
  | .hbm, ⟨43, _⟩ => ⟨S8x64, .f32⟩
  | .hbm, ⟨44, _⟩ => ⟨S8x64, .f32⟩
  | .hbm, ⟨45, _⟩ => ⟨S8x64, .f32⟩
  | .hbm, ⟨46, _⟩ => ⟨S64x512, .f32⟩
  | .hbm, ⟨47, _⟩ => ⟨S8x512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S1x512, .f32⟩
  | .hbm, ⟨52, _⟩ => ⟨S8x512, .f32⟩
  | .hbm, ⟨53, _⟩ => ⟨S8x512, .f32⟩
  | .hbm, ⟨54, _⟩ => ⟨S_, .f32⟩
  | .hbm, ⟨55, _⟩ => ⟨S8x512, .f32⟩
  | .hbm, ⟨56, _⟩ => ⟨S8x512, .f32⟩
  | .hbm, ⟨57, _⟩ => ⟨S_, .f32⟩
  | .hbm, ⟨58, _⟩ => ⟨S8, .f32⟩
  | .hbm, ⟨59, _⟩ => ⟨S8x1, .f32⟩
  | .hbm, ⟨60, _⟩ => ⟨S_, .f32⟩
  | .hbm, ⟨61, _⟩ => ⟨S8x1, .f32⟩
  | .hbm, ⟨62, _⟩ => ⟨S8x1, .f32⟩
  | .hbm, ⟨63, _⟩ => ⟨S8x512, .f32⟩
  | .hbm, ⟨64, _⟩ => ⟨S8x512, .f32⟩
  | .hbm, ⟨65, _⟩ => ⟨S8x512, .f32⟩
  | .hbm, ⟨66, _⟩ => ⟨S_, .f32⟩
  | .hbm, ⟨67, _⟩ => ⟨S8, .f32⟩
  | .hbm, ⟨68, _⟩ => ⟨S8x1, .f32⟩
  | .hbm, ⟨69, _⟩ => ⟨S_, .f32⟩
  | .hbm, ⟨70, _⟩ => ⟨S8x1, .f32⟩
  | .hbm, ⟨71, _⟩ => ⟨S8x1, .f32⟩
  | .hbm, ⟨72, _⟩ => ⟨S8x512, .f32⟩
  | .hbm, ⟨73, _⟩ => ⟨S8x512, .f32⟩
  | .hbm, ⟨74, _⟩ => ⟨S_, .f32⟩
  | .hbm, ⟨75, _⟩ => ⟨S8x1, .f32⟩
  | .hbm, ⟨76, _⟩ => ⟨S8x1, .f32⟩
  | .hbm, ⟨77, _⟩ => ⟨S8x1, .f32⟩
  | .hbm, ⟨78, _⟩ => ⟨S8x512, .f32⟩
  | .hbm, ⟨79, _⟩ => ⟨S8x512, .f32⟩
  | .hbm, ⟨80, _⟩ => ⟨S1x512, .f32⟩
  | .hbm, ⟨81, _⟩ => ⟨S8x512, .f32⟩
  | .hbm, ⟨82, _⟩ => ⟨S8x512, .f32⟩
  | .hbm, ⟨83, _⟩ => ⟨S1x512, .f32⟩
  | .hbm, ⟨84, _⟩ => ⟨S8x512, .f32⟩
  | .hbm, ⟨85, _⟩ => ⟨S8x512, .f32⟩
  | .hbm, ⟨86, _⟩ => ⟨S512x512, .f32⟩
  | .hbm, ⟨87, _⟩ => ⟨S8x512, .f32⟩
  | .hbm, ⟨88, _⟩ => ⟨S1x512, .f32⟩
  | .hbm, ⟨89, _⟩ => ⟨S8x512, .f32⟩
  | .hbm, ⟨90, _⟩ => ⟨S8x512, .f32⟩
  | .local _ .vmem, ⟨0, _⟩ => ⟨S8x512x512, .f32⟩
  | .local _ .vmem, ⟨1, _⟩ => ⟨S8x512x512, .f32⟩
  | .local _ .vmem, ⟨2, _⟩ => ⟨S8x512x512, .f32⟩
  | .local _ .vmem, ⟨3, _⟩ => ⟨S8x512x512, .f32⟩
  | .local _ .vmem, ⟨4, _⟩ => ⟨S512x64, .f32⟩
  | .local _ .vmem, ⟨5, _⟩ => ⟨S512x64, .f32⟩
  | .local _ .vmem, ⟨6, _⟩ => ⟨S1x1x64, .f32⟩
  | .local _ .vmem, ⟨7, _⟩ => ⟨S1x1x64, .f32⟩
  | .local _ .vmem, ⟨8, _⟩ => ⟨S1x8x64, .f32⟩
  | .local _ .vmem, ⟨9, _⟩ => ⟨S1x8x64, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S64x512_S512x64_1_0 : S64x512.Transposes [1, 0] S512x64
  shapeCasts_S64_S1x1x64 : S64.ShapeCasts S1x1x64
  inb_S1x8x64_S1x8x64_0_0_0 : ∀ a, (![0, 0, 0] : Fin 3 → Nat) a + S1x8x64.size a ≤ S1x8x64.size a
  h_S1x8x64 : 0 < S1x8x64.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  bitsLt_bf16_f32 : FTy.bits .bf16 < FTy.bits .f32
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  inb_S8x512x512_S8x256x512_0_0_0 : ∀ a, (![0, 0, 0] : Fin 3 → Nat) a + S8x256x512.size a ≤ S8x512x512.size a
  h_S8x256x512 : 0 < S8x256x512.numel
  shapeCasts_S8x256x512_S2048x512 : S8x256x512.ShapeCasts S2048x512
  shapeCasts_S2048x64_S8x256x64 : S2048x64.ShapeCasts S8x256x64
  broadcasts_S1x1x64_S8x256x64 : S1x1x64.Broadcasts S8x256x64
  reduces_S8x256x64_S8x64 : S8x256x64.Reduces [1] S8x64
  inb_S8x512x512_S8x256x512_0_256_0 : ∀ a, (![0, 256, 0] : Fin 3 → Nat) a + S8x256x512.size a ≤ S8x512x512.size a
  shapeCasts_S1x8x64_S1x8x64 : S1x8x64.ShapeCasts S1x8x64
  shapeCasts_S8x64_S1x8x64 : S8x64.ShapeCasts S1x8x64
  reducesTo_S2x8x64_S8x64_d0 : S2x8x64.ReducesTo [0] S8x64
  h_S_ : 0 < S_.numel
  transposes_S512x64_S64x512_1_0 : S512x64.Transposes [1, 0] S64x512
  bcast_S_S512 : S_.BroadcastsInDim S512 (![] : Fin 0 → Fin S512.rank)
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S_S64 : S_.BroadcastsInDim S64 (![] : Fin 0 → Fin S64.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x512 : S_.BroadcastsInDim S8x512 (![] : Fin 0 → Fin S8x512.rank)
  reducesTo_S8x512_S8_d1 : S8x512.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x512_0_1 : S8x1.BroadcastsInDim S8x512 (![0, 1] : Fin 2 → Fin S8x512.rank)
  transposes_S512x512_S512x512_1_0 : S512x512.Transposes [1, 0] S512x512
  dot_S2048x512_S512x64_S2048x64_1_0_0_1_n_n_wf : DotDims.WF S2048x512 S512x64 S2048x64 [1] [0] [0] [1] [] []
  dot_S8x64_S64x512_S8x512_1_0_0_1_n_n_wf : DotDims.WF S8x64 S64x512 S8x512 [1] [0] [0] [1] [] []
  dot_S8x512_S512x64_S8x64_1_0_0_1_n_n_wf : DotDims.WF S8x512 S512x64 S8x64 [1] [0] [0] [1] [] []
  dot_S8x512_S512x512_S8x512_1_0_0_1_n_n_wf : DotDims.WF S8x512 S512x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S8x4096x512.size a
  hwx0_0 : ∀ i : grid0.Coords, EltTy.bits .f32 = 32 ∨ (Rect.block (s := S8x4096x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S8x4096x512.size a
  hwx0_1 : ∀ i : grid0.Coords, EltTy.bits .f32 = 32 ∨ (Rect.block (s := S8x4096x512) S8x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S1x1x64.size a
  hwx0_4 : ∀ i : grid0.Coords, EltTy.bits .f32 = 32 ∨ (Rect.block (s := S1x1x64) S1x1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S1x1x64.size a
  hwx0_5 : ∀ i : grid0.Coords, EltTy.bits .f32 = 32 ∨ (Rect.block (s := S1x1x64) S1x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x64.size a ≤ S2x8x64.size a
  hwx0_6 : ∀ i : grid0.Coords, EltTy.bits .f32 = 32 ∨ (Rect.block (s := S2x8x64) S1x8x64.size (cc0_transform_6 i) (hinb0_6 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S8x64_S64x512_S8x512_1_0_0_1_n_n : DotDims S8x64 S64x512 S8x512 where
  lhsContracting := [1]
  rhsContracting := [0]
  lhsNonContracting := [0]
  rhsNonContracting := [1]
  lhsBatch := []
  rhsBatch := []
  wf := dot_S8x64_S64x512_S8x512_1_0_0_1_n_n_wf
def dot_S8x512_S512x64_S8x64_1_0_0_1_n_n : DotDims S8x512 S512x64 S8x64 where
  lhsContracting := [1]
  rhsContracting := [0]
  lhsNonContracting := [0]
  rhsNonContracting := [1]
  lhsBatch := []
  rhsBatch := []
  wf := dot_S8x512_S512x64_S8x64_1_0_0_1_n_n_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x8x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x512 : Shape := ⟨2, ![8, 512]⟩
abbrev S64x512 : Shape := ⟨2, ![64, 512]⟩
abbrev S64 : Shape := ⟨1, ![64]⟩
abbrev S512x64 : Shape := ⟨2, ![512, 64]⟩
abbrev S512 : Shape := ⟨1, ![512]⟩
abbrev S512x512 : Shape := ⟨2, ![512, 512]⟩
abbrev S8x4096x64 : Shape := ⟨3, ![8, 4096, 64]⟩
abbrev S1x1x64 : Shape := ⟨3, ![1, 1, 64]⟩
abbrev S1x1x512 : Shape := ⟨3, ![1, 1, 512]⟩
abbrev S8x64 : Shape := ⟨2, ![8, 64]⟩
abbrev S1x64 : Shape := ⟨2, ![1, 64]⟩
abbrev S8x1x64 : Shape := ⟨3, ![8, 1, 64]⟩
abbrev S_ : Shape := ⟨0, ![]⟩
abbrev S1x512 : Shape := ⟨2, ![1, 512]⟩
abbrev S8 : Shape := ⟨1, ![8]⟩
abbrev S8x1 : Shape := ⟨2, ![8, 1]⟩

abbrev nBuf : Space → Nat
  | .hbm => 88
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x512, .f32⟩
  | .hbm, ⟨3, _⟩ => ⟨S64x512, .f32⟩
  | .hbm, ⟨4, _⟩ => ⟨S64, .f32⟩
  | .hbm, ⟨5, _⟩ => ⟨S64x512, .f32⟩
  | .hbm, ⟨6, _⟩ => ⟨S64, .f32⟩
  | .hbm, ⟨7, _⟩ => ⟨S512x64, .f32⟩
  | .hbm, ⟨8, _⟩ => ⟨S512, .f32⟩
  | .hbm, ⟨9, _⟩ => ⟨S64x512, .f32⟩
  | .hbm, ⟨10, _⟩ => ⟨S64, .f32⟩
  | .hbm, ⟨11, _⟩ => ⟨S512x64, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S8x4096x64, .f32⟩
  | .hbm, ⟨18, _⟩ => ⟨S1x1x64, .f32⟩
  | .hbm, ⟨19, _⟩ => ⟨S8x4096x64, .f32⟩
  | .hbm, ⟨20, _⟩ => ⟨S8x4096x64, .f32⟩
  | .hbm, ⟨21, _⟩ => ⟨S8x4096x64, .f32⟩
  | .hbm, ⟨22, _⟩ => ⟨S1x1x64, .f32⟩
  | .hbm, ⟨23, _⟩ => ⟨S8x4096x64, .f32⟩
  | .hbm, ⟨24, _⟩ => ⟨S8x4096x64, .f32⟩
  | .hbm, ⟨25, _⟩ => ⟨S8x4096x64, .f32⟩
  | .hbm, ⟨26, _⟩ => ⟨S8x4096x512, .f32⟩
  | .hbm, ⟨27, _⟩ => ⟨S1x1x512, .f32⟩
  | .hbm, ⟨28, _⟩ => ⟨S8x4096x512, .f32⟩
  | .hbm, ⟨29, _⟩ => ⟨S8x4096x512, .f32⟩
  | .hbm, ⟨30, _⟩ => ⟨S512x64, .f32⟩
  | .hbm, ⟨31, _⟩ => ⟨S8x64, .f32⟩
  | .hbm, ⟨32, _⟩ => ⟨S1x64, .f32⟩
  | .hbm, ⟨33, _⟩ => ⟨S8x64, .f32⟩
  | .hbm, ⟨34, _⟩ => ⟨S8x64, .f32⟩
  | .hbm, ⟨35, _⟩ => ⟨S8x4096x64, .f32⟩
  | .hbm, ⟨36, _⟩ => ⟨S1x1x64, .f32⟩
  | .hbm, ⟨37, _⟩ => ⟨S8x4096x64, .f32⟩
  | .hbm, ⟨38, _⟩ => ⟨S8x4096x64, .f32⟩
  | .hbm, ⟨39, _⟩ => ⟨S8x1x64, .f32⟩
  | .hbm, ⟨40, _⟩ => ⟨S8x4096x64, .f32⟩
  | .hbm, ⟨41, _⟩ => ⟨S8x4096x64, .f32⟩
  | .hbm, ⟨42, _⟩ => ⟨S_, .f32⟩
  | .hbm, ⟨43, _⟩ => ⟨S8x64, .f32⟩
  | .hbm, ⟨44, _⟩ => ⟨S8x512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S1x512, .f32⟩
  | .hbm, ⟨49, _⟩ => ⟨S8x512, .f32⟩
  | .hbm, ⟨50, _⟩ => ⟨S8x512, .f32⟩
  | .hbm, ⟨51, _⟩ => ⟨S_, .f32⟩
  | .hbm, ⟨52, _⟩ => ⟨S8x512, .f32⟩
  | .hbm, ⟨53, _⟩ => ⟨S8x512, .f32⟩
  | .hbm, ⟨54, _⟩ => ⟨S_, .f32⟩
  | .hbm, ⟨55, _⟩ => ⟨S8, .f32⟩
  | .hbm, ⟨56, _⟩ => ⟨S8x1, .f32⟩
  | .hbm, ⟨57, _⟩ => ⟨S_, .f32⟩
  | .hbm, ⟨58, _⟩ => ⟨S8x1, .f32⟩
  | .hbm, ⟨59, _⟩ => ⟨S8x1, .f32⟩
  | .hbm, ⟨60, _⟩ => ⟨S8x512, .f32⟩
  | .hbm, ⟨61, _⟩ => ⟨S8x512, .f32⟩
  | .hbm, ⟨62, _⟩ => ⟨S8x512, .f32⟩
  | .hbm, ⟨63, _⟩ => ⟨S_, .f32⟩
  | .hbm, ⟨64, _⟩ => ⟨S8, .f32⟩
  | .hbm, ⟨65, _⟩ => ⟨S8x1, .f32⟩
  | .hbm, ⟨66, _⟩ => ⟨S_, .f32⟩
  | .hbm, ⟨67, _⟩ => ⟨S8x1, .f32⟩
  | .hbm, ⟨68, _⟩ => ⟨S8x1, .f32⟩
  | .hbm, ⟨69, _⟩ => ⟨S8x512, .f32⟩
  | .hbm, ⟨70, _⟩ => ⟨S8x512, .f32⟩
  | .hbm, ⟨71, _⟩ => ⟨S_, .f32⟩
  | .hbm, ⟨72, _⟩ => ⟨S8x1, .f32⟩
  | .hbm, ⟨73, _⟩ => ⟨S8x1, .f32⟩
  | .hbm, ⟨74, _⟩ => ⟨S8x1, .f32⟩
  | .hbm, ⟨75, _⟩ => ⟨S8x512, .f32⟩
  | .hbm, ⟨76, _⟩ => ⟨S8x512, .f32⟩
  | .hbm, ⟨77, _⟩ => ⟨S1x512, .f32⟩
  | .hbm, ⟨78, _⟩ => ⟨S8x512, .f32⟩
  | .hbm, ⟨79, _⟩ => ⟨S8x512, .f32⟩
  | .hbm, ⟨80, _⟩ => ⟨S1x512, .f32⟩
  | .hbm, ⟨81, _⟩ => ⟨S8x512, .f32⟩
  | .hbm, ⟨82, _⟩ => ⟨S8x512, .f32⟩
  | .hbm, ⟨83, _⟩ => ⟨S512x512, .f32⟩
  | .hbm, ⟨84, _⟩ => ⟨S8x512, .f32⟩
  | .hbm, ⟨85, _⟩ => ⟨S1x512, .f32⟩
  | .hbm, ⟨86, _⟩ => ⟨S8x512, .f32⟩
  | .hbm, ⟨87, _⟩ => ⟨S8x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_cst_0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_1 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_4 : Ref sig .tc := ⟨.hbm, 63, rfl⟩
abbrev main_v41 : Ref sig .tc := ⟨.hbm, 64, rfl⟩
abbrev main_v42 : Ref sig .tc := ⟨.hbm, 65, rfl⟩
abbrev main_cst_5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  transposes_S64x512_S512x64_1_0 : S64x512.Transposes [1, 0] S512x64
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S8x64_S8x1x64_0_2 : S8x64.BroadcastsInDim S8x1x64 (![0, 2] : Fin 2 → Fin S8x1x64.rank)
  bcast_S8x1x64_S8x4096x64_0_1_2 : S8x1x64.BroadcastsInDim S8x4096x64 (![0, 1, 2] : Fin 3 → Fin S8x4096x64.rank)
  reducesTo_S8x4096x64_S8x64_d1 : S8x4096x64.ReducesTo [1] S8x64
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S_S8x512 : S_.BroadcastsInDim S8x512 (![] : Fin 0 → Fin S8x512.rank)
  reducesTo_S8x512_S8_d1 : S8x512.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x512_0_1 : S8x1.BroadcastsInDim S8x512 (![0, 1] : Fin 2 → Fin S8x512.rank)
  transposes_S512x512_S512x512_1_0 : S512x512.Transposes [1, 0] S512x512
  dot_S8x4096x512_S64x512_S8x4096x64_2_1_01_0_n_n_wf : DotDims.WF S8x4096x512 S64x512 S8x4096x64 [2] [1] [0, 1] [0] [] []
  dot_S8x4096x64_S512x64_S8x4096x512_2_1_01_0_n_n_wf : DotDims.WF S8x4096x64 S512x64 S8x4096x512 [2] [1] [0, 1] [0] [] []
  dot_S8x512_S512x64_S8x64_1_0_0_1_n_n_wf : DotDims.WF S8x512 S512x64 S8x64 [1] [0] [0] [1] [] []
  dot_S8x64_S512x64_S8x512_1_1_0_0_n_n_wf : DotDims.WF S8x64 S512x64 S8x512 [1] [1] [0] [0] [] []
  dot_S8x512_S512x512_S8x512_1_0_0_1_n_n_wf : DotDims.WF S8x512 S512x512 S8x512 [1] [0] [0] [1] [] []

variable [Facts₀]

def dot_S8x4096x512_S64x512_S8x4096x64_2_1_01_0_n_n : DotDims S8x4096x512 S64x512 S8x4096x64 where
  lhsContracting := [2]
  rhsContracting := [1]
  lhsNonContracting := [0, 1]
  rhsNonContracting := [0]
  lhsBatch := []
  rhsBatch := []
  wf := dot_S8x4096x512_S64x512_S8x4096x64_2_1_01_0_n_n_wf
def dot_S8x4096x64_S512x64_S8x4096x512_2_1_01_0_n_n : DotDims S8x4096x64 S512x64 S8x4096x512 where
  lhsContracting := [2]
  rhsContracting := [1]
  lhsNonContracting := [0, 1]
  rhsNonContracting := [0]
  lhsBatch := []
  rhsBatch := []
  wf := dot_S8x4096x64_S512x64_S8x4096x512_2_1_01_0_n_n_wf
def dot_S8x512_S512x64_S8x64_1_0_0_1_n_n : DotDims S8x512 S512x64 S8x64 where
  lhsContracting := [1]
  rhsContracting := [0]
  lhsNonContracting := [0]
  rhsNonContracting := [1]
  lhsBatch := []
  rhsBatch := []
  wf := dot_S8x512_S512x64_S8x64_1_0_0_1_n_n_wf
def dot_S8x64_S512x64_S8x512_1_1_0_0_n_n : DotDims S8x64 S512x64 S8x512 where
  lhsContracting := [1]
  rhsContracting := [1]
  lhsNonContracting := [0]
  rhsNonContracting := [0]
  lhsBatch := []
  rhsBatch := []
  wf := dot_S8x64_S512x64_S8x512_1_1_0_0_n_n_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf

class Facts : Prop extends Facts₀ where

variable [Facts]
-- ==== Proof.RunBaseW.lean ====
/-
  What the runs of the region share.

  @main is four host lines (two transposes, two reshapes), the region, and sixty-nine host lines. The region is a
  pipeline over a 2 × 4 grid of points with seven windows: the two big inputs (a block of 512 positions each, fetched at
  every point), the two transposed weights and the two reshaped biases (fetched once), and the output, a block
  [1, 8, 64] chosen by the outer coordinate alone — so it stays in its staging buffer across the four inner steps and is
  written back after the last. The body clears that buffer when the inner coordinate is 0 and adds the point's sum to it
  at every point.

  Here: the buffers' contents when the region is entered (`V`: the launch contents after the four lines), @main cut
  around the region, the facts about the later lines that a run around the region asks for, each window's block at a
  point read off its array (`iblk`), that an input's staging buffer holds its block at every point, and the body's one
  condition in closed form over the grid.
-/
import proofs.«164664_j59974923321458_2_alg».proof.Proof.Gen.Kernel.Launch
import proofs.«164664_j59974923321458_2_alg».proof.Proof.Gen.Kernel.Skeleton
import proofs.«164664_j59974923321458_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch contents after the four host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

set_option maxHeartbeats 40000000 in  -- the later lines are a list of sixty-nine operations
/-- @main is the earlier lines, the region, the later lines: it reduces to the region continued by the later lines, the
    buffers at their contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped TensorCore buffers only: the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    not: unfetched, its block index has not moved, and the body leaves an input's buffer as it found it. -/
theorem beforeIn0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not: unfetched, its block index has not moved, and the body leaves an input's buffer as it found it. -/
theorem beforeIn1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not: unfetched, its block index has not moved, and the body leaves an input's buffer as it found it. -/
theorem beforeIn2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not: unfetched, its block index has not moved, and the body leaves an input's buffer as it found it. -/
theorem beforeIn3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    not: unfetched, its block index has not moved, and the body leaves an input's buffer as it found it. -/
theorem beforeIn4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the pipeline fetched it there or
    not: unfetched, its block index has not moved, and the body leaves an input's buffer as it found it. -/
theorem beforeIn5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's condition -/

/-- The body clears the output's buffer when this holds: the inner grid coordinate is 0 (the body's integer chain,
    substituted). -/
abbrev resets (i : grid0.Coords) : Prop := (Scalar.cmpi .ne (Scalar.extui (Scalar.cmpi .eq (BitVec.ofNat 32 (i 1).val) 0#32)) 0#32) = 1#1
/-- Over the grid: at the points divisible by 4, the first of each outer step. -/
theorem hresets : ∀ t : Fin cfg0.N, resets (grid0.coords t) ↔ t.val % 4 = 0 :=
  (by decide +kernel : ∀ t : Fin grid0.N, resets (grid0.coords t) ↔ t.val % 4 = 0)

/-! ## The staging memrefs the pipeline hands the body -/

/-- One staging buffer of the output window, through which its contents are stated (which one does not matter). -/
abbrev VO : View sig .tc .vmem S1x8x64 .f32 := (Memref.whole cc0_stg6_0 : Memref sig .tc .vmem S1x8x64 .f32).view
abbrev ms0 (t : Fin cfg0.N) : Memref sig .tc .vmem S8x512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x64 .f32 := win0_6.stage (cfg0.slots t 6)
abbrev hs6 (t : Fin cfg0.N) : (ms6 t).IsWhole := hstage0_6 ((cfg0.slots t 6).cast nbuf0_6)

end Cert.Kernel.Run

end
-- ==== Proof.RunResetW.lean ====
/-
  The body run once, where it clears the output's buffer first (inner coordinate 0).
  Nothing the body computes is restated: the pieces its stores leave in the output's buffer are found while the body
  is stepped through, and the later modules read them back.
-/
import proofs.«164664_j59974923321458_2_alg».proof.Proof.RunBaseW

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a point whose inner coordinate is 0, on any whole staging memrefs: the six inputs' at their contents, the
    output's at anything. It runs to its end leaving the inputs' as they were and the output's buffer with the pieces
    its stores wrote, last first — the zero block, then the point's sum added to what was read back — which the run
    finds. -/
noncomputable def runReset (c : Dev nD) (i : grid0.Coords) (arg2 : Memref sig .tc .vmem S8x512x512 .f32) (harg2 : arg2.IsWhole) (arg3 : Memref sig .tc .vmem S8x512x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (hc : resets i)
    (x0 x1 : Vec F S8x512x512 .f32) (x2 x3 : Vec F S512x64 .f32) (x4 x5 : Vec F S1x1x64 .f32) :
    { L : List (View.Piece (Elt F) S1x8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__kv_sum_kernel i arg2 harg2 arg3 harg3 arg4 harg4 arg5 harg5 arg6 harg6 arg7 harg7 arg8 harg8) K } := by
  refine ⟨?_, fun E K => ?run⟩
  case run =>
    simp only [cc0__kv_sum_kernel_eq_skeleton]; unfold cc0__kv_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Run

end
-- ==== Proof.RunCarryW.lean ====
/-
  The body run once, where it adds to what the earlier points left (inner coordinate not 0).
  Nothing the body computes is restated: the pieces its stores leave in the output's buffer are found while the body
  is stepped through, and the later modules read them back.
-/
import proofs.«164664_j59974923321458_2_alg».proof.Proof.RunResetW

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a point whose inner coordinate is not 0, on any whole staging memrefs: the six inputs' at their contents,
    the output's at the running total `xo` the earlier points of this outer step left. It runs to its end leaving the
    inputs' as they were and the output's buffer with the one piece its store wrote — the point's sum added to `xo` —
    which the run finds. -/
noncomputable def runCarry (c : Dev nD) (i : grid0.Coords) (arg2 : Memref sig .tc .vmem S8x512x512 .f32) (harg2 : arg2.IsWhole) (arg3 : Memref sig .tc .vmem S8x512x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (hc : ¬resets i)
    (x0 x1 : Vec F S8x512x512 .f32) (x2 x3 : Vec F S512x64 .f32) (x4 x5 : Vec F S1x1x64 .f32) (xo : Vec F S1x8x64 .f32) :
    { L : List (View.Piece (Elt F) S1x8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__kv_sum_kernel i arg2 harg2 arg3 harg3 arg4 harg4 arg5 harg5 arg6 harg6 arg7 harg7 arg8 harg8) K } := by
  refine ⟨?_, fun E K => ?run⟩
  case run =>
    simp only [cc0__kv_sum_kernel_eq_skeleton]; unfold cc0__kv_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Run

end
-- ==== Proof.KernelRunW.lean ====
/-
  The region's run.

  What the output's staging buffer holds after the body at each point is defined by recursion on the point: at a point
  divisible by 4 (inner coordinate 0) what the clearing case leaves, at any other what the adding case leaves over the
  point before. With that as the proof data's `after` for the output window and each input's block for the inputs, the
  body meets the pipeline's obligation at every point — the inputs' buffers hold their blocks, and between two points of
  one outer step the output's buffer is not written back, so it still holds what the point before left — and the library
  runs @main around the region: every weakly fair execution ends, the arrays at what the proof data say, every other
  buffer at what the sixty-nine later lines compute from them.
-/
import proofs.«164664_j59974923321458_2_alg».proof.Proof.RunCarryW

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's buffer -/

/-- The clearing case's stores tile the output block, so they cover it. -/
theorem coverReset (c : Dev nD) (i : grid0.Coords) (arg2 : Memref sig .tc .vmem S8x512x512 .f32) (harg2 : arg2.IsWhole) (arg3 : Memref sig .tc .vmem S8x512x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (hc : resets i)
    (x0 x1 : Vec F S8x512x512 .f32) (x2 x3 : Vec F S512x64 .f32) (x4 x5 : Vec F S1x1x64 .f32) (y : S1x8x64.Idx) :
    ∃ pc ∈ (runReset c i arg2 harg2 arg3 harg3 arg4 harg4 arg5 harg5 arg6 harg6 arg7 harg7 arg8 harg8 hc x0 x1 x2 x3 x4 x5).1, y ∈ pc.1.set :=
  View.cover_of_tiledL (runReset c i arg2 harg2 arg3 harg3 arg4 harg4 arg5 harg5 arg6 harg6 arg7 harg7 arg8 harg8 hc x0 x1 x2 x3 x4 x5).1 S1x8x64.size (by sl_kernel_rfl) y

/-- What the clearing case leaves: its pieces read back. -/
def outReset (c : Dev nD) (i : grid0.Coords) (arg2 : Memref sig .tc .vmem S8x512x512 .f32) (harg2 : arg2.IsWhole) (arg3 : Memref sig .tc .vmem S8x512x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (hc : resets i)
    (x0 x1 : Vec F S8x512x512 .f32) (x2 x3 : Vec F S512x64 .f32) (x4 x5 : Vec F S1x1x64 .f32) : Vec F S1x8x64 .f32 :=
  VO.read (Elt F) (VO.writes (Elt F) VO.junk (runReset c i arg2 harg2 arg3 harg3 arg4 harg4 arg5 harg5 arg6 harg6 arg7 harg7 arg8 harg8 hc x0 x1 x2 x3 x4 x5).1)

/-- The adding case's one store covers the output block. -/
theorem coverCarry (c : Dev nD) (i : grid0.Coords) (arg2 : Memref sig .tc .vmem S8x512x512 .f32) (harg2 : arg2.IsWhole) (arg3 : Memref sig .tc .vmem S8x512x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (hc : ¬resets i)
    (x0 x1 : Vec F S8x512x512 .f32) (x2 x3 : Vec F S512x64 .f32) (x4 x5 : Vec F S1x1x64 .f32) (xo : Vec F S1x8x64 .f32) (y : S1x8x64.Idx) :
    ∃ pc ∈ (runCarry c i arg2 harg2 arg3 harg3 arg4 harg4 arg5 harg5 arg6 harg6 arg7 harg7 arg8 harg8 hc x0 x1 x2 x3 x4 x5 xo).1, y ∈ pc.1.set :=
  View.cover_of_tiledL (runCarry c i arg2 harg2 arg3 harg3 arg4 harg4 arg5 harg5 arg6 harg6 arg7 harg7 arg8 harg8 hc x0 x1 x2 x3 x4 x5 xo).1 S1x8x64.size (by sl_kernel_rfl) y

/-- What the adding case leaves over the running total `xo`: its piece read back. -/
def outCarry (c : Dev nD) (i : grid0.Coords) (arg2 : Memref sig .tc .vmem S8x512x512 .f32) (harg2 : arg2.IsWhole) (arg3 : Memref sig .tc .vmem S8x512x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (hc : ¬resets i)
    (x0 x1 : Vec F S8x512x512 .f32) (x2 x3 : Vec F S512x64 .f32) (x4 x5 : Vec F S1x1x64 .f32) (xo : Vec F S1x8x64 .f32) : Vec F S1x8x64 .f32 :=
  VO.read (Elt F) (VO.writes (Elt F) VO.junk (runCarry c i arg2 harg2 arg3 harg3 arg4 harg4 arg5 harg5 arg6 harg6 arg7 harg7 arg8 harg8 hc x0 x1 x2 x3 x4 x5 xo).1)

/-! ## Point by point -/

/-- The output's staging buffer after the body at position `n`: the running total of the current outer step. -/
def outsAt (c : Dev nD) : (n : ℕ) → n < cfg0.N → Vec F S1x8x64 .f32
  | 0, hn => outReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hresets ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 4 = 0 then
      outReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hresets ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      outCarry c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hresets ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn))

/-- At a point divisible by 4: the clearing case. -/
theorem outsAt_reset (c : Dev nD) (t : Fin cfg0.N) (h0 : t.val % 4 = 0) :
    outsAt m c t.val t.isLt = outReset c (grid0.coords t) (ms0 t) (hs0 t) (ms1 t) (hs1 t) (ms2 t) (hs2 t) (ms3 t) (hs3 t) (ms4 t) (hs4 t) (ms5 t) (hs5 t) (ms6 t) (hs6 t) ((hresets t).mpr h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

/-- At any other point: the adding case, over what the point before left. -/
theorem outsAt_carry (c : Dev nD) (t : Fin cfg0.N) (h0 : ¬t.val % 4 = 0) :
    outsAt m c t.val t.isLt = outCarry c (grid0.coords t) (ms0 t) (hs0 t) (ms1 t) (hs1 t) (ms2 t) (hs2 t) (ms3 t) (hs3 t) (ms4 t) (hs4 t) (ms5 t) (hs5 t) (ms6 t) (hs6 t) (fun h => h0 ((hresets t).mp h)) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point each input's buffer at its block and the output's at
    the running total; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t = (outsAt m c t.val t.isLt) := by dsimp only [dats]

theorem before_in0 (c : Dev nD) (t : Fin cfg0.N) (d) : (dats m 0 c).before 0 t d = iblk m c 0 t :=
  beforeIn0_of m (dats m 0 c) (A_eq m c 0) (after_in0 m c) t d
theorem before_in1 (c : Dev nD) (t : Fin cfg0.N) (d) : (dats m 0 c).before 1 t d = iblk m c 1 t :=
  beforeIn1_of m (dats m 0 c) (A_eq m c 1) (after_in1 m c) t d
theorem before_in2 (c : Dev nD) (t : Fin cfg0.N) (d) : (dats m 0 c).before 2 t d = iblk m c 2 t :=
  beforeIn2_of m (dats m 0 c) (A_eq m c 2) (after_in2 m c) t d
theorem before_in3 (c : Dev nD) (t : Fin cfg0.N) (d) : (dats m 0 c).before 3 t d = iblk m c 3 t :=
  beforeIn3_of m (dats m 0 c) (A_eq m c 3) (after_in3 m c) t d
theorem before_in4 (c : Dev nD) (t : Fin cfg0.N) (d) : (dats m 0 c).before 4 t d = iblk m c 4 t :=
  beforeIn4_of m (dats m 0 c) (A_eq m c 4) (after_in4 m c) t d
theorem before_in5 (c : Dev nD) (t : Fin cfg0.N) (d) : (dats m 0 c).before 5 t d = iblk m c 5 t :=
  beforeIn5_of m (dats m 0 c) (A_eq m c 5) (after_in5 m c) t d

/-- At a point not divisible by 4 the output's buffer holds what the body left at the point before: the point is not the
    first, and the buffer is written back only after the last inner step. -/
theorem before_out_carry (c : Dev nD) (t : Fin cfg0.N) (h0 : ¬t.val % 4 = 0) (d) :
    (dats m 0 c).before 6 t d = (outsAt m c (t.val - 1) (Nat.lt_of_le_of_lt (Nat.sub_le _ _) t.isLt)) := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4000000 in
/-- The body at any point: the inputs' buffers hold their blocks; the closed form of the condition says which case the
    point is in; in the adding case the output's buffer holds what the point before left; so that case's run applies,
    the invariant passing through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_out]
  have hN : t.val < 8 := lt_of_lt_of_eq t.isLt (show cfg0.N = 8 from N_0)
  by_cases h0 : t.val % 4 = 0
  · rw [outsAt_reset m c t h0]
    unfold outReset
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runReset c (grid0.coords t) (ms0 t) (hs0 t) (ms1 t) (hs1 t) (ms2 t) (hs2 t) (ms3 t) (hs3 t) (ms4 t) (hs4 t) (ms5 t) (hs5 t) (ms6 t) (hs6 t) ((hresets t).mpr h0) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverReset c _ _ _ _ _ _ _ _ _ _ _ _ _ _ _ _ _ _ _ _ _ _)
  · rw [outsAt_carry m c t h0]
    simp only [before_out_carry m c t h0]
    unfold outCarry
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runCarry c (grid0.coords t) (ms0 t) (hs0 t) (ms1 t) (hs1 t) (ms2 t) (hs2 t) (ms3 t) (hs3 t) (ms4 t) (hs4 t) (ms5 t) (hs5 t) (ms6 t) (hs6 t) (fun h => h0 ((hresets t).mp h)) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverCarry c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Run

end
-- ==== Proof.TailKeepsW.lean ====
/-
  The host lines and the buffers they leave alone.

  Each host line writes one buffer, its own result. So the four lines before the region leave every argument at its
  launch contents, and the sixty-nine lines after it write neither an argument nor an array that a window of the
  pipeline stages. Hence the frame: after a run around the region the two staged arguments are at their arrays'
  region-entry contents, which are the launch contents, and every other argument, staged by no window and written by
  no line, is where it was.
-/
import proofs.«164664_j59974923321458_2_alg».proof.Proof.RunBaseW

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The later lines write no array of the pipeline: each writes only its own result, which is none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  subst hops
  revert op
  rw [← List.forall_iff_forall_mem]
  fin_cases w <;>
    (simp only [hostOps1, List.Forall, StableHlo.nullary_writes, StableHlo.unary_writes, StableHlo.binary_writes, StableHlo.ternary_writes, StableHlo.quaternary_writes, StableHlo.reshape_writes, StableHlo.binaryIndexed_writes, Finset.mem_singleton]
     repeat' apply And.intro) <;>
    exact StableHlo.devRef_ne_of_ne (by decide)

/-! ## The arguments through the earlier lines -/

theorem V_main_arg0 (c : Dev nD) : V m c main_arg0 = m ((c : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## The arguments no window stages, through the later lines -/

set_option maxHeartbeats 40000000 in
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
set_option maxHeartbeats 40000000 in
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
set_option maxHeartbeats 40000000 in
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
set_option maxHeartbeats 40000000 in
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
set_option maxHeartbeats 40000000 in
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
set_option maxHeartbeats 40000000 in
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
set_option maxHeartbeats 40000000 in
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
set_option maxHeartbeats 40000000 in
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
set_option maxHeartbeats 40000000 in
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
set_option maxHeartbeats 40000000 in
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
set_option maxHeartbeats 40000000 in
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
set_option maxHeartbeats 40000000 in
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
set_option maxHeartbeats 40000000 in
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
set_option maxHeartbeats 40000000 in
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c
set_option maxHeartbeats 40000000 in
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-! ## The frame claim's post from the run's -/

/-- For any proof data whose arrays are the region-entry contents, a run around the region to the library's post is the
    frame claim's: all seventeen arguments end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨
    ((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c)⟩) h

end Cert.Kernel.Run

end
-- ==== Proof.AroundW.lean ====
/-
  @main run around the region, and the frame.
-/
import proofs.«164664_j59974923321458_2_alg».proof.Proof.KernelRunW
import proofs.«164664_j59974923321458_2_alg».proof.Proof.TailKeepsW

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 40000000 in
/-- From any memory with zero counters every weakly fair execution of @main terminates, nothing faulting, with every array
    of the pipeline at what the proof data say and every other unscoped buffer at what the later lines compute from the
    arrays' final contents and the region-entry contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame, at any instance of the float operations: the program runs to its end and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Run

end
-- ==== Proof.RunBase.lean ====
/-
  What the runs of the region share.

  @main is four host lines (two transposes, two reshapes), the region, and sixty-nine host lines. The region is a
  pipeline over a 2 × 4 grid of points with seven windows: the two big inputs (a block of 512 positions each, fetched at
  every point), the two transposed weights and the two reshaped biases (fetched once), and the output, a block
  [1, 8, 64] chosen by the outer coordinate alone — so it stays in its staging buffer across the four inner steps and is
  written back after the last. The body clears that buffer when the inner coordinate is 0 and adds the point's sum to it
  at every point.

  Here: the buffers' contents when the region is entered (`V`: the launch contents after the four lines), @main cut
  around the region, the facts about the later lines that a run around the region asks for, each window's block at a
  point read off its array (`iblk`), that an input's staging buffer holds its block at every point, and the body's one
  condition in closed form over the grid.
-/
import proofs.«164664_j59974923321458_2_alg».proof.Proof.Gen.KernelIdeal.Launch
import proofs.«164664_j59974923321458_2_alg».proof.Proof.Gen.KernelIdeal.Skeleton
import proofs.«164664_j59974923321458_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch contents after the four host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

set_option maxHeartbeats 40000000 in  -- the later lines are a list of sixty-nine operations
/-- @main is the earlier lines, the region, the later lines: it reduces to the region continued by the later lines, the
    buffers at their contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped TensorCore buffers only: the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    not: unfetched, its block index has not moved, and the body leaves an input's buffer as it found it. -/
theorem beforeIn0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    not: unfetched, its block index has not moved, and the body leaves an input's buffer as it found it. -/
theorem beforeIn1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    not: unfetched, its block index has not moved, and the body leaves an input's buffer as it found it. -/
theorem beforeIn2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    not: unfetched, its block index has not moved, and the body leaves an input's buffer as it found it. -/
theorem beforeIn3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    not: unfetched, its block index has not moved, and the body leaves an input's buffer as it found it. -/
theorem beforeIn4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the pipeline fetched it there or
    not: unfetched, its block index has not moved, and the body leaves an input's buffer as it found it. -/
theorem beforeIn5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's condition -/

/-- The body clears the output's buffer when this holds: the inner grid coordinate is 0 (the body's integer chain,
    substituted). -/
abbrev resets (i : grid0.Coords) : Prop := (Scalar.cmpi .ne (Scalar.extui (Scalar.cmpi .eq (BitVec.ofNat 32 (i 1).val) 0#32)) 0#32) = 1#1
/-- Over the grid: at the points divisible by 4, the first of each outer step. -/
theorem hresets : ∀ t : Fin cfg0.N, resets (grid0.coords t) ↔ t.val % 4 = 0 :=
  (by decide +kernel : ∀ t : Fin grid0.N, resets (grid0.coords t) ↔ t.val % 4 = 0)

/-! ## The staging memrefs the pipeline hands the body -/

/-- One staging buffer of the output window, through which its contents are stated (which one does not matter). -/
abbrev VO : View sig .tc .vmem S1x8x64 .f32 := (Memref.whole cc0_stg6_0 : Memref sig .tc .vmem S1x8x64 .f32).view
abbrev ms0 (t : Fin cfg0.N) : Memref sig .tc .vmem S8x512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x64 .f32 := win0_6.stage (cfg0.slots t 6)
abbrev hs6 (t : Fin cfg0.N) : (ms6 t).IsWhole := hstage0_6 ((cfg0.slots t 6).cast nbuf0_6)

end Cert.KernelIdeal.Run

end
-- ==== Proof.RunReset.lean ====
/-
  The body run once, where it clears the output's buffer first (inner coordinate 0).
  Nothing the body computes is restated: the pieces its stores leave in the output's buffer are found while the body
  is stepped through, and the later modules read them back.
-/
import proofs.«164664_j59974923321458_2_alg».proof.Proof.RunBase

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a point whose inner coordinate is 0, on any whole staging memrefs: the six inputs' at their contents, the
    output's at anything. It runs to its end leaving the inputs' as they were and the output's buffer with the pieces
    its stores wrote, last first — the zero block, then the point's sum added to what was read back — which the run
    finds. -/
noncomputable def runReset (c : Dev nD) (i : grid0.Coords) (arg2 : Memref sig .tc .vmem S8x512x512 .f32) (harg2 : arg2.IsWhole) (arg3 : Memref sig .tc .vmem S8x512x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (hc : resets i)
    (x0 x1 : Vec F S8x512x512 .f32) (x2 x3 : Vec F S512x64 .f32) (x4 x5 : Vec F S1x1x64 .f32) :
    { L : List (View.Piece (Elt F) S1x8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__kv_sum_kernel i arg2 harg2 arg3 harg3 arg4 harg4 arg5 harg5 arg6 harg6 arg7 harg7 arg8 harg8) K } := by
  refine ⟨?_, fun E K => ?run⟩
  case run =>
    simp only [cc0__kv_sum_kernel_eq_skeleton]; unfold cc0__kv_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Run

end
-- ==== Proof.RunCarry.lean ====
/-
  The body run once, where it adds to what the earlier points left (inner coordinate not 0).
  Nothing the body computes is restated: the pieces its stores leave in the output's buffer are found while the body
  is stepped through, and the later modules read them back.
-/
import proofs.«164664_j59974923321458_2_alg».proof.Proof.RunReset

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a point whose inner coordinate is not 0, on any whole staging memrefs: the six inputs' at their contents,
    the output's at the running total `xo` the earlier points of this outer step left. It runs to its end leaving the
    inputs' as they were and the output's buffer with the one piece its store wrote — the point's sum added to `xo` —
    which the run finds. -/
noncomputable def runCarry (c : Dev nD) (i : grid0.Coords) (arg2 : Memref sig .tc .vmem S8x512x512 .f32) (harg2 : arg2.IsWhole) (arg3 : Memref sig .tc .vmem S8x512x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (hc : ¬resets i)
    (x0 x1 : Vec F S8x512x512 .f32) (x2 x3 : Vec F S512x64 .f32) (x4 x5 : Vec F S1x1x64 .f32) (xo : Vec F S1x8x64 .f32) :
    { L : List (View.Piece (Elt F) S1x8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__kv_sum_kernel i arg2 harg2 arg3 harg3 arg4 harg4 arg5 harg5 arg6 harg6 arg7 harg7 arg8 harg8) K } := by
  refine ⟨?_, fun E K => ?run⟩
  case run =>
    simp only [cc0__kv_sum_kernel_eq_skeleton]; unfold cc0__kv_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Run

end
-- ==== Proof.KernelRun.lean ====
/-
  The region's run.

  What the output's staging buffer holds after the body at each point is defined by recursion on the point: at a point
  divisible by 4 (inner coordinate 0) what the clearing case leaves, at any other what the adding case leaves over the
  point before. With that as the proof data's `after` for the output window and each input's block for the inputs, the
  body meets the pipeline's obligation at every point — the inputs' buffers hold their blocks, and between two points of
  one outer step the output's buffer is not written back, so it still holds what the point before left — and the library
  runs @main around the region: every weakly fair execution ends, the arrays at what the proof data say, every other
  buffer at what the sixty-nine later lines compute from them.
-/
import proofs.«164664_j59974923321458_2_alg».proof.Proof.RunCarry

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's buffer -/

/-- The clearing case's stores tile the output block, so they cover it. -/
theorem coverReset (c : Dev nD) (i : grid0.Coords) (arg2 : Memref sig .tc .vmem S8x512x512 .f32) (harg2 : arg2.IsWhole) (arg3 : Memref sig .tc .vmem S8x512x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (hc : resets i)
    (x0 x1 : Vec F S8x512x512 .f32) (x2 x3 : Vec F S512x64 .f32) (x4 x5 : Vec F S1x1x64 .f32) (y : S1x8x64.Idx) :
    ∃ pc ∈ (runReset c i arg2 harg2 arg3 harg3 arg4 harg4 arg5 harg5 arg6 harg6 arg7 harg7 arg8 harg8 hc x0 x1 x2 x3 x4 x5).1, y ∈ pc.1.set :=
  View.cover_of_tiledL (runReset c i arg2 harg2 arg3 harg3 arg4 harg4 arg5 harg5 arg6 harg6 arg7 harg7 arg8 harg8 hc x0 x1 x2 x3 x4 x5).1 S1x8x64.size (by sl_kernel_rfl) y

/-- What the clearing case leaves: its pieces read back. -/
def outReset (c : Dev nD) (i : grid0.Coords) (arg2 : Memref sig .tc .vmem S8x512x512 .f32) (harg2 : arg2.IsWhole) (arg3 : Memref sig .tc .vmem S8x512x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (hc : resets i)
    (x0 x1 : Vec F S8x512x512 .f32) (x2 x3 : Vec F S512x64 .f32) (x4 x5 : Vec F S1x1x64 .f32) : Vec F S1x8x64 .f32 :=
  VO.read (Elt F) (VO.writes (Elt F) VO.junk (runReset c i arg2 harg2 arg3 harg3 arg4 harg4 arg5 harg5 arg6 harg6 arg7 harg7 arg8 harg8 hc x0 x1 x2 x3 x4 x5).1)

/-- The adding case's one store covers the output block. -/
theorem coverCarry (c : Dev nD) (i : grid0.Coords) (arg2 : Memref sig .tc .vmem S8x512x512 .f32) (harg2 : arg2.IsWhole) (arg3 : Memref sig .tc .vmem S8x512x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (hc : ¬resets i)
    (x0 x1 : Vec F S8x512x512 .f32) (x2 x3 : Vec F S512x64 .f32) (x4 x5 : Vec F S1x1x64 .f32) (xo : Vec F S1x8x64 .f32) (y : S1x8x64.Idx) :
    ∃ pc ∈ (runCarry c i arg2 harg2 arg3 harg3 arg4 harg4 arg5 harg5 arg6 harg6 arg7 harg7 arg8 harg8 hc x0 x1 x2 x3 x4 x5 xo).1, y ∈ pc.1.set :=
  View.cover_of_tiledL (runCarry c i arg2 harg2 arg3 harg3 arg4 harg4 arg5 harg5 arg6 harg6 arg7 harg7 arg8 harg8 hc x0 x1 x2 x3 x4 x5 xo).1 S1x8x64.size (by sl_kernel_rfl) y

/-- What the adding case leaves over the running total `xo`: its piece read back. -/
def outCarry (c : Dev nD) (i : grid0.Coords) (arg2 : Memref sig .tc .vmem S8x512x512 .f32) (harg2 : arg2.IsWhole) (arg3 : Memref sig .tc .vmem S8x512x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (hc : ¬resets i)
    (x0 x1 : Vec F S8x512x512 .f32) (x2 x3 : Vec F S512x64 .f32) (x4 x5 : Vec F S1x1x64 .f32) (xo : Vec F S1x8x64 .f32) : Vec F S1x8x64 .f32 :=
  VO.read (Elt F) (VO.writes (Elt F) VO.junk (runCarry c i arg2 harg2 arg3 harg3 arg4 harg4 arg5 harg5 arg6 harg6 arg7 harg7 arg8 harg8 hc x0 x1 x2 x3 x4 x5 xo).1)

/-! ## Point by point -/

/-- The output's staging buffer after the body at position `n`: the running total of the current outer step. -/
def outsAt (c : Dev nD) : (n : ℕ) → n < cfg0.N → Vec F S1x8x64 .f32
  | 0, hn => outReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hresets ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 4 = 0 then
      outReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hresets ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      outCarry c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hresets ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn))

/-- At a point divisible by 4: the clearing case. -/
theorem outsAt_reset (c : Dev nD) (t : Fin cfg0.N) (h0 : t.val % 4 = 0) :
    outsAt m c t.val t.isLt = outReset c (grid0.coords t) (ms0 t) (hs0 t) (ms1 t) (hs1 t) (ms2 t) (hs2 t) (ms3 t) (hs3 t) (ms4 t) (hs4 t) (ms5 t) (hs5 t) (ms6 t) (hs6 t) ((hresets t).mpr h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

/-- At any other point: the adding case, over what the point before left. -/
theorem outsAt_carry (c : Dev nD) (t : Fin cfg0.N) (h0 : ¬t.val % 4 = 0) :
    outsAt m c t.val t.isLt = outCarry c (grid0.coords t) (ms0 t) (hs0 t) (ms1 t) (hs1 t) (ms2 t) (hs2 t) (ms3 t) (hs3 t) (ms4 t) (hs4 t) (ms5 t) (hs5 t) (ms6 t) (hs6 t) (fun h => h0 ((hresets t).mp h)) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at a point each input's buffer at its block and the output's at
    the running total; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t = (outsAt m c t.val t.isLt) := by dsimp only [dats]

theorem before_in0 (c : Dev nD) (t : Fin cfg0.N) (d) : (dats m 0 c).before 0 t d = iblk m c 0 t :=
  beforeIn0_of m (dats m 0 c) (A_eq m c 0) (after_in0 m c) t d
theorem before_in1 (c : Dev nD) (t : Fin cfg0.N) (d) : (dats m 0 c).before 1 t d = iblk m c 1 t :=
  beforeIn1_of m (dats m 0 c) (A_eq m c 1) (after_in1 m c) t d
theorem before_in2 (c : Dev nD) (t : Fin cfg0.N) (d) : (dats m 0 c).before 2 t d = iblk m c 2 t :=
  beforeIn2_of m (dats m 0 c) (A_eq m c 2) (after_in2 m c) t d
theorem before_in3 (c : Dev nD) (t : Fin cfg0.N) (d) : (dats m 0 c).before 3 t d = iblk m c 3 t :=
  beforeIn3_of m (dats m 0 c) (A_eq m c 3) (after_in3 m c) t d
theorem before_in4 (c : Dev nD) (t : Fin cfg0.N) (d) : (dats m 0 c).before 4 t d = iblk m c 4 t :=
  beforeIn4_of m (dats m 0 c) (A_eq m c 4) (after_in4 m c) t d
theorem before_in5 (c : Dev nD) (t : Fin cfg0.N) (d) : (dats m 0 c).before 5 t d = iblk m c 5 t :=
  beforeIn5_of m (dats m 0 c) (A_eq m c 5) (after_in5 m c) t d

/-- At a point not divisible by 4 the output's buffer holds what the body left at the point before: the point is not the
    first, and the buffer is written back only after the last inner step. -/
theorem before_out_carry (c : Dev nD) (t : Fin cfg0.N) (h0 : ¬t.val % 4 = 0) (d) :
    (dats m 0 c).before 6 t d = (outsAt m c (t.val - 1) (Nat.lt_of_le_of_lt (Nat.sub_le _ _) t.isLt)) := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4000000 in
/-- The body at any point: the inputs' buffers hold their blocks; the closed form of the condition says which case the
    point is in; in the adding case the output's buffer holds what the point before left; so that case's run applies,
    the invariant passing through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_out]
  have hN : t.val < 8 := lt_of_lt_of_eq t.isLt (show cfg0.N = 8 from N_0)
  by_cases h0 : t.val % 4 = 0
  · rw [outsAt_reset m c t h0]
    unfold outReset
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runReset c (grid0.coords t) (ms0 t) (hs0 t) (ms1 t) (hs1 t) (ms2 t) (hs2 t) (ms3 t) (hs3 t) (ms4 t) (hs4 t) (ms5 t) (hs5 t) (ms6 t) (hs6 t) ((hresets t).mpr h0) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverReset c _ _ _ _ _ _ _ _ _ _ _ _ _ _ _ _ _ _ _ _ _ _)
  · rw [outsAt_carry m c t h0]
    simp only [before_out_carry m c t h0]
    unfold outCarry
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runCarry c (grid0.coords t) (ms0 t) (hs0 t) (ms1 t) (hs1 t) (ms2 t) (hs2 t) (ms3 t) (hs3 t) (ms4 t) (hs4 t) (ms5 t) (hs5 t) (ms6 t) (hs6 t) (fun h => h0 ((hresets t).mp h)) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverCarry c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Run

end
-- ==== Proof.TailKeeps.lean ====
/-
  The host lines and the buffers they leave alone.

  Each host line writes one buffer, its own result. So the four lines before the region leave every argument at its
  launch contents, and the sixty-nine lines after it write neither an argument nor an array that a window of the
  pipeline stages. Hence the frame: after a run around the region the two staged arguments are at their arrays'
  region-entry contents, which are the launch contents, and every other argument, staged by no window and written by
  no line, is where it was.
-/
import proofs.«164664_j59974923321458_2_alg».proof.Proof.RunBase

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The later lines write no array of the pipeline: each writes only its own result, which is none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  subst hops
  revert op
  rw [← List.forall_iff_forall_mem]
  fin_cases w <;>
    (simp only [hostOps1, List.Forall, StableHlo.nullary_writes, StableHlo.unary_writes, StableHlo.binary_writes, StableHlo.ternary_writes, StableHlo.quaternary_writes, StableHlo.reshape_writes, StableHlo.binaryIndexed_writes, Finset.mem_singleton]
     repeat' apply And.intro) <;>
    exact StableHlo.devRef_ne_of_ne (by decide)

/-! ## The arguments through the earlier lines -/

theorem V_main_arg0 (c : Dev nD) : V m c main_arg0 = m ((c : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## The arguments no window stages, through the later lines -/

set_option maxHeartbeats 40000000 in
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
set_option maxHeartbeats 40000000 in
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
set_option maxHeartbeats 40000000 in
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
set_option maxHeartbeats 40000000 in
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
set_option maxHeartbeats 40000000 in
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
set_option maxHeartbeats 40000000 in
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
set_option maxHeartbeats 40000000 in
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
set_option maxHeartbeats 40000000 in
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
set_option maxHeartbeats 40000000 in
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
set_option maxHeartbeats 40000000 in
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
set_option maxHeartbeats 40000000 in
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
set_option maxHeartbeats 40000000 in
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
set_option maxHeartbeats 40000000 in
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
set_option maxHeartbeats 40000000 in
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c
set_option maxHeartbeats 40000000 in
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-! ## The frame claim's post from the run's -/

/-- For any proof data whose arrays are the region-entry contents, a run around the region to the library's post is the
    frame claim's: all seventeen arguments end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨
    ((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c)⟩) h

end Cert.KernelIdeal.Run

end
-- ==== Proof.Around.lean ====
/-
  @main run around the region, and the frame.
-/
import proofs.«164664_j59974923321458_2_alg».proof.Proof.KernelRun
import proofs.«164664_j59974923321458_2_alg».proof.Proof.TailKeeps

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 40000000 in
/-- From any memory with zero counters every weakly fair execution of @main terminates, nothing faulting, with every array
    of the pipeline at what the proof data say and every other unscoped buffer at what the later lines compute from the
    arrays' final contents and the region-entry contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame, at any instance of the float operations: the program runs to its end and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Run

end
-- ==== Proof.RunResult.lean ====
/-
  The run read at the result: after any weakly fair execution the result buffer holds what the sixty-nine later lines
  compute from the region's output array and the region-entry contents, and the seventeen arguments are as launched.
-/
import proofs.«164664_j59974923321458_2_alg».proof.Proof.Around

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem run_result : θ_run defs (onTc (τ := τ) (main (F := F))) ⟨m, fun _ => 0, ρ⟩ (fun r => ∀ c : Dev nD,
      r.2.mem ((c.tc : Thread nD τ).loc main_v63) = Pipeline.afterTail₀ cfgs (dats m) 0 (V0 m) [hostOps1] c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c).2 main_v63 (Pipeline.mem_restRefs_of main_v63 (by decide) (by decide)),
    ((h c).1 0).trans ((((dats m) 0 c).arrAt_in 0 rfl _).trans ((A_eq m c 0).trans (V_main_arg0 m c))),
    ((h c).1 1).trans ((((dats m) 0 c).arrAt_in 1 rfl _).trans ((A_eq m c 1).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c)⟩) (run_main m ρ)

end Cert.KernelIdeal.Run

end
-- ==== Proof.KerTail.lean ====
import proofs.«164664_j59974923321458_2_alg».proof.KernelIdeal
import Idealize.ShloMosaic.PureOps.Ideal

/-!
# The host lines after the region, as one function of the arrays

The region leaves two partial sums `P` (shape [2, 8, 64]). The host lines that follow add the two halves, push
the total through the binding layer and the query layer (each bias multiplied by the constant 4096), multiply
the result entrywise by the projected query, project once more, divide by 64, normalise each row (mean,
variance, square root, scale and shift) and apply the output layer. `kerTail` is that whole composition, one
`have` per host line in the program's order, with exactly the operations, shape records and constant words of
the program; `kerMatch` is the same chain stopped at the entrywise product with the projected query.

Every array is a function from the index type of its literal shape to the extended reals.
-/

noncomputable section

namespace Cert.KerTail

open Idealize.ShloMosaic Cert.KernelIdeal Cert.KernelIdeal.Facts₀

variable [Cert.KernelIdeal.Facts₀]

/-- The host lines up to the entrywise product of the projected query with the twice-projected total: from the
two partial sums `P`, the query `a2`, the binding layer `a7`, `a8` and the query layer `a9`, `a10`. -/
def kerMatch (P : (⟨S2x8x64, .f32⟩ : BufTy).Contents (Elt Ideal)) (a2 : (⟨S8x512, .f32⟩ : BufTy).Contents (Elt Ideal))
    (a7 : (⟨S512x64, .f32⟩ : BufTy).Contents (Elt Ideal)) (a8 : (⟨S512, .f32⟩ : BufTy).Contents (Elt Ideal))
    (a9 : (⟨S64x512, .f32⟩ : BufTy).Contents (Elt Ideal)) (a10 : (⟨S64, .f32⟩ : BufTy).Contents (Elt Ideal)) :
    (⟨S8x64, .f32⟩ : BufTy).Contents (Elt Ideal) :=
  have cst : (⟨S_, .f32⟩ : BufTy).Contents (Elt Ideal) := constant (F := Ideal) S_ .f32 0x00000000#32
  have v5 : (⟨S8x64, .f32⟩ : BufTy).Contents (Elt Ideal) := Host.reduceAdd (F := Ideal) (φ := .f32) P cst reducesTo_S2x8x64_S8x64_d0 h_S_
  have v6 : (⟨S64x512, .f32⟩ : BufTy).Contents (Elt Ideal) := transpose S64x512 [1, 0] a7 transposes_S512x64_S64x512_1_0
  have v7 : (⟨S8x512, .f32⟩ : BufTy).Contents (Elt Ideal) := Host.dotGeneral (F := Ideal) (φ₁ := .f32) (φ₂ := .f32) dot_S8x64_S64x512_S8x512_1_0_0_1_n_n none v5 v6
  have cst_0 : (⟨S_, .f32⟩ : BufTy).Contents (Elt Ideal) := constant (F := Ideal) S_ .f32 0x45800000#32
  have v8 : (⟨S512, .f32⟩ : BufTy).Contents (Elt Ideal) := broadcastInDim S512 ![] bcast_S_S512 cst_0
  have v9 : (⟨S512, .f32⟩ : BufTy).Contents (Elt Ideal) := mulf (F := Ideal) (φ := .f32) v8 a8
  have v10 : (⟨S1x512, .f32⟩ : BufTy).Contents (Elt Ideal) := broadcastInDim S1x512 ![1] bcast_S512_S1x512_1 v9
  have v11 : (⟨S8x512, .f32⟩ : BufTy).Contents (Elt Ideal) := broadcastInDim S8x512 ![0, 1] bcast_S1x512_S8x512_0_1 v10
  have v12 : (⟨S8x512, .f32⟩ : BufTy).Contents (Elt Ideal) := addf (F := Ideal) (φ := .f32) v7 v11
  have v13 : (⟨S512x64, .f32⟩ : BufTy).Contents (Elt Ideal) := transpose S512x64 [1, 0] a9 transposes_S64x512_S512x64_1_0
  have v14 : (⟨S8x64, .f32⟩ : BufTy).Contents (Elt Ideal) := Host.dotGeneral (F := Ideal) (φ₁ := .f32) (φ₂ := .f32) dot_S8x512_S512x64_S8x64_1_0_0_1_n_n none v12 v13
  have cst_1 : (⟨S_, .f32⟩ : BufTy).Contents (Elt Ideal) := constant (F := Ideal) S_ .f32 0x45800000#32
  have v15 : (⟨S64, .f32⟩ : BufTy).Contents (Elt Ideal) := broadcastInDim S64 ![] bcast_S_S64 cst_1
  have v16 : (⟨S64, .f32⟩ : BufTy).Contents (Elt Ideal) := mulf (F := Ideal) (φ := .f32) v15 a10
  have v17 : (⟨S1x64, .f32⟩ : BufTy).Contents (Elt Ideal) := broadcastInDim S1x64 ![1] bcast_S64_S1x64_1 v16
  have v18 : (⟨S8x64, .f32⟩ : BufTy).Contents (Elt Ideal) := broadcastInDim S8x64 ![0, 1] bcast_S1x64_S8x64_0_1 v17
  have v19 : (⟨S8x64, .f32⟩ : BufTy).Contents (Elt Ideal) := addf (F := Ideal) (φ := .f32) v14 v18
  have v20 : (⟨S512x64, .f32⟩ : BufTy).Contents (Elt Ideal) := transpose S512x64 [1, 0] a9 transposes_S64x512_S512x64_1_0
  have v21 : (⟨S8x64, .f32⟩ : BufTy).Contents (Elt Ideal) := Host.dotGeneral (F := Ideal) (φ₁ := .f32) (φ₂ := .f32) dot_S8x512_S512x64_S8x64_1_0_0_1_n_n none a2 v20
  have v22 : (⟨S1x64, .f32⟩ : BufTy).Contents (Elt Ideal) := broadcastInDim S1x64 ![1] bcast_S64_S1x64_1 a10
  have v23 : (⟨S8x64, .f32⟩ : BufTy).Contents (Elt Ideal) := broadcastInDim S8x64 ![0, 1] bcast_S1x64_S8x64_0_1 v22
  have v24 : (⟨S8x64, .f32⟩ : BufTy).Contents (Elt Ideal) := addf (F := Ideal) (φ := .f32) v21 v23
  have v25 : (⟨S8x64, .f32⟩ : BufTy).Contents (Elt Ideal) := mulf (F := Ideal) (φ := .f32) v24 v19
  v25

/-- All the host lines after the region: `kerMatch` continued through the last projection, the division by 64,
the row normalisation and the output layer. -/
def kerTail (P : (⟨S2x8x64, .f32⟩ : BufTy).Contents (Elt Ideal)) (a2 : (⟨S8x512, .f32⟩ : BufTy).Contents (Elt Ideal))
    (a7 : (⟨S512x64, .f32⟩ : BufTy).Contents (Elt Ideal)) (a8 : (⟨S512, .f32⟩ : BufTy).Contents (Elt Ideal))
    (a9 : (⟨S64x512, .f32⟩ : BufTy).Contents (Elt Ideal)) (a10 : (⟨S64, .f32⟩ : BufTy).Contents (Elt Ideal))
    (a11 : (⟨S512x64, .f32⟩ : BufTy).Contents (Elt Ideal))
    (a12 a13 a14 : (⟨S512, .f32⟩ : BufTy).Contents (Elt Ideal))
    (a15 : (⟨S512x512, .f32⟩ : BufTy).Contents (Elt Ideal)) (a16 : (⟨S512, .f32⟩ : BufTy).Contents (Elt Ideal)) :
    (⟨S8x512, .f32⟩ : BufTy).Contents (Elt Ideal) :=
  have cst : (⟨S_, .f32⟩ : BufTy).Contents (Elt Ideal) := constant (F := Ideal) S_ .f32 0x00000000#32
  have v5 : (⟨S8x64, .f32⟩ : BufTy).Contents (Elt Ideal) := Host.reduceAdd (F := Ideal) (φ := .f32) P cst reducesTo_S2x8x64_S8x64_d0 h_S_
  have v6 : (⟨S64x512, .f32⟩ : BufTy).Contents (Elt Ideal) := transpose S64x512 [1, 0] a7 transposes_S512x64_S64x512_1_0
  have v7 : (⟨S8x512, .f32⟩ : BufTy).Contents (Elt Ideal) := Host.dotGeneral (F := Ideal) (φ₁ := .f32) (φ₂ := .f32) dot_S8x64_S64x512_S8x512_1_0_0_1_n_n none v5 v6
  have cst_0 : (⟨S_, .f32⟩ : BufTy).Contents (Elt Ideal) := constant (F := Ideal) S_ .f32 0x45800000#32
  have v8 : (⟨S512, .f32⟩ : BufTy).Contents (Elt Ideal) := broadcastInDim S512 ![] bcast_S_S512 cst_0
  have v9 : (⟨S512, .f32⟩ : BufTy).Contents (Elt Ideal) := mulf (F := Ideal) (φ := .f32) v8 a8
  have v10 : (⟨S1x512, .f32⟩ : BufTy).Contents (Elt Ideal) := broadcastInDim S1x512 ![1] bcast_S512_S1x512_1 v9
  have v11 : (⟨S8x512, .f32⟩ : BufTy).Contents (Elt Ideal) := broadcastInDim S8x512 ![0, 1] bcast_S1x512_S8x512_0_1 v10
  have v12 : (⟨S8x512, .f32⟩ : BufTy).Contents (Elt Ideal) := addf (F := Ideal) (φ := .f32) v7 v11
  have v13 : (⟨S512x64, .f32⟩ : BufTy).Contents (Elt Ideal) := transpose S512x64 [1, 0] a9 transposes_S64x512_S512x64_1_0
  have v14 : (⟨S8x64, .f32⟩ : BufTy).Contents (Elt Ideal) := Host.dotGeneral (F := Ideal) (φ₁ := .f32) (φ₂ := .f32) dot_S8x512_S512x64_S8x64_1_0_0_1_n_n none v12 v13
  have cst_1 : (⟨S_, .f32⟩ : BufTy).Contents (Elt Ideal) := constant (F := Ideal) S_ .f32 0x45800000#32
  have v15 : (⟨S64, .f32⟩ : BufTy).Contents (Elt Ideal) := broadcastInDim S64 ![] bcast_S_S64 cst_1
  have v16 : (⟨S64, .f32⟩ : BufTy).Contents (Elt Ideal) := mulf (F := Ideal) (φ := .f32) v15 a10
  have v17 : (⟨S1x64, .f32⟩ : BufTy).Contents (Elt Ideal) := broadcastInDim S1x64 ![1] bcast_S64_S1x64_1 v16
  have v18 : (⟨S8x64, .f32⟩ : BufTy).Contents (Elt Ideal) := broadcastInDim S8x64 ![0, 1] bcast_S1x64_S8x64_0_1 v17
  have v19 : (⟨S8x64, .f32⟩ : BufTy).Contents (Elt Ideal) := addf (F := Ideal) (φ := .f32) v14 v18
  have v20 : (⟨S512x64, .f32⟩ : BufTy).Contents (Elt Ideal) := transpose S512x64 [1, 0] a9 transposes_S64x512_S512x64_1_0
  have v21 : (⟨S8x64, .f32⟩ : BufTy).Contents (Elt Ideal) := Host.dotGeneral (F := Ideal) (φ₁ := .f32) (φ₂ := .f32) dot_S8x512_S512x64_S8x64_1_0_0_1_n_n none a2 v20
  have v22 : (⟨S1x64, .f32⟩ : BufTy).Contents (Elt Ideal) := broadcastInDim S1x64 ![1] bcast_S64_S1x64_1 a10
  have v23 : (⟨S8x64, .f32⟩ : BufTy).Contents (Elt Ideal) := broadcastInDim S8x64 ![0, 1] bcast_S1x64_S8x64_0_1 v22
  have v24 : (⟨S8x64, .f32⟩ : BufTy).Contents (Elt Ideal) := addf (F := Ideal) (φ := .f32) v21 v23
  have v25 : (⟨S8x64, .f32⟩ : BufTy).Contents (Elt Ideal) := mulf (F := Ideal) (φ := .f32) v24 v19
  have v26 : (⟨S64x512, .f32⟩ : BufTy).Contents (Elt Ideal) := transpose S64x512 [1, 0] a11 transposes_S512x64_S64x512_1_0
  have v27 : (⟨S8x512, .f32⟩ : BufTy).Contents (Elt Ideal) := Host.dotGeneral (F := Ideal) (φ₁ := .f32) (φ₂ := .f32) dot_S8x64_S64x512_S8x512_1_0_0_1_n_n none v25 v26
  have cst_2 : (⟨S_, .f32⟩ : BufTy).Contents (Elt Ideal) := constant (F := Ideal) S_ .f32 0x45800000#32
  have v28 : (⟨S512, .f32⟩ : BufTy).Contents (Elt Ideal) := broadcastInDim S512 ![] bcast_S_S512 cst_2
  have v29 : (⟨S512, .f32⟩ : BufTy).Contents (Elt Ideal) := mulf (F := Ideal) (φ := .f32) v28 a12
  have v30 : (⟨S1x512, .f32⟩ : BufTy).Contents (Elt Ideal) := broadcastInDim S1x512 ![1] bcast_S512_S1x512_1 v29
  have v31 : (⟨S8x512, .f32⟩ : BufTy).Contents (Elt Ideal) := broadcastInDim S8x512 ![0, 1] bcast_S1x512_S8x512_0_1 v30
  have v32 : (⟨S8x512, .f32⟩ : BufTy).Contents (Elt Ideal) := addf (F := Ideal) (φ := .f32) v27 v31
  have cst_3 : (⟨S_, .f32⟩ : BufTy).Contents (Elt Ideal) := constant (F := Ideal) S_ .f32 0x42800000#32
  have v33 : (⟨S8x512, .f32⟩ : BufTy).Contents (Elt Ideal) := broadcastInDim S8x512 ![] bcast_S_S8x512 cst_3
  have v34 : (⟨S8x512, .f32⟩ : BufTy).Contents (Elt Ideal) := Host.divf (F := Ideal) (φ := .f32) v32 v33
  have cst_4 : (⟨S_, .f32⟩ : BufTy).Contents (Elt Ideal) := constant (F := Ideal) S_ .f32 0x00000000#32
  have v35 : (⟨S8, .f32⟩ : BufTy).Contents (Elt Ideal) := Host.reduceAdd (F := Ideal) (φ := .f32) v34 cst_4 reducesTo_S8x512_S8_d1 h_S_
  have v36 : (⟨S8x1, .f32⟩ : BufTy).Contents (Elt Ideal) := broadcastInDim S8x1 ![0] bcast_S8_S8x1_0 v35
  have cst_5 : (⟨S_, .f32⟩ : BufTy).Contents (Elt Ideal) := constant (F := Ideal) S_ .f32 0x44000000#32
  have v37 : (⟨S8x1, .f32⟩ : BufTy).Contents (Elt Ideal) := broadcastInDim S8x1 ![] bcast_S_S8x1 cst_5
  have v38 : (⟨S8x1, .f32⟩ : BufTy).Contents (Elt Ideal) := Host.divf (F := Ideal) (φ := .f32) v36 v37
  have v39 : (⟨S8x512, .f32⟩ : BufTy).Contents (Elt Ideal) := broadcastInDim S8x512 ![0, 1] bcast_S8x1_S8x512_0_1 v38
  have v40 : (⟨S8x512, .f32⟩ : BufTy).Contents (Elt Ideal) := subf (F := Ideal) (φ := .f32) v34 v39
  have v41 : (⟨S8x512, .f32⟩ : BufTy).Contents (Elt Ideal) := mulf (F := Ideal) (φ := .f32) v40 v40
  have cst_6 : (⟨S_, .f32⟩ : BufTy).Contents (Elt Ideal) := constant (F := Ideal) S_ .f32 0x00000000#32
  have v42 : (⟨S8, .f32⟩ : BufTy).Contents (Elt Ideal) := Host.reduceAdd (F := Ideal) (φ := .f32) v41 cst_6 reducesTo_S8x512_S8_d1 h_S_
  have v43 : (⟨S8x1, .f32⟩ : BufTy).Contents (Elt Ideal) := broadcastInDim S8x1 ![0] bcast_S8_S8x1_0 v42
  have cst_7 : (⟨S_, .f32⟩ : BufTy).Contents (Elt Ideal) := constant (F := Ideal) S_ .f32 0x44000000#32
  have v44 : (⟨S8x1, .f32⟩ : BufTy).Contents (Elt Ideal) := broadcastInDim S8x1 ![] bcast_S_S8x1 cst_7
  have v45 : (⟨S8x1, .f32⟩ : BufTy).Contents (Elt Ideal) := Host.divf (F := Ideal) (φ := .f32) v43 v44
  have v46 : (⟨S8x512, .f32⟩ : BufTy).Contents (Elt Ideal) := broadcastInDim S8x512 ![0, 1] bcast_S8x1_S8x512_0_1 v38
  have v47 : (⟨S8x512, .f32⟩ : BufTy).Contents (Elt Ideal) := subf (F := Ideal) (φ := .f32) v34 v46
  have cst_8 : (⟨S_, .f32⟩ : BufTy).Contents (Elt Ideal) := constant (F := Ideal) S_ .f32 0x3727C5AC#32
  have v48 : (⟨S8x1, .f32⟩ : BufTy).Contents (Elt Ideal) := broadcastInDim S8x1 ![] bcast_S_S8x1 cst_8
  have v49 : (⟨S8x1, .f32⟩ : BufTy).Contents (Elt Ideal) := addf (F := Ideal) (φ := .f32) v45 v48
  have v50 : (⟨S8x1, .f32⟩ : BufTy).Contents (Elt Ideal) := Host.sqrt (F := Ideal) (φ := .f32) v49
  have v51 : (⟨S8x512, .f32⟩ : BufTy).Contents (Elt Ideal) := broadcastInDim S8x512 ![0, 1] bcast_S8x1_S8x512_0_1 v50
  have v52 : (⟨S8x512, .f32⟩ : BufTy).Contents (Elt Ideal) := Host.divf (F := Ideal) (φ := .f32) v47 v51
  have v53 : (⟨S1x512, .f32⟩ : BufTy).Contents (Elt Ideal) := broadcastInDim S1x512 ![1] bcast_S512_S1x512_1 a13
  have v54 : (⟨S8x512, .f32⟩ : BufTy).Contents (Elt Ideal) := broadcastInDim S8x512 ![0, 1] bcast_S1x512_S8x512_0_1 v53
  have v55 : (⟨S8x512, .f32⟩ : BufTy).Contents (Elt Ideal) := mulf (F := Ideal) (φ := .f32) v52 v54
  have v56 : (⟨S1x512, .f32⟩ : BufTy).Contents (Elt Ideal) := broadcastInDim S1x512 ![1] bcast_S512_S1x512_1 a14
  have v57 : (⟨S8x512, .f32⟩ : BufTy).Contents (Elt Ideal) := broadcastInDim S8x512 ![0, 1] bcast_S1x512_S8x512_0_1 v56
  have v58 : (⟨S8x512, .f32⟩ : BufTy).Contents (Elt Ideal) := addf (F := Ideal) (φ := .f32) v55 v57
  have v59 : (⟨S512x512, .f32⟩ : BufTy).Contents (Elt Ideal) := transpose S512x512 [1, 0] a15 transposes_S512x512_S512x512_1_0
  have v60 : (⟨S8x512, .f32⟩ : BufTy).Contents (Elt Ideal) := Host.dotGeneral (F := Ideal) (φ₁ := .f32) (φ₂ := .f32) dot_S8x512_S512x512_S8x512_1_0_0_1_n_n none v58 v59
  have v61 : (⟨S1x512, .f32⟩ : BufTy).Contents (Elt Ideal) := broadcastInDim S1x512 ![1] bcast_S512_S1x512_1 a16
  have v62 : (⟨S8x512, .f32⟩ : BufTy).Contents (Elt Ideal) := broadcastInDim S8x512 ![0, 1] bcast_S1x512_S8x512_0_1 v61
  have v63 : (⟨S8x512, .f32⟩ : BufTy).Contents (Elt Ideal) := addf (F := Ideal) (φ := .f32) v60 v62
  v63

end Cert.KerTail

end
-- ==== Proof.Tail.lean ====
/-
  The part both programs share: from the [8,512] array of extracted sums to the result.

  Given X (one row of 512 per batch entry) the tail computes, row by row,

    r      = (X + 4096 · bue) / 64                         the retrieved vector (64 = √4096)
    μ      = (0 + ∑ d, r d) / 512                          its mean
    σ²     = (0 + ∑ d, (r d - μ)²) / 512                   its variance
    normed = (r - μ) / √(σ² + ε) · lnG + lnB               LayerNorm, ε the float literal 9.99999974E-6
    out    = normed · Woᵀ + bo                             the output projection

  written below operation for operation as the reference program writes it: the same functions,
  shape records and literal words, in the same order, so that the reference's result IS
  `tail` of its extracted sums by unfolding alone. Nothing is proved about `tail`: two programs
  that both end in it agree as soon as they agree on X.
-/
import proofs.«164664_j59974923321458_2_alg».proof.ReferenceIdeal
import Idealize.ShloMosaic.PureOps.Ideal

noncomputable section

namespace Cert.Tail

open Idealize.ShloMosaic Cert.ReferenceIdeal Cert.ReferenceIdeal.Facts₀ Cert.ReferenceIdeal.Facts

variable [Cert.ReferenceIdeal.Facts]

/-- From the extracted sums `X` to the program's result: add the bias counted 4096 times, scale by 1/64,
    normalise each row (mean, variance, ε, gain `lnG`, shift `lnB`) and project by `Wo`, `bo`. -/
def tail (X : FVec Ideal S8x512 .f32) (bue lnG lnB : FVec Ideal S512 .f32) (Wo : FVec Ideal S512x512 .f32)
    (bo : FVec Ideal S512 .f32) : FVec Ideal S8x512 .f32 :=
  -- 4096 · bue, broadcast over the batch, added to X
  let c4096 : FVec Ideal S512 .f32 := broadcastInDim S512 ![] bcast_S_S512 (constant (F := Ideal) S_ .f32 0x45800000#32)
  let nbue : FVec Ideal S512 .f32 := mulf c4096 bue
  let nbue8 : FVec Ideal S8x512 .f32 :=
    broadcastInDim S8x512 ![0, 1] bcast_S1x512_S8x512_0_1 (broadcastInDim S1x512 ![1] bcast_S512_S1x512_1 nbue)
  let ext : FVec Ideal S8x512 .f32 := addf X nbue8
  -- divided by 64
  let c64 : FVec Ideal S8x512 .f32 := broadcastInDim S8x512 ![] bcast_S_S8x512 (constant (F := Ideal) S_ .f32 0x42800000#32)
  let r : FVec Ideal S8x512 .f32 := Host.divf ext c64
  -- the row mean: the row sum (from 0) over 512
  let rsum : FVec Ideal S8 .f32 := Host.reduceAdd r (constant (F := Ideal) S_ .f32 0x00000000#32) reducesTo_S8x512_S8_d1 h_S_
  let rsum1 : FVec Ideal S8x1 .f32 := broadcastInDim S8x1 ![0] bcast_S8_S8x1_0 rsum
  let c512 : FVec Ideal S8x1 .f32 := broadcastInDim S8x1 ![] bcast_S_S8x1 (constant (F := Ideal) S_ .f32 0x44000000#32)
  let mu : FVec Ideal S8x1 .f32 := Host.divf rsum1 c512
  -- the centred row and its square
  let mu8 : FVec Ideal S8x512 .f32 := broadcastInDim S8x512 ![0, 1] bcast_S8x1_S8x512_0_1 mu
  let cen : FVec Ideal S8x512 .f32 := subf r mu8
  let sq : FVec Ideal S8x512 .f32 := mulf cen cen
  -- the row variance: the sum of squares (from 0) over 512
  let qsum : FVec Ideal S8 .f32 := Host.reduceAdd sq (constant (F := Ideal) S_ .f32 0x00000000#32) reducesTo_S8x512_S8_d1 h_S_
  let qsum1 : FVec Ideal S8x1 .f32 := broadcastInDim S8x1 ![0] bcast_S8_S8x1_0 qsum
  let c512' : FVec Ideal S8x1 .f32 := broadcastInDim S8x1 ![] bcast_S_S8x1 (constant (F := Ideal) S_ .f32 0x44000000#32)
  let var : FVec Ideal S8x1 .f32 := Host.divf qsum1 c512'
  -- the centred row again (the program broadcasts the mean a second time)
  let mu8' : FVec Ideal S8x512 .f32 := broadcastInDim S8x512 ![0, 1] bcast_S8x1_S8x512_0_1 mu
  let cen' : FVec Ideal S8x512 .f32 := subf r mu8'
  -- divided by √(variance + ε)
  let eps : FVec Ideal S8x1 .f32 := broadcastInDim S8x1 ![] bcast_S_S8x1 (constant (F := Ideal) S_ .f32 0x3727C5AC#32)
  let sd : FVec Ideal S8x1 .f32 := Host.sqrt (addf var eps)
  let sd8 : FVec Ideal S8x512 .f32 := broadcastInDim S8x512 ![0, 1] bcast_S8x1_S8x512_0_1 sd
  let normed : FVec Ideal S8x512 .f32 := Host.divf cen' sd8
  -- gain and shift
  let g8 : FVec Ideal S8x512 .f32 :=
    broadcastInDim S8x512 ![0, 1] bcast_S1x512_S8x512_0_1 (broadcastInDim S1x512 ![1] bcast_S512_S1x512_1 lnG)
  let b8 : FVec Ideal S8x512 .f32 :=
    broadcastInDim S8x512 ![0, 1] bcast_S1x512_S8x512_0_1 (broadcastInDim S1x512 ![1] bcast_S512_S1x512_1 lnB)
  let ln : FVec Ideal S8x512 .f32 := addf (mulf normed g8) b8
  -- the output projection: ln · Woᵀ + bo
  let WoT : FVec Ideal S512x512 .f32 := transpose S512x512 [1, 0] Wo transposes_S512x512_S512x512_1_0
  let proj : FVec Ideal S8x512 .f32 := Host.dotGeneral (F := Ideal) dot_S8x512_S512x512_S8x512_1_0_0_1_n_n none ln WoT
  let bo8 : FVec Ideal S8x512 .f32 :=
    broadcastInDim S8x512 ![0, 1] bcast_S1x512_S8x512_0_1 (broadcastInDim S1x512 ![1] bcast_S512_S1x512_1 bo)
  addf proj bo8

end Cert.Tail

end
-- ==== Proof.KerTailEq.lean ====
import proofs.«164664_j59974923321458_2_alg».proof.Proof.KerTail
import proofs.«164664_j59974923321458_2_alg».proof.Proof.Tail

/-!
# The kernel's host lines end in the shared tail

After the entrywise product with the projected query, the kernel's remaining host lines are: the last projection
(a product with the transpose of the extraction weight), and then — operation for operation, with the same shape
records and the same constant words — the lines the reference also ends with: add the bias counted 4096 times,
divide by 64, normalise each row and apply the output layer. So the whole chain is the shared tail applied to the
last projection of the match array. The two programs name their shapes and shape records separately; the names
denote the same literal shapes, so the equation holds by unfolding.
-/

noncomputable section

namespace Cert.KerTail

open Idealize.ShloMosaic Cert.KernelIdeal Cert.KernelIdeal.Facts₀

variable [Cert.KernelIdeal.Facts₀] [Cert.ReferenceIdeal.Facts]

/-- All the kernel's host lines after the region are the shared tail of the last projection of the match array. -/
theorem kerTail_eq_tail (P : (⟨S2x8x64, .f32⟩ : BufTy).Contents (Elt Ideal)) (a2 : (⟨S8x512, .f32⟩ : BufTy).Contents (Elt Ideal))
    (a7 : (⟨S512x64, .f32⟩ : BufTy).Contents (Elt Ideal)) (a8 : (⟨S512, .f32⟩ : BufTy).Contents (Elt Ideal))
    (a9 : (⟨S64x512, .f32⟩ : BufTy).Contents (Elt Ideal)) (a10 : (⟨S64, .f32⟩ : BufTy).Contents (Elt Ideal))
    (a11 : (⟨S512x64, .f32⟩ : BufTy).Contents (Elt Ideal))
    (a12 a13 a14 : (⟨S512, .f32⟩ : BufTy).Contents (Elt Ideal))
    (a15 : (⟨S512x512, .f32⟩ : BufTy).Contents (Elt Ideal)) (a16 : (⟨S512, .f32⟩ : BufTy).Contents (Elt Ideal)) :
    kerTail P a2 a7 a8 a9 a10 a11 a12 a13 a14 a15 a16
      = Cert.Tail.tail
          (Host.dotGeneral (F := Ideal) (φ₁ := .f32) (φ₂ := .f32) dot_S8x64_S64x512_S8x512_1_0_0_1_n_n none (kerMatch P a2 a7 a8 a9 a10) (transpose S64x512 [1, 0] a11 transposes_S512x64_S64x512_1_0))
          a12 a13 a14 a15 a16 :=
  rfl

end Cert.KerTail

end
-- ==== Proof.Spec.lean ====
/-
  Both programs up to the array the shared tail starts from, as functions of REAL arrays.

  Write `affine W b x j = (∑ d, x d * W j d) + b j` for one row through a linear layer with bias. With
  `k = affine Wbk bbk keys`, `v = affine Wbv bbv values` per position `n` and `q = affine Wuq buq query`:

  * the reference binds per position, `affine Wbc bbc (k ∘ v)`, projects it, `affine Wuq buq ·`, multiplies by `q`
    and only then sums over the 4096 positions (`matchRef`);
  * the kernel sums `k ∘ v` over the positions first — tile by tile: 2 halves × 4 steps × 2 chunks × 256 rows,
    position `512 (4 p + t) + 256 c + r` — and pushes the SUM through the same two layers, each bias taken 4096
    times (`affineN`), before the product with `q` (`matchKer`).

  The two agree because an affine layer commutes with a finite sum up to the count of the bias
  (`Cert.BindSum.matchKer_eq_matchRef`, proved beside this file). Nothing here mentions a program.
-/
import Mathlib.Data.Real.Basic
import Mathlib.Algebra.BigOperators.Fin

noncomputable section

namespace Cert.BindSum

open BigOperators

/-- One row through a linear layer with bias: entry `j` of `x · Wᵀ + b`. -/
def affine {D J : ℕ} (W : Fin J → Fin D → ℝ) (b : Fin J → ℝ) (x : Fin D → ℝ) (j : Fin J) : ℝ :=
  (∑ d, x d * W j d) + b j

/-- The same layer applied to a sum of 4096 rows: the bias counted 4096 times. -/
def affineN {D J : ℕ} (W : Fin J → Fin D → ℝ) (b : Fin J → ℝ) (x : Fin D → ℝ) (j : Fin J) : ℝ :=
  (∑ d, x d * W j d) + 4096 * b j

/-- The bound pair at batch `i`, position `n`: projected key times projected value, entry `j`. -/
def kv (K V : Fin 8 → Fin 4096 → Fin 512 → ℝ) (Wbk Wbv : Fin 64 → Fin 512 → ℝ) (bbk bbv : Fin 64 → ℝ)
    (i : Fin 8) (n : Fin 4096) (j : Fin 64) : ℝ :=
  affine Wbk bbk (K i n) j * affine Wbv bbv (V i n) j

/-- The projected query. -/
def qv (Q : Fin 8 → Fin 512 → ℝ) (Wuq : Fin 64 → Fin 512 → ℝ) (buq : Fin 64 → ℝ) (i : Fin 8) (j : Fin 64) : ℝ :=
  affine Wuq buq (Q i) j

/-- The reference: bind, project and match per position, then sum over the positions. -/
def matchRef (K V : Fin 8 → Fin 4096 → Fin 512 → ℝ) (Q : Fin 8 → Fin 512 → ℝ)
    (Wbk Wbv Wuq : Fin 64 → Fin 512 → ℝ) (bbk bbv buq : Fin 64 → ℝ) (Wbc : Fin 512 → Fin 64 → ℝ) (bbc : Fin 512 → ℝ)
    (i : Fin 8) (j : Fin 64) : ℝ :=
  ∑ n : Fin 4096, affine Wuq buq (affine Wbc bbc (kv K V Wbk Wbv bbk bbv i n)) j * qv Q Wuq buq i j

/-- The position that half `p`, step `t`, chunk `c`, row `r` of the kernel's tiling reads. -/
def row (p : Fin 2) (t : Fin 4) (c : Fin 2) (r : Fin 256) : Fin 4096 :=
  ⟨512 * (4 * p.val + t.val) + 256 * c.val + r.val, by omega⟩

/-- What the kernel's region leaves in half `p` of its output: the bound pairs summed over that half's positions. -/
def part (K V : Fin 8 → Fin 4096 → Fin 512 → ℝ) (Wbk Wbv : Fin 64 → Fin 512 → ℝ) (bbk bbv : Fin 64 → ℝ)
    (p : Fin 2) (i : Fin 8) (j : Fin 64) : ℝ :=
  ∑ t : Fin 4, ∑ c : Fin 2, ∑ r : Fin 256, kv K V Wbk Wbv bbk bbv i (row p t c r) j

/-- The two halves added. -/
def kvSum (K V : Fin 8 → Fin 4096 → Fin 512 → ℝ) (Wbk Wbv : Fin 64 → Fin 512 → ℝ) (bbk bbv : Fin 64 → ℝ)
    (i : Fin 8) (j : Fin 64) : ℝ :=
  ∑ p : Fin 2, part K V Wbk Wbv bbk bbv p i j

/-- The kernel: the summed pairs through both layers (biases 4096 times), then the product with the query. -/
def matchKer (K V : Fin 8 → Fin 4096 → Fin 512 → ℝ) (Q : Fin 8 → Fin 512 → ℝ)
    (Wbk Wbv Wuq : Fin 64 → Fin 512 → ℝ) (bbk bbv buq : Fin 64 → ℝ) (Wbc : Fin 512 → Fin 64 → ℝ) (bbc : Fin 512 → ℝ)
    (i : Fin 8) (j : Fin 64) : ℝ :=
  qv Q Wuq buq i j * affineN Wuq buq (affineN Wbc bbc (kvSum K V Wbk Wbv bbk bbv i)) j

end Cert.BindSum

end
-- ==== Proof.KerMatch.lean ====
import proofs.«164664_j59974923321458_2_alg».proof.Proof.KerTail
import proofs.«164664_j59974923321458_2_alg».proof.Proof.Spec
import proofs.«164664_j59974923321458_2_alg».proof.ReferenceIdeal
import Idealize.ShloMosaic.Lib.Pipeline.Value
import Idealize.ShloMosaic.Lib.ValueIdx
import Idealize.ShloMosaic.PureOps.Ideal.Laws

/-!
# The kernel's host lines up to the match array, read at an index

At the ideal instance an array is a function from the indices of its literal shape to the extended reals.

* First each host operation (or short fixed group of operations) is read at an index built from its coordinates:
  the sum of the two halves, a transpose, a product of matrices as the sum over the contracted positions, a bias
  row scaled by a scalar and repeated down the rows; with two facts about numbers: the float word that denotes
  4096, and that the coercion from the reals to the extended reals goes through a finite sum.
* Then an affine layer as the program writes it — a product with a transposed weight plus a (scaled) bias row —
  applied to arrays whose entries are real numbers is, entry by entry, the real affine layer.
* `kerMatch_apply`: when the two partial sums hold the tiled sums of the bound pairs and the other arrays hold
  real numbers, the entry `(i, j)` of the match array is the real number `matchKer … i j` of the specification.
* `dot_transposed`: contracting the second axis of `M` with the first axis of the transpose of `W` is
  contracting the second axes of `M` and `W`.
-/

noncomputable section

namespace Cert.KerMatch

open Idealize.ShloMosaic Idealize.ShloMosaic.ValueIdx Cert.KernelIdeal Cert.KernelIdeal.Facts₀ Cert.KerTail
open scoped BigOperators

variable [Cert.KernelIdeal.Facts₀]

/-! ## One operation at a time -/

/-- The float word `0x45800000` is the real number 4096 (sign 0, exponent 139 - 127 = 12, fraction 0). -/
theorem ofBits_4096 : Ideal.ofBits .f32 0x45800000#32 = ((4096 : ℝ) : EReal) := by
  simp [Ideal.ofBits, Ideal.ieee, -EReal.coe_mul]; norm_num

/-- The coercion from the reals to the extended reals goes through a finite sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Adding the two halves: the sum over the leading axis of a [2, 8, 64] array from the initial value zero, read at
`(i, j)`, is the sum of its two entries `(0, i, j)` and `(1, i, j)`. -/
theorem halves_apply (P : (⟨S2x8x64, .f32⟩ : BufTy).Contents (Elt Ideal)) (i : Fin 8) (j : Fin 64) :
    Host.reduceAdd (F := Ideal) (φ := .f32) P (constant (F := Ideal) S_ .f32 0x00000000#32)
        reducesTo_S2x8x64_S8x64_d0 h_S_ (ix2 i j)
      = ∑ p : Fin 2, P (ix3 p i j) := by
  simp only [Host.reduceAdd, Ideal.hostReduceAdd_def]
  rw [Ideal.hostReduceAdd_single reducesTo_S2x8x64_S8x64_d0 (by decide)]
  have h0 : (constant (F := Ideal) S_ .f32 0x00000000#32) (Shape.Idx.first h_S_) = (0 : EReal) :=
    Ideal.ofBits_zero_f32
  rw [h0, zero_add]
  refine Finset.sum_congr rfl fun k _ => ?_
  exact congrArg P (funext fun a => Fin.ext (by match a with | ⟨0, _⟩ => rfl | ⟨1, _⟩ => rfl | ⟨2, _⟩ => rfl))

/-- The transpose of a [512, 64] array read at `(j, d)` is the array at `(d, j)`. -/
theorem tr512x64_apply (x : (⟨S512x64, .f32⟩ : BufTy).Contents (Elt Ideal)) (j : Fin 64) (d : Fin 512) :
    transpose S64x512 [1, 0] x transposes_S512x64_S64x512_1_0 (ix2 j d) = x (ix2 d j) :=
  transpose_apply [1, 0] x transposes_S512x64_S64x512_1_0 (ix2 j d) (ix2 d j) (fun b => match b with
    | ⟨0, _⟩ => rfl
    | ⟨1, _⟩ => rfl)

/-- The transpose of a [64, 512] array read at `(d, j)` is the array at `(j, d)`. -/
theorem tr64x512_apply (x : (⟨S64x512, .f32⟩ : BufTy).Contents (Elt Ideal)) (d : Fin 512) (j : Fin 64) :
    transpose S512x64 [1, 0] x transposes_S64x512_S512x64_1_0 (ix2 d j) = x (ix2 j d) :=
  transpose_apply [1, 0] x transposes_S64x512_S512x64_1_0 (ix2 d j) (ix2 j d) (fun b => match b with
    | ⟨0, _⟩ => rfl
    | ⟨1, _⟩ => rfl)

theorem dot64_apply_lhs0 (i : S8x512.Idx) (q : dot_S8x64_S64x512_S8x512_1_0_0_1_n_n.contr.Idx) : (dot_S8x64_S64x512_S8x512_1_0_0_1_n_n.lhsIdx i q 0).val = (i 0).val := by
  unfold DotDims.lhsIdx
  rw [dif_neg (show ¬(0 : Fin S8x64.rank) ∈ dot_S8x64_S64x512_S8x512_1_0_0_1_n_n.lhsBatch from List.not_mem_nil),
    dif_pos (show (0 : Fin S8x64.rank) ∈ dot_S8x64_S64x512_S8x512_1_0_0_1_n_n.lhsNonContracting from List.mem_singleton.2 rfl)]
  rfl
theorem dot64_apply_rhs1 (i : S8x512.Idx) (q : dot_S8x64_S64x512_S8x512_1_0_0_1_n_n.contr.Idx) : (dot_S8x64_S64x512_S8x512_1_0_0_1_n_n.rhsIdx i q 1).val = (i 1).val := by
  unfold DotDims.rhsIdx
  rw [dif_neg (show ¬(1 : Fin S64x512.rank) ∈ dot_S8x64_S64x512_S8x512_1_0_0_1_n_n.rhsBatch from List.not_mem_nil),
    dif_pos (show (1 : Fin S64x512.rank) ∈ dot_S8x64_S64x512_S8x512_1_0_0_1_n_n.rhsNonContracting from List.mem_singleton.2 rfl)]
  rfl
/-- A [8, 64] by [64, 512] product read at `(i, j)`: the sum over the 64 contracted positions. -/
theorem dot64_apply (x : (⟨S8x64, .f32⟩ : BufTy).Contents (Elt Ideal)) (y : (⟨S64x512, .f32⟩ : BufTy).Contents (Elt Ideal)) (i : Fin 8) (j : Fin 512) :
    Host.dotGeneral (F := Ideal) (φ₁ := .f32) (φ₂ := .f32) dot_S8x64_S64x512_S8x512_1_0_0_1_n_n none x y (ix2 i j)
      = ∑ k : Fin 64, x (ix2 i k) * y (ix2 k j) := by
  simp only [Host.dotGeneral]
  rw [Ideal.dotGeneral_apply, ← Equiv.sum_comp (ValueIdx.contrEquiv1 dot_S8x64_S64x512_S8x512_1_0_0_1_n_n 64 rfl rfl).symm]
  refine Finset.sum_congr rfl fun k _ => ?_
  have hk := ValueIdx.contrEquiv1_symm_val dot_S8x64_S64x512_S8x512_1_0_0_1_n_n 64 rfl rfl k
  have el : dot_S8x64_S64x512_S8x512_1_0_0_1_n_n.lhsIdx (ix2 i j) ((ValueIdx.contrEquiv1 dot_S8x64_S64x512_S8x512_1_0_0_1_n_n 64 rfl rfl).symm k) = ix2 i k :=
    funext fun a => Fin.ext (by
      match a with
      | ⟨0, _⟩ => exact dot64_apply_lhs0 _ _
      | ⟨1, _⟩ => exact (dot_S8x64_S64x512_S8x512_1_0_0_1_n_n.lhsIdx_val_of_single rfl (ix2 i j) _).trans hk)
  have er : dot_S8x64_S64x512_S8x512_1_0_0_1_n_n.rhsIdx (ix2 i j) ((ValueIdx.contrEquiv1 dot_S8x64_S64x512_S8x512_1_0_0_1_n_n 64 rfl rfl).symm k) = ix2 k j :=
    funext fun a => Fin.ext (by
      match a with
      | ⟨0, _⟩ => exact (dot_S8x64_S64x512_S8x512_1_0_0_1_n_n.rhsIdx_val_of_single rfl (ix2 i j) _).trans hk
      | ⟨1, _⟩ => exact dot64_apply_rhs1 _ _)
  rw [el, er]

theorem dot512_apply_lhs0 (i : S8x64.Idx) (q : dot_S8x512_S512x64_S8x64_1_0_0_1_n_n.contr.Idx) : (dot_S8x512_S512x64_S8x64_1_0_0_1_n_n.lhsIdx i q 0).val = (i 0).val := by
  unfold DotDims.lhsIdx
  rw [dif_neg (show ¬(0 : Fin S8x512.rank) ∈ dot_S8x512_S512x64_S8x64_1_0_0_1_n_n.lhsBatch from List.not_mem_nil),
    dif_pos (show (0 : Fin S8x512.rank) ∈ dot_S8x512_S512x64_S8x64_1_0_0_1_n_n.lhsNonContracting from List.mem_singleton.2 rfl)]
  rfl
theorem dot512_apply_rhs1 (i : S8x64.Idx) (q : dot_S8x512_S512x64_S8x64_1_0_0_1_n_n.contr.Idx) : (dot_S8x512_S512x64_S8x64_1_0_0_1_n_n.rhsIdx i q 1).val = (i 1).val := by
  unfold DotDims.rhsIdx
  rw [dif_neg (show ¬(1 : Fin S512x64.rank) ∈ dot_S8x512_S512x64_S8x64_1_0_0_1_n_n.rhsBatch from List.not_mem_nil),
    dif_pos (show (1 : Fin S512x64.rank) ∈ dot_S8x512_S512x64_S8x64_1_0_0_1_n_n.rhsNonContracting from List.mem_singleton.2 rfl)]
  rfl
/-- A [8, 512] by [512, 64] product read at `(i, j)`: the sum over the 512 contracted positions. -/
theorem dot512_apply (x : (⟨S8x512, .f32⟩ : BufTy).Contents (Elt Ideal)) (y : (⟨S512x64, .f32⟩ : BufTy).Contents (Elt Ideal)) (i : Fin 8) (j : Fin 64) :
    Host.dotGeneral (F := Ideal) (φ₁ := .f32) (φ₂ := .f32) dot_S8x512_S512x64_S8x64_1_0_0_1_n_n none x y (ix2 i j)
      = ∑ k : Fin 512, x (ix2 i k) * y (ix2 k j) := by
  simp only [Host.dotGeneral]
  rw [Ideal.dotGeneral_apply, ← Equiv.sum_comp (ValueIdx.contrEquiv1 dot_S8x512_S512x64_S8x64_1_0_0_1_n_n 512 rfl rfl).symm]
  refine Finset.sum_congr rfl fun k _ => ?_
  have hk := ValueIdx.contrEquiv1_symm_val dot_S8x512_S512x64_S8x64_1_0_0_1_n_n 512 rfl rfl k
  have el : dot_S8x512_S512x64_S8x64_1_0_0_1_n_n.lhsIdx (ix2 i j) ((ValueIdx.contrEquiv1 dot_S8x512_S512x64_S8x64_1_0_0_1_n_n 512 rfl rfl).symm k) = ix2 i k :=
    funext fun a => Fin.ext (by
      match a with
      | ⟨0, _⟩ => exact dot512_apply_lhs0 _ _
      | ⟨1, _⟩ => exact (dot_S8x512_S512x64_S8x64_1_0_0_1_n_n.lhsIdx_val_of_single rfl (ix2 i j) _).trans hk)
  have er : dot_S8x512_S512x64_S8x64_1_0_0_1_n_n.rhsIdx (ix2 i j) ((ValueIdx.contrEquiv1 dot_S8x512_S512x64_S8x64_1_0_0_1_n_n 512 rfl rfl).symm k) = ix2 k j :=
    funext fun a => Fin.ext (by
      match a with
      | ⟨0, _⟩ => exact (dot_S8x512_S512x64_S8x64_1_0_0_1_n_n.rhsIdx_val_of_single rfl (ix2 i j) _).trans hk
      | ⟨1, _⟩ => exact dot512_apply_rhs1 _ _)
  rw [el, er]

/-- A scalar times a length-512 row, repeated down the 8 rows, read at `(i, d)`: the scalar times the row at `d`. -/
theorem bias512_apply (c : (⟨S_, .f32⟩ : BufTy).Contents (Elt Ideal)) (b : (⟨S512, .f32⟩ : BufTy).Contents (Elt Ideal)) (i : Fin 8) (d : Fin 512) :
    broadcastInDim S8x512 ![0, 1] bcast_S1x512_S8x512_0_1
        (broadcastInDim S1x512 ![1] bcast_S512_S1x512_1
          (mulf (F := Ideal) (φ := .f32) (broadcastInDim S512 ![] bcast_S_S512 c) b)) (ix2 i d)
      = c ix0 * b (ix1 d) := by
  refine (broadcastInDim_apply _ bcast_S1x512_S8x512_0_1 _ (ix2 i d) (ix2 (0 : Fin 1) d) (fun a => match a with
    | ⟨0, _⟩ => by show 0 = if (1 : Nat) = 1 then 0 else i.val; rw [if_pos rfl]
    | ⟨1, _⟩ => by show d.val = if (512 : Nat) = 1 then 0 else d.val; rw [if_neg (by decide)])).trans ?_
  refine (broadcastInDim_apply _ bcast_S512_S1x512_1 _ (ix2 (0 : Fin 1) d) (ix1 d) (fun a => match a with
    | ⟨0, _⟩ => by show d.val = if (512 : Nat) = 1 then 0 else d.val; rw [if_neg (by decide)])).trans ?_
  show (broadcastInDim S512 ![] bcast_S_S512 c) (ix1 d) * b (ix1 d) = _
  rw [broadcastInDim_apply _ bcast_S_S512 c (ix1 d) ix0 (fun a => a.elim0)]

/-- A scalar times a length-64 row, repeated down the 8 rows, read at `(i, j)`: the scalar times the row at `j`. -/
theorem bias64_apply (c : (⟨S_, .f32⟩ : BufTy).Contents (Elt Ideal)) (b : (⟨S64, .f32⟩ : BufTy).Contents (Elt Ideal)) (i : Fin 8) (d : Fin 64) :
    broadcastInDim S8x64 ![0, 1] bcast_S1x64_S8x64_0_1
        (broadcastInDim S1x64 ![1] bcast_S64_S1x64_1
          (mulf (F := Ideal) (φ := .f32) (broadcastInDim S64 ![] bcast_S_S64 c) b)) (ix2 i d)
      = c ix0 * b (ix1 d) := by
  refine (broadcastInDim_apply _ bcast_S1x64_S8x64_0_1 _ (ix2 i d) (ix2 (0 : Fin 1) d) (fun a => match a with
    | ⟨0, _⟩ => by show 0 = if (1 : Nat) = 1 then 0 else i.val; rw [if_pos rfl]
    | ⟨1, _⟩ => by show d.val = if (64 : Nat) = 1 then 0 else d.val; rw [if_neg (by decide)])).trans ?_
  refine (broadcastInDim_apply _ bcast_S64_S1x64_1 _ (ix2 (0 : Fin 1) d) (ix1 d) (fun a => match a with
    | ⟨0, _⟩ => by show d.val = if (64 : Nat) = 1 then 0 else d.val; rw [if_neg (by decide)])).trans ?_
  show (broadcastInDim S64 ![] bcast_S_S64 c) (ix1 d) * b (ix1 d) = _
  rw [broadcastInDim_apply _ bcast_S_S64 c (ix1 d) ix0 (fun a => a.elim0)]

/-- A length-64 row repeated down the 8 rows, read at `(i, j)`, is the row at `j`. -/
theorem row64_apply (b : (⟨S64, .f32⟩ : BufTy).Contents (Elt Ideal)) (i : Fin 8) (j : Fin 64) :
    broadcastInDim S8x64 ![0, 1] bcast_S1x64_S8x64_0_1 (broadcastInDim S1x64 ![1] bcast_S64_S1x64_1 b) (ix2 i j)
      = b (ix1 j) := by
  refine (broadcastInDim_apply _ bcast_S1x64_S8x64_0_1 _ (ix2 i j) (ix2 (0 : Fin 1) j) (fun a => match a with
    | ⟨0, _⟩ => by show 0 = if (1 : Nat) = 1 then 0 else i.val; rw [if_pos rfl]
    | ⟨1, _⟩ => by show j.val = if (64 : Nat) = 1 then 0 else j.val; rw [if_neg (by decide)])).trans ?_
  exact broadcastInDim_apply _ bcast_S64_S1x64_1 b (ix2 (0 : Fin 1) j) (ix1 j) (fun a => match a with
    | ⟨0, _⟩ => by show j.val = if (64 : Nat) = 1 then 0 else j.val; rw [if_neg (by decide)])

/-- An entrywise sum read at an index. -/
theorem addf_ap {S : Shape} (a b : (⟨S, .f32⟩ : BufTy).Contents (Elt Ideal)) (i : S.Idx) :
    addf (F := Ideal) (φ := .f32) a b i = a i + b i := rfl

/-- An entrywise product read at an index. -/
theorem mulf_ap {S : Shape} (a b : (⟨S, .f32⟩ : BufTy).Contents (Elt Ideal)) (i : S.Idx) :
    mulf (F := Ideal) (φ := .f32) a b i = a i * b i := rfl

/-! ## An affine layer on arrays of real numbers -/

/-- The binding layer as the program writes it: `x` ([8, 64]) times the transpose of `W` ([512, 64]) plus the
bias `b` scaled by the scalar `c`. On real entries its entry `(i, d)` is `∑ k, x i k * W d k + c * b d`. -/
theorem layer512_apply (x : (⟨S8x64, .f32⟩ : BufTy).Contents (Elt Ideal)) (W : (⟨S512x64, .f32⟩ : BufTy).Contents (Elt Ideal)) (c : (⟨S_, .f32⟩ : BufTy).Contents (Elt Ideal)) (b : (⟨S512, .f32⟩ : BufTy).Contents (Elt Ideal))
    (xr : Fin 8 → Fin 64 → ℝ) (Wr : Fin 512 → Fin 64 → ℝ) (br : Fin 512 → ℝ) (cr : ℝ)
    (hx : ∀ i k, x (ix2 i k) = ((xr i k : ℝ) : EReal)) (hW : ∀ d k, W (ix2 d k) = ((Wr d k : ℝ) : EReal))
    (hb : ∀ d, b (ix1 d) = ((br d : ℝ) : EReal)) (hc : c ix0 = ((cr : ℝ) : EReal)) (i : Fin 8) (d : Fin 512) :
    (addf (F := Ideal) (φ := .f32)
        (Host.dotGeneral (F := Ideal) (φ₁ := .f32) (φ₂ := .f32) dot_S8x64_S64x512_S8x512_1_0_0_1_n_n none x (transpose S64x512 [1, 0] W transposes_S512x64_S64x512_1_0))
        (broadcastInDim S8x512 ![0, 1] bcast_S1x512_S8x512_0_1 (broadcastInDim S1x512 ![1] bcast_S512_S1x512_1
          (mulf (F := Ideal) (φ := .f32) (broadcastInDim S512 ![] bcast_S_S512 c) b)))) (ix2 i d)
      = (((∑ k : Fin 64, xr i k * Wr d k) + cr * br d : ℝ) : EReal) := by
  rw [addf_ap, dot64_apply, bias512_apply, hc, hb, EReal.coe_add, EReal.coe_mul, coe_sum]
  refine congrArg (· + _) (Finset.sum_congr rfl fun k _ => ?_)
  rw [tr512x64_apply, hx, hW, EReal.coe_mul]

/-- The query layer applied to the bound total, as the program writes it: `x` ([8, 512]) times the transpose of
`W` ([64, 512]) plus the bias `b` scaled by the scalar `c`. On real entries its entry `(i, j)` is
`∑ d, x i d * W j d + c * b j`. -/
theorem layer64_apply (x : (⟨S8x512, .f32⟩ : BufTy).Contents (Elt Ideal)) (W : (⟨S64x512, .f32⟩ : BufTy).Contents (Elt Ideal)) (c : (⟨S_, .f32⟩ : BufTy).Contents (Elt Ideal)) (b : (⟨S64, .f32⟩ : BufTy).Contents (Elt Ideal))
    (xr : Fin 8 → Fin 512 → ℝ) (Wr : Fin 64 → Fin 512 → ℝ) (br : Fin 64 → ℝ) (cr : ℝ)
    (hx : ∀ i d, x (ix2 i d) = ((xr i d : ℝ) : EReal)) (hW : ∀ j d, W (ix2 j d) = ((Wr j d : ℝ) : EReal))
    (hb : ∀ j, b (ix1 j) = ((br j : ℝ) : EReal)) (hc : c ix0 = ((cr : ℝ) : EReal)) (i : Fin 8) (j : Fin 64) :
    (addf (F := Ideal) (φ := .f32)
        (Host.dotGeneral (F := Ideal) (φ₁ := .f32) (φ₂ := .f32) dot_S8x512_S512x64_S8x64_1_0_0_1_n_n none x (transpose S512x64 [1, 0] W transposes_S64x512_S512x64_1_0))
        (broadcastInDim S8x64 ![0, 1] bcast_S1x64_S8x64_0_1 (broadcastInDim S1x64 ![1] bcast_S64_S1x64_1
          (mulf (F := Ideal) (φ := .f32) (broadcastInDim S64 ![] bcast_S_S64 c) b)))) (ix2 i j)
      = (((∑ d : Fin 512, xr i d * Wr j d) + cr * br j : ℝ) : EReal) := by
  rw [addf_ap, dot512_apply, bias64_apply, hc, hb, EReal.coe_add, EReal.coe_mul, coe_sum]
  refine congrArg (· + _) (Finset.sum_congr rfl fun d _ => ?_)
  rw [tr64x512_apply, hx, hW, EReal.coe_mul]

/-- The query layer applied to the query, as the program writes it: the same product plus the bias row itself. On
real entries its entry `(i, j)` is `∑ d, x i d * W j d + b j`. -/
theorem layerQ_apply (x : (⟨S8x512, .f32⟩ : BufTy).Contents (Elt Ideal)) (W : (⟨S64x512, .f32⟩ : BufTy).Contents (Elt Ideal)) (b : (⟨S64, .f32⟩ : BufTy).Contents (Elt Ideal))
    (xr : Fin 8 → Fin 512 → ℝ) (Wr : Fin 64 → Fin 512 → ℝ) (br : Fin 64 → ℝ)
    (hx : ∀ i d, x (ix2 i d) = ((xr i d : ℝ) : EReal)) (hW : ∀ j d, W (ix2 j d) = ((Wr j d : ℝ) : EReal))
    (hb : ∀ j, b (ix1 j) = ((br j : ℝ) : EReal)) (i : Fin 8) (j : Fin 64) :
    (addf (F := Ideal) (φ := .f32)
        (Host.dotGeneral (F := Ideal) (φ₁ := .f32) (φ₂ := .f32) dot_S8x512_S512x64_S8x64_1_0_0_1_n_n none x (transpose S512x64 [1, 0] W transposes_S64x512_S512x64_1_0))
        (broadcastInDim S8x64 ![0, 1] bcast_S1x64_S8x64_0_1 (broadcastInDim S1x64 ![1] bcast_S64_S1x64_1 b))) (ix2 i j)
      = (((∑ d : Fin 512, xr i d * Wr j d) + br j : ℝ) : EReal) := by
  rw [addf_ap, dot512_apply, row64_apply, hb, EReal.coe_add, coe_sum]
  refine congrArg (· + _) (Finset.sum_congr rfl fun d _ => ?_)
  rw [tr64x512_apply, hx, hW, EReal.coe_mul]

/-! ## The match array -/

/-- The chain of host lines written as one nested term: the projected query times the twice-projected total. -/
theorem kerMatch_eq (P : (⟨S2x8x64, .f32⟩ : BufTy).Contents (Elt Ideal)) (a2 : (⟨S8x512, .f32⟩ : BufTy).Contents (Elt Ideal)) (a7 : (⟨S512x64, .f32⟩ : BufTy).Contents (Elt Ideal)) (a8 : (⟨S512, .f32⟩ : BufTy).Contents (Elt Ideal))
    (a9 : (⟨S64x512, .f32⟩ : BufTy).Contents (Elt Ideal)) (a10 : (⟨S64, .f32⟩ : BufTy).Contents (Elt Ideal)) :
    kerMatch P a2 a7 a8 a9 a10 =
      mulf (F := Ideal) (φ := .f32)
        (addf (F := Ideal) (φ := .f32)
        (Host.dotGeneral (F := Ideal) (φ₁ := .f32) (φ₂ := .f32) dot_S8x512_S512x64_S8x64_1_0_0_1_n_n none a2 (transpose S512x64 [1, 0] a9 transposes_S64x512_S512x64_1_0))
        (broadcastInDim S8x64 ![0, 1] bcast_S1x64_S8x64_0_1 (broadcastInDim S1x64 ![1] bcast_S64_S1x64_1 a10)))
        (addf (F := Ideal) (φ := .f32)
        (Host.dotGeneral (F := Ideal) (φ₁ := .f32) (φ₂ := .f32) dot_S8x512_S512x64_S8x64_1_0_0_1_n_n none (addf (F := Ideal) (φ := .f32)
        (Host.dotGeneral (F := Ideal) (φ₁ := .f32) (φ₂ := .f32) dot_S8x64_S64x512_S8x512_1_0_0_1_n_n none (Host.reduceAdd (F := Ideal) (φ := .f32) P (constant (F := Ideal) S_ .f32 0x00000000#32) reducesTo_S2x8x64_S8x64_d0 h_S_) (transpose S64x512 [1, 0] a7 transposes_S512x64_S64x512_1_0))
        (broadcastInDim S8x512 ![0, 1] bcast_S1x512_S8x512_0_1 (broadcastInDim S1x512 ![1] bcast_S512_S1x512_1
          (mulf (F := Ideal) (φ := .f32) (broadcastInDim S512 ![] bcast_S_S512 (constant (F := Ideal) S_ .f32 0x45800000#32)) a8)))) (transpose S512x64 [1, 0] a9 transposes_S64x512_S512x64_1_0))
        (broadcastInDim S8x64 ![0, 1] bcast_S1x64_S8x64_0_1 (broadcastInDim S1x64 ![1] bcast_S64_S1x64_1
          (mulf (F := Ideal) (φ := .f32) (broadcastInDim S64 ![] bcast_S_S64 (constant (F := Ideal) S_ .f32 0x45800000#32)) a10)))) :=
  rfl

/-- THE INDEX LEMMA. When the two partial sums hold the tiled sums of the bound pairs (`part`), and the query, the
binding layer and the query layer hold real numbers, entry `(i, j)` of the match array is the specification's real
number `matchKer … i j`: the two halves add up to `kvSum`, the two layers (each bias times the word for 4096) are
`affineN`, the projected query is `qv`, and the last line is their product. -/
theorem kerMatch_apply (K V : Fin 8 → Fin 4096 → Fin 512 → ℝ) (Q : Fin 8 → Fin 512 → ℝ)
    (Wbk Wbv Wuq : Fin 64 → Fin 512 → ℝ) (bbk bbv buq : Fin 64 → ℝ) (Wbc : Fin 512 → Fin 64 → ℝ) (bbc : Fin 512 → ℝ)
    (P : (⟨S2x8x64, .f32⟩ : BufTy).Contents (Elt Ideal)) (a2 : (⟨S8x512, .f32⟩ : BufTy).Contents (Elt Ideal)) (a7 : (⟨S512x64, .f32⟩ : BufTy).Contents (Elt Ideal)) (a8 : (⟨S512, .f32⟩ : BufTy).Contents (Elt Ideal))
    (a9 : (⟨S64x512, .f32⟩ : BufTy).Contents (Elt Ideal)) (a10 : (⟨S64, .f32⟩ : BufTy).Contents (Elt Ideal))
    (hP : ∀ p i j, P (ValueIdx.ix3 p i j) = ((Cert.BindSum.part K V Wbk Wbv bbk bbv p i j : ℝ) : EReal))
    (hQ : ∀ i d, a2 (ValueIdx.ix2 i d) = ((Q i d : ℝ) : EReal))
    (hWbc : ∀ d j, a7 (ValueIdx.ix2 d j) = ((Wbc d j : ℝ) : EReal))
    (hbbc : ∀ d, a8 (ValueIdx.ix1 d) = ((bbc d : ℝ) : EReal))
    (hWuq : ∀ j d, a9 (ValueIdx.ix2 j d) = ((Wuq j d : ℝ) : EReal))
    (hbuq : ∀ j, a10 (ValueIdx.ix1 j) = ((buq j : ℝ) : EReal))
    (i : Fin 8) (j : Fin 64) :
    kerMatch P a2 a7 a8 a9 a10 (ValueIdx.ix2 i j)
      = ((Cert.BindSum.matchKer K V Q Wbk Wbv Wuq bbk bbv buq Wbc bbc i j : ℝ) : EReal) := by
  have hc : (constant (F := Ideal) S_ .f32 0x45800000#32) ix0 = ((4096 : ℝ) : EReal) := ofBits_4096
  have h5 : ∀ (i : Fin 8) (k : Fin 64),
      (Host.reduceAdd (F := Ideal) (φ := .f32) P (constant (F := Ideal) S_ .f32 0x00000000#32)
        reducesTo_S2x8x64_S8x64_d0 h_S_) (ix2 i k)
        = ((Cert.BindSum.kvSum K V Wbk Wbv bbk bbv i k : ℝ) : EReal) := by
    intro i k
    rw [halves_apply]
    unfold Cert.BindSum.kvSum
    rw [coe_sum]
    exact Finset.sum_congr rfl fun p _ => hP p i k
  have h12 := layer512_apply _ a7 _ a8 _ Wbc bbc 4096 h5 hWbc hbbc hc
  have h19 := layer64_apply _ a9 _ a10 _ Wuq buq 4096 h12 hWuq hbuq hc
  have h24 := layerQ_apply a2 a9 a10 Q Wuq buq hQ hWuq hbuq
  rw [kerMatch_eq, mulf_ap, h24, h19, ← EReal.coe_mul]
  unfold Cert.BindSum.matchKer Cert.BindSum.qv Cert.BindSum.affine Cert.BindSum.affineN
  rfl

/-! ## The last projection, written two ways -/

section
variable [Cert.ReferenceIdeal.Facts₀]

theorem dotRef_lhs0 (i : Cert.ReferenceIdeal.S8x512.Idx) (q : Cert.ReferenceIdeal.dot_S8x64_S512x64_S8x512_1_1_0_0_n_n.contr.Idx) :
    (Cert.ReferenceIdeal.dot_S8x64_S512x64_S8x512_1_1_0_0_n_n.lhsIdx i q 0).val = (i 0).val := by
  unfold DotDims.lhsIdx
  rw [dif_neg (show ¬(0 : Fin Cert.ReferenceIdeal.S8x64.rank) ∈ Cert.ReferenceIdeal.dot_S8x64_S512x64_S8x512_1_1_0_0_n_n.lhsBatch from List.not_mem_nil),
    dif_pos (show (0 : Fin Cert.ReferenceIdeal.S8x64.rank) ∈ Cert.ReferenceIdeal.dot_S8x64_S512x64_S8x512_1_1_0_0_n_n.lhsNonContracting from List.mem_singleton.2 rfl)]
  rfl
theorem dotRef_rhs0 (i : Cert.ReferenceIdeal.S8x512.Idx) (q : Cert.ReferenceIdeal.dot_S8x64_S512x64_S8x512_1_1_0_0_n_n.contr.Idx) :
    (Cert.ReferenceIdeal.dot_S8x64_S512x64_S8x512_1_1_0_0_n_n.rhsIdx i q 0).val = (i 1).val := by
  unfold DotDims.rhsIdx
  rw [dif_neg (show ¬(0 : Fin Cert.ReferenceIdeal.S512x64.rank) ∈ Cert.ReferenceIdeal.dot_S8x64_S512x64_S8x512_1_1_0_0_n_n.rhsBatch from List.not_mem_nil),
    dif_pos (show (0 : Fin Cert.ReferenceIdeal.S512x64.rank) ∈ Cert.ReferenceIdeal.dot_S8x64_S512x64_S8x512_1_1_0_0_n_n.rhsNonContracting from List.mem_singleton.2 rfl)]
  rfl

/-- A [8, 64] array and a [512, 64] array contracted along their second axes, read at `(i, d)`: the sum over the
64 contracted positions. -/
theorem dotRef_apply (x : (⟨S8x64, .f32⟩ : BufTy).Contents (Elt Ideal)) (y : (⟨S512x64, .f32⟩ : BufTy).Contents (Elt Ideal)) (i : Fin 8) (d : Fin 512) :
    Host.dotGeneral (F := Ideal) (φ₁ := .f32) (φ₂ := .f32) Cert.ReferenceIdeal.dot_S8x64_S512x64_S8x512_1_1_0_0_n_n none x y (ix2 i d)
      = ∑ k : Fin 64, x (ix2 i k) * y (ix2 d k) := by
  simp only [Host.dotGeneral]
  rw [Ideal.dotGeneral_apply, ← Equiv.sum_comp (ValueIdx.contrEquiv1 Cert.ReferenceIdeal.dot_S8x64_S512x64_S8x512_1_1_0_0_n_n 64 rfl rfl).symm]
  refine Finset.sum_congr rfl fun k _ => ?_
  have hk := ValueIdx.contrEquiv1_symm_val Cert.ReferenceIdeal.dot_S8x64_S512x64_S8x512_1_1_0_0_n_n 64 rfl rfl k
  have el : Cert.ReferenceIdeal.dot_S8x64_S512x64_S8x512_1_1_0_0_n_n.lhsIdx (ix2 i d) ((ValueIdx.contrEquiv1 Cert.ReferenceIdeal.dot_S8x64_S512x64_S8x512_1_1_0_0_n_n 64 rfl rfl).symm k) = ix2 i k :=
    funext fun a => Fin.ext (by
      match a with
      | ⟨0, _⟩ => exact dotRef_lhs0 _ _
      | ⟨1, _⟩ => exact (Cert.ReferenceIdeal.dot_S8x64_S512x64_S8x512_1_1_0_0_n_n.lhsIdx_val_of_single rfl (ix2 i d) _).trans hk)
  have er : Cert.ReferenceIdeal.dot_S8x64_S512x64_S8x512_1_1_0_0_n_n.rhsIdx (ix2 i d) ((ValueIdx.contrEquiv1 Cert.ReferenceIdeal.dot_S8x64_S512x64_S8x512_1_1_0_0_n_n 64 rfl rfl).symm k) = ix2 d k :=
    funext fun a => Fin.ext (by
      match a with
      | ⟨0, _⟩ => exact dotRef_rhs0 _ _
      | ⟨1, _⟩ => exact (Cert.ReferenceIdeal.dot_S8x64_S512x64_S8x512_1_1_0_0_n_n.rhsIdx_val_of_single rfl (ix2 i d) _).trans hk)
  rw [el, er]

/-- The kernel contracts the second axis of `M` with the first axis of the transpose of `W`; the reference
contracts the second axes of `M` and `W`. Both are `∑ k, M (i, k) * W (d, k)` at every `(i, d)`. -/
theorem dot_transposed (M : (⟨S8x64, .f32⟩ : BufTy).Contents (Elt Ideal)) (W : (⟨S512x64, .f32⟩ : BufTy).Contents (Elt Ideal)) :
    Host.dotGeneral (F := Ideal) (φ₁ := .f32) (φ₂ := .f32) dot_S8x64_S64x512_S8x512_1_0_0_1_n_n none M (transpose S64x512 [1, 0] W transposes_S512x64_S64x512_1_0)
      = Host.dotGeneral (F := Ideal) (φ₁ := .f32) (φ₂ := .f32) Cert.ReferenceIdeal.dot_S8x64_S512x64_S8x512_1_1_0_0_n_n none M W := by
  funext idx
  obtain ⟨i, d, rfl⟩ : ∃ (i : Fin 8) (d : Fin 512), idx = ix2 i d := ⟨idx 0, idx 1, eq_ix2 idx⟩
  rw [dot64_apply, dotRef_apply]
  exact Finset.sum_congr rfl fun k _ => by rw [tr512x64_apply]

end

end Cert.KerMatch

end
-- ==== Proof.RefMatch.lean ====
/-
  The reference program, read back as mathematics.

  (a) Its result is the shared tail (`Cert.Tail.tail`) applied to the extraction layer `· Wueᵀ` of an [8,64]
      array, `refMatch`: the per-position match summed over the 4096 positions.
  (b) THE INDEX LEMMA. When the eleven arguments `refMatch` depends on hold real numbers, its entry at
      batch `i`, feature `j` is the real number `Cert.BindSum.matchRef … i j`:

        ∑ n, affine Wuq buq (affine Wbc bbc (k_n ∘ v_n)) j * q j,
        k_n = affine Wbk bbk (keys i n), v_n = affine Wbv bbv (values i n), q = affine Wuq buq (query i),

      where `affine W b x j = (∑ d, x d * W j d) + b j`. The proof follows the program: each linear layer is
      a contraction over the last axis of both operands plus a broadcast bias; each is read at an index as a
      sum over `k` of products of entries, the entries are replaced by the reals they hold, and the coercion
      from the reals to the extended reals is moved outside the products and sums (it commutes with `+`,
      `*` and finite sums of reals). No sum is ever expanded.
-/
import proofs.«164664_j59974923321458_2_alg».proof.Proof.Spec
import proofs.«164664_j59974923321458_2_alg».proof.Proof.Tail
import proofs.«164664_j59974923321458_2_alg».proof.Proof.Gen.ReferenceIdeal.Run
import proofs.«164664_j59974923321458_2_alg».proof.Proof.Gen.ReferenceIdeal.Read

noncomputable section

namespace Cert.RefMatch

open Idealize.ShloMosaic Cert.ReferenceIdeal Cert.ReferenceIdeal.Gen Cert.ReferenceIdeal.Read
open Idealize.ShloMosaic.TcCoe Idealize.SL.Sem
open Idealize.ShloMosaic.ValueIdx Cert.BindSum
open BigOperators

/-! ## (a) The reference's result is the tail of the summed match -/

/-- The reference's [8,64] array before the extraction layer: the match, summed over the positions
    (the program's reduction over axis 1, from the initial value 0), as a function of the eleven
    arguments it depends on — keys, values, query, and the four layers' weights and biases. -/
def refMatch (a0 : FVec Ideal S8x4096x512 .f32) (a1 : FVec Ideal S8x4096x512 .f32) (a2 : FVec Ideal S8x512 .f32) (a3 : FVec Ideal S64x512 .f32) (a4 : FVec Ideal S64 .f32) (a5 : FVec Ideal S64x512 .f32) (a6 : FVec Ideal S64 .f32) (a7 : FVec Ideal S512x64 .f32) (a8 : FVec Ideal S512 .f32) (a9 : FVec Ideal S64x512 .f32) (a10 : FVec Ideal S64 .f32) : FVec Ideal S8x64 .f32 :=
  val_main_v25 (F := Ideal) a0 a1 a2 a3 a4 a5 a6 a7 a8 a9 a10

/-- The reference's result, as a function of its seventeen arguments, is the shared tail applied to
    `refMatch · Wueᵀ` (the contraction of `refMatch` with `a11` over the 64 features). Both sides unfold to
    the same composition of operations. -/
theorem ref_result (a0 : FVec Ideal S8x4096x512 .f32) (a1 : FVec Ideal S8x4096x512 .f32) (a2 : FVec Ideal S8x512 .f32) (a3 : FVec Ideal S64x512 .f32) (a4 : FVec Ideal S64 .f32) (a5 : FVec Ideal S64x512 .f32) (a6 : FVec Ideal S64 .f32) (a7 : FVec Ideal S512x64 .f32) (a8 : FVec Ideal S512 .f32) (a9 : FVec Ideal S64x512 .f32) (a10 : FVec Ideal S64 .f32) (a11 : FVec Ideal S512x64 .f32) (a12 : FVec Ideal S512 .f32) (a13 : FVec Ideal S512 .f32) (a14 : FVec Ideal S512 .f32) (a15 : FVec Ideal S512x512 .f32) (a16 : FVec Ideal S512 .f32) :
    val_main_v62 (F := Ideal) a0 a1 a2 a3 a4 a5 a6 a7 a8 a9 a10 a11 a12 a13 a14 a15 a16
      = Cert.Tail.tail (Host.dotGeneral (F := Ideal) (φ₁ := .f32) (φ₂ := .f32) dot_S8x64_S512x64_S8x512_1_1_0_0_n_n none
          (refMatch a0 a1 a2 a3 a4 a5 a6 a7 a8 a9 a10) a11) a12 a13 a14 a15 a16 := rfl

/-- The same, for the term the reference's run leaves in its result buffer: the arguments are the launch
    contents of the seventeen argument buffers. -/
theorem ref_result_run (m : (ℓ : Loc nD τ sig) → Buf (Elt Ideal) ℓ) (c : Dev nD) :
    Cert.ReferenceIdeal.Value.res_main_v62 (F := Ideal) m c
      = Cert.Tail.tail (Host.dotGeneral (F := Ideal) (φ₁ := .f32) (φ₂ := .f32) dot_S8x64_S512x64_S8x512_1_1_0_0_n_n none
          (refMatch (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
          (m ((c.tc : Thread nD τ).loc main_arg11)))
        (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  (val_main_v62_eq (F := Ideal) m c).trans (ref_result _ _ _ _ _ _ _ _ _ _ _ _ _ _ _ _ _)

/-! ## (b) The index lemma -/

/-- The coercion of a finite real sum into the extended reals is the sum of the coercions. -/
theorem coe_sum {ι : Type} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-! ### Where each operation reads its operands, in coordinates

A contraction at output index (i, n, j) and summation index `k` reads its left operand at (i, n, k) and its
right operand at (j, k); a bias broadcast first to [1,1,J] and then over batch and position is read at (j);
the transposed query weight read at (k, j) is the weight at (j, k); the query broadcast over positions is
read at (i, j); the sum over positions at (i, j) reads position `n` at (i, n, j). -/

theorem lidx_v0 (i : Fin 8) (n : Fin 4096) (j : Fin 64) (k : Fin 512) :
    lidx_main_v0 (ix3 i n j) k = ix3 i n k :=
  funext fun a => Fin.ext (by match a with | ⟨0, _⟩ => rfl | ⟨1, _⟩ => rfl | ⟨2, _⟩ => rfl)
theorem ridx_v0 (i : Fin 8) (n : Fin 4096) (j : Fin 64) (k : Fin 512) :
    ridx_main_v0 (ix3 i n j) k = ix2 j k :=
  funext fun a => Fin.ext (by match a with | ⟨0, _⟩ => rfl | ⟨1, _⟩ => rfl)
theorem idx_v2 (i : Fin 8) (n : Fin 4096) (j : Fin 64) :
    idx_main_v1 (idx_main_v2 (ix3 i n j)) = ix1 j :=
  funext fun a => Fin.ext (by match a with | ⟨0, _⟩ => rfl)
theorem lidx_v9 (i : Fin 8) (n : Fin 4096) (d : Fin 512) (k : Fin 64) :
    lidx_main_v9 (ix3 i n d) k = ix3 i n k :=
  funext fun a => Fin.ext (by match a with | ⟨0, _⟩ => rfl | ⟨1, _⟩ => rfl | ⟨2, _⟩ => rfl)
theorem ridx_v9 (i : Fin 8) (n : Fin 4096) (d : Fin 512) (k : Fin 64) :
    ridx_main_v9 (ix3 i n d) k = ix2 d k :=
  funext fun a => Fin.ext (by match a with | ⟨0, _⟩ => rfl | ⟨1, _⟩ => rfl)
theorem idx_v11 (i : Fin 8) (n : Fin 4096) (d : Fin 512) :
    idx_main_v10 (idx_main_v11 (ix3 i n d)) = ix1 d :=
  funext fun a => Fin.ext (by match a with | ⟨0, _⟩ => rfl)
theorem lidx_v14 (i : Fin 8) (j : Fin 64) (k : Fin 512) :
    lidx_main_v14 (ix2 i j) k = ix2 i k :=
  funext fun a => Fin.ext (by match a with | ⟨0, _⟩ => rfl | ⟨1, _⟩ => rfl)
theorem ridx_v14 (i : Fin 8) (j : Fin 64) (k : Fin 512) :
    idx_main_v13 (ridx_main_v14 (ix2 i j) k) = ix2 j k :=
  funext fun a => Fin.ext (by match a with | ⟨0, _⟩ => rfl | ⟨1, _⟩ => rfl)
theorem idx_v16 (i : Fin 8) (j : Fin 64) :
    idx_main_v15 (idx_main_v16 (ix2 i j)) = ix1 j :=
  funext fun a => Fin.ext (by match a with | ⟨0, _⟩ => rfl)
theorem idx_v23 (i : Fin 8) (n : Fin 4096) (j : Fin 64) :
    idx_main_v22 (idx_main_v23 (ix3 i n j)) = ix2 i j :=
  funext fun a => Fin.ext (by match a with | ⟨0, _⟩ => rfl | ⟨1, _⟩ => rfl)
theorem idx_v25 (i : Fin 8) (j : Fin 64) (n : Fin 4096) :
    idx_main_v25 (ix2 i j) n = ix3 i n j :=
  funext fun a => Fin.ext (by match a with | ⟨0, _⟩ => rfl | ⟨1, _⟩ => rfl | ⟨2, _⟩ => rfl)

/-! ### The stages, each at an index -/

/-- One row through a 512 → 64 layer with bias as the program computes it — the contraction of `x` and `w`
    over their last axes plus `b` broadcast over batch and position — is `affine` of the real arrays.
    The program uses this layer three times (keys, values, and the projection of the bound vector): the
    three stages are this one function of their operands. -/
theorem lin64_apply (x : FVec Ideal S8x4096x512 .f32) (w : FVec Ideal S64x512 .f32) (b : FVec Ideal S64 .f32)
    (X : Fin 8 → Fin 4096 → Fin 512 → ℝ) (W : Fin 64 → Fin 512 → ℝ) (B : Fin 64 → ℝ)
    (hx : ∀ i n d, x (ix3 i n d) = ((X i n d : ℝ) : EReal))
    (hw : ∀ j d, w (ix2 j d) = ((W j d : ℝ) : EReal))
    (hb : ∀ j, b (ix1 j) = ((B j : ℝ) : EReal))
    (i : Fin 8) (n : Fin 4096) (j : Fin 64) :
    val_main_v3 (F := Ideal) x w b (ix3 i n j) = ((affine W B (X i n) j : ℝ) : EReal) := by
  rw [val_main_v3_apply, val_main_v0_apply, val_main_v2_apply, val_main_v1_apply]
  simp only [lidx_v0, ridx_v0, idx_v2, hx, hw, hb, Ideal.addf_def]
  unfold affine
  rw [EReal.coe_add, coe_sum]
  simp only [EReal.coe_mul]

/-- The binding layer at batch `i`, position `n`, entry `d`: the projected key times the projected value,
    entry by entry, through the 64 → 512 layer `Wbc`, `bbc`. -/
theorem bind_apply (a0 a1 : FVec Ideal S8x4096x512 .f32) (a3 : FVec Ideal S64x512 .f32) (a4 : FVec Ideal S64 .f32) (a5 : FVec Ideal S64x512 .f32)
    (a6 : FVec Ideal S64 .f32) (a7 : FVec Ideal S512x64 .f32) (a8 : FVec Ideal S512 .f32)
    (K V : Fin 8 → Fin 4096 → Fin 512 → ℝ) (Wbk Wbv : Fin 64 → Fin 512 → ℝ) (bbk bbv : Fin 64 → ℝ)
    (Wbc : Fin 512 → Fin 64 → ℝ) (bbc : Fin 512 → ℝ)
    (hK : ∀ i n d, a0 (ix3 i n d) = ((K i n d : ℝ) : EReal))
    (hV : ∀ i n d, a1 (ix3 i n d) = ((V i n d : ℝ) : EReal))
    (hWbk : ∀ j d, a3 (ix2 j d) = ((Wbk j d : ℝ) : EReal))
    (hbbk : ∀ j, a4 (ix1 j) = ((bbk j : ℝ) : EReal))
    (hWbv : ∀ j d, a5 (ix2 j d) = ((Wbv j d : ℝ) : EReal))
    (hbbv : ∀ j, a6 (ix1 j) = ((bbv j : ℝ) : EReal))
    (hWbc : ∀ d j, a7 (ix2 d j) = ((Wbc d j : ℝ) : EReal))
    (hbbc : ∀ d, a8 (ix1 d) = ((bbc d : ℝ) : EReal))
    (i : Fin 8) (n : Fin 4096) (d : Fin 512) :
    val_main_v12 (F := Ideal) a0 a1 a3 a4 a5 a6 a7 a8 (ix3 i n d)
      = ((affine Wbc bbc (kv K V Wbk Wbv bbk bbv i n) d : ℝ) : EReal) := by
  rw [val_main_v12_apply, val_main_v9_apply, val_main_v11_apply, val_main_v10_apply]
  simp only [lidx_v9, ridx_v9, idx_v11, val_main_v8_apply, lin64_apply a0 a3 a4 K Wbk bbk hK hWbk hbbk,
    show ∀ i n j, val_main_v7 (F := Ideal) a1 a5 a6 (ix3 i n j) = ((affine Wbv bbv (V i n) j : ℝ) : EReal) from
      lin64_apply a1 a5 a6 V Wbv bbv hV hWbv hbbv,
    hWbc, hbbc, Ideal.addf_def, Ideal.mulf_def]
  rw [show affine Wbc bbc (kv K V Wbk Wbv bbk bbv i n) d
        = (∑ k, affine Wbk bbk (K i n) k * affine Wbv bbv (V i n) k * Wbc d k) + bbc d from rfl,
    EReal.coe_add, coe_sum]
  simp only [EReal.coe_mul]

/-- The projection of the bound vector at batch `i`, position `n`, entry `j`: the 512 → 64 layer `Wuq`, `buq`
    applied to the binding layer's row. -/
theorem proj_apply (a0 a1 : FVec Ideal S8x4096x512 .f32) (a3 : FVec Ideal S64x512 .f32) (a4 : FVec Ideal S64 .f32) (a5 : FVec Ideal S64x512 .f32)
    (a6 : FVec Ideal S64 .f32) (a7 : FVec Ideal S512x64 .f32) (a8 : FVec Ideal S512 .f32) (a9 : FVec Ideal S64x512 .f32) (a10 : FVec Ideal S64 .f32)
    (K V : Fin 8 → Fin 4096 → Fin 512 → ℝ) (Wbk Wbv Wuq : Fin 64 → Fin 512 → ℝ) (bbk bbv buq : Fin 64 → ℝ)
    (Wbc : Fin 512 → Fin 64 → ℝ) (bbc : Fin 512 → ℝ)
    (hK : ∀ i n d, a0 (ix3 i n d) = ((K i n d : ℝ) : EReal))
    (hV : ∀ i n d, a1 (ix3 i n d) = ((V i n d : ℝ) : EReal))
    (hWbk : ∀ j d, a3 (ix2 j d) = ((Wbk j d : ℝ) : EReal))
    (hbbk : ∀ j, a4 (ix1 j) = ((bbk j : ℝ) : EReal))
    (hWbv : ∀ j d, a5 (ix2 j d) = ((Wbv j d : ℝ) : EReal))
    (hbbv : ∀ j, a6 (ix1 j) = ((bbv j : ℝ) : EReal))
    (hWbc : ∀ d j, a7 (ix2 d j) = ((Wbc d j : ℝ) : EReal))
    (hbbc : ∀ d, a8 (ix1 d) = ((bbc d : ℝ) : EReal))
    (hWuq : ∀ j d, a9 (ix2 j d) = ((Wuq j d : ℝ) : EReal))
    (hbuq : ∀ j, a10 (ix1 j) = ((buq j : ℝ) : EReal))
    (i : Fin 8) (n : Fin 4096) (j : Fin 64) :
    val_main_v21 (F := Ideal) a0 a1 a3 a4 a5 a6 a7 a8 a9 a10 (ix3 i n j)
      = ((affine Wuq buq (affine Wbc bbc (kv K V Wbk Wbv bbk bbv i n)) j : ℝ) : EReal) :=
  lin64_apply (val_main_v12 (F := Ideal) a0 a1 a3 a4 a5 a6 a7 a8) a9 a10
    (fun i n => affine Wbc bbc (kv K V Wbk Wbv bbk bbv i n)) Wuq buq
    (bind_apply a0 a1 a3 a4 a5 a6 a7 a8 K V Wbk Wbv bbk bbv Wbc bbc hK hV hWbk hbbk hWbv hbbv hWbc hbbc)
    hWuq hbuq i n j

/-- The projected query at batch `i`, entry `j`: the query row against the transposed weight, plus the bias. -/
theorem query_apply (a2 : FVec Ideal S8x512 .f32) (a9 : FVec Ideal S64x512 .f32) (a10 : FVec Ideal S64 .f32)
    (Q : Fin 8 → Fin 512 → ℝ) (Wuq : Fin 64 → Fin 512 → ℝ) (buq : Fin 64 → ℝ)
    (hQ : ∀ i d, a2 (ix2 i d) = ((Q i d : ℝ) : EReal))
    (hWuq : ∀ j d, a9 (ix2 j d) = ((Wuq j d : ℝ) : EReal))
    (hbuq : ∀ j, a10 (ix1 j) = ((buq j : ℝ) : EReal))
    (i : Fin 8) (j : Fin 64) :
    val_main_v17 (F := Ideal) a2 a9 a10 (ix2 i j) = ((qv Q Wuq buq i j : ℝ) : EReal) := by
  rw [val_main_v17_apply, val_main_v14_apply, val_main_v16_apply, val_main_v15_apply]
  simp only [val_main_v13_apply, lidx_v14, ridx_v14, idx_v16, hQ, hWuq, hbuq, Ideal.addf_def]
  unfold qv affine
  rw [EReal.coe_add, coe_sum]
  simp only [EReal.coe_mul]

/-- The match at batch `i`, position `n`, entry `j`: the projection times the query, the query broadcast
    over the positions. -/
theorem match_apply (a0 : FVec Ideal S8x4096x512 .f32) (a1 : FVec Ideal S8x4096x512 .f32) (a2 : FVec Ideal S8x512 .f32) (a3 : FVec Ideal S64x512 .f32) (a4 : FVec Ideal S64 .f32) (a5 : FVec Ideal S64x512 .f32) (a6 : FVec Ideal S64 .f32) (a7 : FVec Ideal S512x64 .f32) (a8 : FVec Ideal S512 .f32) (a9 : FVec Ideal S64x512 .f32) (a10 : FVec Ideal S64 .f32)
    (K V : Fin 8 → Fin 4096 → Fin 512 → ℝ) (Q : Fin 8 → Fin 512 → ℝ)
    (Wbk Wbv Wuq : Fin 64 → Fin 512 → ℝ) (bbk bbv buq : Fin 64 → ℝ) (Wbc : Fin 512 → Fin 64 → ℝ) (bbc : Fin 512 → ℝ)
    (hK : ∀ i n d, a0 (ix3 i n d) = ((K i n d : ℝ) : EReal))
    (hV : ∀ i n d, a1 (ix3 i n d) = ((V i n d : ℝ) : EReal))
    (hQ : ∀ i d, a2 (ix2 i d) = ((Q i d : ℝ) : EReal))
    (hWbk : ∀ j d, a3 (ix2 j d) = ((Wbk j d : ℝ) : EReal))
    (hbbk : ∀ j, a4 (ix1 j) = ((bbk j : ℝ) : EReal))
    (hWbv : ∀ j d, a5 (ix2 j d) = ((Wbv j d : ℝ) : EReal))
    (hbbv : ∀ j, a6 (ix1 j) = ((bbv j : ℝ) : EReal))
    (hWbc : ∀ d j, a7 (ix2 d j) = ((Wbc d j : ℝ) : EReal))
    (hbbc : ∀ d, a8 (ix1 d) = ((bbc d : ℝ) : EReal))
    (hWuq : ∀ j d, a9 (ix2 j d) = ((Wuq j d : ℝ) : EReal))
    (hbuq : ∀ j, a10 (ix1 j) = ((buq j : ℝ) : EReal))
    (i : Fin 8) (n : Fin 4096) (j : Fin 64) :
    val_main_v24 (F := Ideal) a0 a1 a2 a3 a4 a5 a6 a7 a8 a9 a10 (ix3 i n j)
      = ((affine Wuq buq (affine Wbc bbc (kv K V Wbk Wbv bbk bbv i n)) j * qv Q Wuq buq i j : ℝ) : EReal) := by
  rw [val_main_v24_apply, val_main_v23_apply, val_main_v22_apply, idx_v23,
    proj_apply a0 a1 a3 a4 a5 a6 a7 a8 a9 a10 K V Wbk Wbv Wuq bbk bbv buq Wbc bbc hK hV hWbk hbbk hWbv hbbv hWbc hbbc hWuq hbuq,
    query_apply a2 a9 a10 Q Wuq buq hQ hWuq hbuq, Ideal.mulf_def, EReal.coe_mul]

/-- THE INDEX LEMMA: the reference's match summed over the 4096 positions (from the initial value 0), at
    batch `i`, entry `j`, is the real number `matchRef … i j`. -/
theorem refMatch_apply (a0 : FVec Ideal S8x4096x512 .f32) (a1 : FVec Ideal S8x4096x512 .f32) (a2 : FVec Ideal S8x512 .f32) (a3 : FVec Ideal S64x512 .f32) (a4 : FVec Ideal S64 .f32) (a5 : FVec Ideal S64x512 .f32) (a6 : FVec Ideal S64 .f32) (a7 : FVec Ideal S512x64 .f32) (a8 : FVec Ideal S512 .f32) (a9 : FVec Ideal S64x512 .f32) (a10 : FVec Ideal S64 .f32)
    (K V : Fin 8 → Fin 4096 → Fin 512 → ℝ) (Q : Fin 8 → Fin 512 → ℝ)
    (Wbk Wbv Wuq : Fin 64 → Fin 512 → ℝ) (bbk bbv buq : Fin 64 → ℝ) (Wbc : Fin 512 → Fin 64 → ℝ) (bbc : Fin 512 → ℝ)
    (hK : ∀ i n d, a0 (ix3 i n d) = ((K i n d : ℝ) : EReal))
    (hV : ∀ i n d, a1 (ix3 i n d) = ((V i n d : ℝ) : EReal))
    (hQ : ∀ i d, a2 (ix2 i d) = ((Q i d : ℝ) : EReal))
    (hWbk : ∀ j d, a3 (ix2 j d) = ((Wbk j d : ℝ) : EReal))
    (hbbk : ∀ j, a4 (ix1 j) = ((bbk j : ℝ) : EReal))
    (hWbv : ∀ j d, a5 (ix2 j d) = ((Wbv j d : ℝ) : EReal))
    (hbbv : ∀ j, a6 (ix1 j) = ((bbv j : ℝ) : EReal))
    (hWbc : ∀ d j, a7 (ix2 d j) = ((Wbc d j : ℝ) : EReal))
    (hbbc : ∀ d, a8 (ix1 d) = ((bbc d : ℝ) : EReal))
    (hWuq : ∀ j d, a9 (ix2 j d) = ((Wuq j d : ℝ) : EReal))
    (hbuq : ∀ j, a10 (ix1 j) = ((buq j : ℝ) : EReal))
    (i : Fin 8) (j : Fin 64) :
    refMatch a0 a1 a2 a3 a4 a5 a6 a7 a8 a9 a10 (ix2 i j)
      = ((matchRef K V Q Wbk Wbv Wuq bbk bbv buq Wbc bbc i j : ℝ) : EReal) := by
  unfold refMatch
  rw [val_main_v25_apply, val_main_cst_apply, Ideal.ofBits_def, Ideal.ofBits_zero_f32, zero_add]
  simp only [idx_v25,
    match_apply a0 a1 a2 a3 a4 a5 a6 a7 a8 a9 a10 K V Q Wbk Wbv Wuq bbk bbv buq Wbc bbc hK hV hQ hWbk hbbk hWbv hbbv hWbc hbbc hWuq hbuq]
  unfold matchRef
  rw [coe_sum]

/-! ## The extraction layer read at an index

The reference contracts `refMatch` with the extraction weight over the 64 features of BOTH (no transpose):
entry (i, d) of the array the tail starts from is `∑ k, refMatch (i, k) * Wue (d, k)`. A program that
transposes the weight first and contracts against its rows computes the same entries. -/

theorem lidx_v26 (i : Fin 8) (d : Fin 512) (k : Fin 64) :
    lidx_main_v26 (ix2 i d) k = ix2 i k :=
  funext fun a => Fin.ext (by match a with | ⟨0, _⟩ => rfl | ⟨1, _⟩ => rfl)
theorem ridx_v26 (i : Fin 8) (d : Fin 512) (k : Fin 64) :
    ridx_main_v26 (ix2 i d) k = ix2 d k :=
  funext fun a => Fin.ext (by match a with | ⟨0, _⟩ => rfl | ⟨1, _⟩ => rfl)

/-- The array the reference's tail starts from, at batch `i`, entry `d`: the summed match against row `d`
    of the extraction weight. -/
theorem extract_apply (a0 : FVec Ideal S8x4096x512 .f32) (a1 : FVec Ideal S8x4096x512 .f32) (a2 : FVec Ideal S8x512 .f32) (a3 : FVec Ideal S64x512 .f32) (a4 : FVec Ideal S64 .f32) (a5 : FVec Ideal S64x512 .f32) (a6 : FVec Ideal S64 .f32) (a7 : FVec Ideal S512x64 .f32) (a8 : FVec Ideal S512 .f32) (a9 : FVec Ideal S64x512 .f32) (a10 : FVec Ideal S64 .f32) (a11 : FVec Ideal S512x64 .f32) (i : Fin 8) (d : Fin 512) :
    Host.dotGeneral (F := Ideal) (φ₁ := .f32) (φ₂ := .f32) dot_S8x64_S512x64_S8x512_1_1_0_0_n_n none
        (refMatch a0 a1 a2 a3 a4 a5 a6 a7 a8 a9 a10) a11 (ix2 i d)
      = ∑ k : Fin 64, refMatch a0 a1 a2 a3 a4 a5 a6 a7 a8 a9 a10 (ix2 i k) * a11 (ix2 d k) := by
  show val_main_v26 (F := Ideal) a0 a1 a2 a3 a4 a5 a6 a7 a8 a9 a10 a11 (ix2 i d) = _
  rw [val_main_v26_apply]
  simp only [lidx_v26, ridx_v26]
  rfl

/-- The same with the summed match replaced by the real numbers it holds. -/
theorem extract_apply_real (a0 : FVec Ideal S8x4096x512 .f32) (a1 : FVec Ideal S8x4096x512 .f32) (a2 : FVec Ideal S8x512 .f32) (a3 : FVec Ideal S64x512 .f32) (a4 : FVec Ideal S64 .f32) (a5 : FVec Ideal S64x512 .f32) (a6 : FVec Ideal S64 .f32) (a7 : FVec Ideal S512x64 .f32) (a8 : FVec Ideal S512 .f32) (a9 : FVec Ideal S64x512 .f32) (a10 : FVec Ideal S64 .f32) (a11 : FVec Ideal S512x64 .f32)
    (K V : Fin 8 → Fin 4096 → Fin 512 → ℝ) (Q : Fin 8 → Fin 512 → ℝ)
    (Wbk Wbv Wuq : Fin 64 → Fin 512 → ℝ) (bbk bbv buq : Fin 64 → ℝ) (Wbc : Fin 512 → Fin 64 → ℝ) (bbc : Fin 512 → ℝ)
    (hK : ∀ i n d, a0 (ix3 i n d) = ((K i n d : ℝ) : EReal))
    (hV : ∀ i n d, a1 (ix3 i n d) = ((V i n d : ℝ) : EReal))
    (hQ : ∀ i d, a2 (ix2 i d) = ((Q i d : ℝ) : EReal))
    (hWbk : ∀ j d, a3 (ix2 j d) = ((Wbk j d : ℝ) : EReal))
    (hbbk : ∀ j, a4 (ix1 j) = ((bbk j : ℝ) : EReal))
    (hWbv : ∀ j d, a5 (ix2 j d) = ((Wbv j d : ℝ) : EReal))
    (hbbv : ∀ j, a6 (ix1 j) = ((bbv j : ℝ) : EReal))
    (hWbc : ∀ d j, a7 (ix2 d j) = ((Wbc d j : ℝ) : EReal))
    (hbbc : ∀ d, a8 (ix1 d) = ((bbc d : ℝ) : EReal))
    (hWuq : ∀ j d, a9 (ix2 j d) = ((Wuq j d : ℝ) : EReal))
    (hbuq : ∀ j, a10 (ix1 j) = ((buq j : ℝ) : EReal))
    (i : Fin 8) (d : Fin 512) :
    Host.dotGeneral (F := Ideal) (φ₁ := .f32) (φ₂ := .f32) dot_S8x64_S512x64_S8x512_1_1_0_0_n_n none
        (refMatch a0 a1 a2 a3 a4 a5 a6 a7 a8 a9 a10) a11 (ix2 i d)
      = ∑ k : Fin 64, ((matchRef K V Q Wbk Wbv Wuq bbk bbv buq Wbc bbc i k : ℝ) : EReal) * a11 (ix2 d k) := by
  rw [extract_apply]
  simp only [refMatch_apply a0 a1 a2 a3 a4 a5 a6 a7 a8 a9 a10 K V Q Wbk Wbv Wuq bbk bbv buq Wbc bbc hK hV hQ hWbk hbbk hWbv hbbv hWbc hbbc hWuq hbuq]

end Cert.RefMatch

end
-- ==== Proof.Finite.lean ====
/-
  From the precondition to real-valued inputs.

  The precondition is a conjunction of seventeen tests, one per argument array: "every entry x satisfies |x| < +∞".
  At the exact instance a float is an extended real, |x| is max x (-x), and +∞ is the top element, so the test says
  that x is neither +∞ nor -∞: x is (the coercion of) a real number. The all-quantifier over an array is a
  conjunction-reduction over all axes started at 1; that it comes out 1 says every entry's comparison came out 1.
-/
import proofs.«164664_j59974923321458_2_alg».proof.Defs
import Idealize.ShloMosaic.Lib.ReduceAll
import Idealize.ShloMosaic.Lib.ValueIdx
import Idealize.ShloMosaic.PureOps.Ideal

noncomputable section

namespace Cert.Finite

open Idealize.ShloMosaic Idealize.SL.Sem
open Cert.Pre_finite_inputs

/-- The rank-0 shape has exactly one index. -/
instance subsingleton_scalar_idx : Subsingleton S_.Idx := ⟨fun a b => funext fun d => d.elim0⟩

/-- One entry: an extended real x with max x (-x) < +∞ (the comparison against the word of +∞ came out 1) is a real. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- One array, of any shape: if the all-entries test "|x| < +∞" (a conjunction-reduction over all axes, started at 1,
    of the entrywise comparison against a broadcast +∞) is 1, then every entry is a real. -/
theorem all_real_of_test {s : Shape} {axes : List (Fin s.rank)}
    (hb : S_.BroadcastsInDim s (![] : Fin 0 → Fin s.rank)) (hr : s.ReducesTo axes S_) (hu : 0 < S_.numel)
    (a : FVec Ideal s .f32)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := fun i =>
  real_of_abs_lt_inf (a i) (Host.reduce_andi_all _ _ hr hu _ e i)

/-- The conjunction of two one-bit arrays is 1 at an index exactly when both are. -/
theorem and_one {s : Shape} {x y : IVec s 1} {j : s.Idx} (h : andi x y j = 1#1) : x j = 1#1 ∧ y j = 1#1 :=
  IntOp.andi_eq_one.1 h

/-- The precondition, decoded: if the seventeen-fold test of the argument arrays is the all-ones array, every entry of
    every argument array is a real number. The test is a left-nested conjunction of the seventeen per-array tests;
    it is split from the right, and each per-array test is read by the one-array lemma. -/
theorem real_of_finite [Cert.Pre_finite_inputs.Facts] (a0 : FVec Ideal S8x4096x512 .f32) (a1 : FVec Ideal S8x4096x512 .f32) (a2 : FVec Ideal S8x512 .f32) (a3 : FVec Ideal S64x512 .f32) (a4 : FVec Ideal S64 .f32) (a5 : FVec Ideal S64x512 .f32) (a6 : FVec Ideal S64 .f32) (a7 : FVec Ideal S512x64 .f32) (a8 : FVec Ideal S512 .f32) (a9 : FVec Ideal S64x512 .f32) (a10 : FVec Ideal S64 .f32) (a11 : FVec Ideal S512x64 .f32) (a12 : FVec Ideal S512 .f32) (a13 : FVec Ideal S512 .f32) (a14 : FVec Ideal S512 .f32) (a15 : FVec Ideal S512x512 .f32) (a16 : FVec Ideal S512 .f32)
    (h : Cert.Pre_finite_inputs.fn (F := Ideal) a0 a1 a2 a3 a4 a5 a6 a7 a8 a9 a10 a11 a12 a13 a14 a15 a16 = fun _ => 1#1) :
      (∀ i, ∃ r : ℝ, a0 i = (r : EReal)) ∧
      (∀ i, ∃ r : ℝ, a1 i = (r : EReal)) ∧
      (∀ i, ∃ r : ℝ, a2 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) ∧
      (∀ i, ∃ r : ℝ, a16 i = (r : EReal)) := by
  have h0 := congrFun h ValueIdx.ix0
  dsimp only [fn, fn_part1, fn_part2, fn_part3, fn_part4] at h0
  obtain ⟨h0, t16⟩ := and_one h0
  obtain ⟨h0, t15⟩ := and_one h0
  obtain ⟨h0, t14⟩ := and_one h0
  obtain ⟨h0, t13⟩ := and_one h0
  obtain ⟨h0, t12⟩ := and_one h0
  obtain ⟨h0, t11⟩ := and_one h0
  obtain ⟨h0, t10⟩ := and_one h0
  obtain ⟨h0, t9⟩ := and_one h0
  obtain ⟨h0, t8⟩ := and_one h0
  obtain ⟨h0, t7⟩ := and_one h0
  obtain ⟨h0, t6⟩ := and_one h0
  obtain ⟨h0, t5⟩ := and_one h0
  obtain ⟨h0, t4⟩ := and_one h0
  obtain ⟨h0, t3⟩ := and_one h0
  obtain ⟨h0, t2⟩ := and_one h0
  obtain ⟨t0, t1⟩ := and_one h0
  exact ⟨all_real_of_test _ _ _ a0 t0,
    all_real_of_test _ _ _ a1 t1,
    all_real_of_test _ _ _ a2 t2,
    all_real_of_test _ _ _ a3 t3,
    all_real_of_test _ _ _ a4 t4,
    all_real_of_test _ _ _ a5 t5,
    all_real_of_test _ _ _ a6 t6,
    all_real_of_test _ _ _ a7 t7,
    all_real_of_test _ _ _ a8 t8,
    all_real_of_test _ _ _ a9 t9,
    all_real_of_test _ _ _ a10 t10,
    all_real_of_test _ _ _ a11 t11,
    all_real_of_test _ _ _ a12 t12,
    all_real_of_test _ _ _ a13 t13,
    all_real_of_test _ _ _ a14 t14,
    all_real_of_test _ _ _ a15 t15,
    all_real_of_test _ _ _ a16 t16⟩

/-- The same at a device of the idealized kernel's launch memory: under the certificate's precondition every entry of
    every argument buffer is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ r : ℝ, m ((c.tc : Thread Cert.KernelIdeal.nD Cert.KernelIdeal.τ).loc Cert.KernelIdeal.main_arg0) i = (r : EReal)) ∧
      (∀ i, ∃ r : ℝ, m ((c.tc : Thread Cert.KernelIdeal.nD Cert.KernelIdeal.τ).loc Cert.KernelIdeal.main_arg1) i = (r : EReal)) ∧
      (∀ i, ∃ r : ℝ, m ((c.tc : Thread Cert.KernelIdeal.nD Cert.KernelIdeal.τ).loc Cert.KernelIdeal.main_arg2) i = (r : EReal)) ∧
      (∀ i, ∃ r : ℝ, m ((c.tc : Thread Cert.KernelIdeal.nD Cert.KernelIdeal.τ).loc Cert.KernelIdeal.main_arg3) i = (r : EReal)) ∧
      (∀ i, ∃ r : ℝ, m ((c.tc : Thread Cert.KernelIdeal.nD Cert.KernelIdeal.τ).loc Cert.KernelIdeal.main_arg4) i = (r : EReal)) ∧
      (∀ i, ∃ r : ℝ, m ((c.tc : Thread Cert.KernelIdeal.nD Cert.KernelIdeal.τ).loc Cert.KernelIdeal.main_arg5) i = (r : EReal)) ∧
      (∀ i, ∃ r : ℝ, m ((c.tc : Thread Cert.KernelIdeal.nD Cert.KernelIdeal.τ).loc Cert.KernelIdeal.main_arg6) i = (r : EReal)) ∧
      (∀ i, ∃ r : ℝ, m ((c.tc : Thread Cert.KernelIdeal.nD Cert.KernelIdeal.τ).loc Cert.KernelIdeal.main_arg7) i = (r : EReal)) ∧
      (∀ i, ∃ r : ℝ, m ((c.tc : Thread Cert.KernelIdeal.nD Cert.KernelIdeal.τ).loc Cert.KernelIdeal.main_arg8) i = (r : EReal)) ∧
      (∀ i, ∃ r : ℝ, m ((c.tc : Thread Cert.KernelIdeal.nD Cert.KernelIdeal.τ).loc Cert.KernelIdeal.main_arg9) i = (r : EReal)) ∧
      (∀ i, ∃ r : ℝ, m ((c.tc : Thread Cert.KernelIdeal.nD Cert.KernelIdeal.τ).loc Cert.KernelIdeal.main_arg10) i = (r : EReal)) ∧
      (∀ i, ∃ r : ℝ, m ((c.tc : Thread Cert.KernelIdeal.nD Cert.KernelIdeal.τ).loc Cert.KernelIdeal.main_arg11) i = (r : EReal)) ∧
      (∀ i, ∃ r : ℝ, m ((c.tc : Thread Cert.KernelIdeal.nD Cert.KernelIdeal.τ).loc Cert.KernelIdeal.main_arg12) i = (r : EReal)) ∧
      (∀ i, ∃ r : ℝ, m ((c.tc : Thread Cert.KernelIdeal.nD Cert.KernelIdeal.τ).loc Cert.KernelIdeal.main_arg13) i = (r : EReal)) ∧
      (∀ i, ∃ r : ℝ, m ((c.tc : Thread Cert.KernelIdeal.nD Cert.KernelIdeal.τ).loc Cert.KernelIdeal.main_arg14) i = (r : EReal)) ∧
      (∀ i, ∃ r : ℝ, m ((c.tc : Thread Cert.KernelIdeal.nD Cert.KernelIdeal.τ).loc Cert.KernelIdeal.main_arg15) i = (r : EReal)) ∧
      (∀ i, ∃ r : ℝ, m ((c.tc : Thread Cert.KernelIdeal.nD Cert.KernelIdeal.τ).loc Cert.KernelIdeal.main_arg16) i = (r : EReal)) :=
  real_of_finite _ _ _ _ _ _ _ _ _ _ _ _ _ _ _ _ _ (h c)

/-- And at a device of the idealized reference's launch memory, under its copy of the precondition. -/
theorem real_of_pre_ref [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
      (∀ i, ∃ r : ℝ, m ((c.tc : Thread Cert.ReferenceIdeal.nD Cert.ReferenceIdeal.τ).loc Cert.ReferenceIdeal.main_arg0) i = (r : EReal)) ∧
      (∀ i, ∃ r : ℝ, m ((c.tc : Thread Cert.ReferenceIdeal.nD Cert.ReferenceIdeal.τ).loc Cert.ReferenceIdeal.main_arg1) i = (r : EReal)) ∧
      (∀ i, ∃ r : ℝ, m ((c.tc : Thread Cert.ReferenceIdeal.nD Cert.ReferenceIdeal.τ).loc Cert.ReferenceIdeal.main_arg2) i = (r : EReal)) ∧
      (∀ i, ∃ r : ℝ, m ((c.tc : Thread Cert.ReferenceIdeal.nD Cert.ReferenceIdeal.τ).loc Cert.ReferenceIdeal.main_arg3) i = (r : EReal)) ∧
      (∀ i, ∃ r : ℝ, m ((c.tc : Thread Cert.ReferenceIdeal.nD Cert.ReferenceIdeal.τ).loc Cert.ReferenceIdeal.main_arg4) i = (r : EReal)) ∧
      (∀ i, ∃ r : ℝ, m ((c.tc : Thread Cert.ReferenceIdeal.nD Cert.ReferenceIdeal.τ).loc Cert.ReferenceIdeal.main_arg5) i = (r : EReal)) ∧
      (∀ i, ∃ r : ℝ, m ((c.tc : Thread Cert.ReferenceIdeal.nD Cert.ReferenceIdeal.τ).loc Cert.ReferenceIdeal.main_arg6) i = (r : EReal)) ∧
      (∀ i, ∃ r : ℝ, m ((c.tc : Thread Cert.ReferenceIdeal.nD Cert.ReferenceIdeal.τ).loc Cert.ReferenceIdeal.main_arg7) i = (r : EReal)) ∧
      (∀ i, ∃ r : ℝ, m ((c.tc : Thread Cert.ReferenceIdeal.nD Cert.ReferenceIdeal.τ).loc Cert.ReferenceIdeal.main_arg8) i = (r : EReal)) ∧
      (∀ i, ∃ r : ℝ, m ((c.tc : Thread Cert.ReferenceIdeal.nD Cert.ReferenceIdeal.τ).loc Cert.ReferenceIdeal.main_arg9) i = (r : EReal)) ∧
      (∀ i, ∃ r : ℝ, m ((c.tc : Thread Cert.ReferenceIdeal.nD Cert.ReferenceIdeal.τ).loc Cert.ReferenceIdeal.main_arg10) i = (r : EReal)) ∧
      (∀ i, ∃ r : ℝ, m ((c.tc : Thread Cert.ReferenceIdeal.nD Cert.ReferenceIdeal.τ).loc Cert.ReferenceIdeal.main_arg11) i = (r : EReal)) ∧
      (∀ i, ∃ r : ℝ, m ((c.tc : Thread Cert.ReferenceIdeal.nD Cert.ReferenceIdeal.τ).loc Cert.ReferenceIdeal.main_arg12) i = (r : EReal)) ∧
      (∀ i, ∃ r : ℝ, m ((c.tc : Thread Cert.ReferenceIdeal.nD Cert.ReferenceIdeal.τ).loc Cert.ReferenceIdeal.main_arg13) i = (r : EReal)) ∧
      (∀ i, ∃ r : ℝ, m ((c.tc : Thread Cert.ReferenceIdeal.nD Cert.ReferenceIdeal.τ).loc Cert.ReferenceIdeal.main_arg14) i = (r : EReal)) ∧
      (∀ i, ∃ r : ℝ, m ((c.tc : Thread Cert.ReferenceIdeal.nD Cert.ReferenceIdeal.τ).loc Cert.ReferenceIdeal.main_arg15) i = (r : EReal)) ∧
      (∀ i, ∃ r : ℝ, m ((c.tc : Thread Cert.ReferenceIdeal.nD Cert.ReferenceIdeal.τ).loc Cert.ReferenceIdeal.main_arg16) i = (r : EReal)) :=
  real_of_finite _ _ _ _ _ _ _ _ _ _ _ _ _ _ _ _ _ (h c)

end Cert.Finite

end
-- ==== Proof.BindLaw.lean ====
import proofs.«164664_j59974923321458_2_alg».proof.Proof.Spec
import Mathlib.Data.Real.Basic
import Mathlib.Algebra.BigOperators.Fin
import Mathlib.Algebra.BigOperators.Ring.Finset
import Mathlib.Data.Fintype.BigOperators
import Mathlib.Tactic.NormNum
import Mathlib.Tactic.Ring

/-!
# Summing before or after two affine layers

Over the real numbers. One arrangement sums, over the 4096 positions, the bound pair pushed through two affine
layers and multiplied by the projected query. The other sums the bound pairs first, tile by tile, and pushes the
sum through the same two layers with each bias counted 4096 times. Three facts make them equal:

* `sum_affine`: an affine layer commutes with a sum of 4096 rows, the bias being counted 4096 times;
* `sum_row`: the tiling `(p, t, c, r) ↦ 512 (4 p + t) + 256 c + r` is a bijection onto the 4096 positions
  (`rowEquiv`), so the tiled sum is the plain sum;
* the projected query does not depend on the position, so it comes out of the sum.
-/

noncomputable section

namespace Cert.BindSum

open BigOperators

/-- An affine layer commutes with a sum of 4096 rows, the bias being counted 4096 times: summing the layer's
outputs over the rows is the layer (with its bias taken 4096 times) applied to the entrywise sum of the rows. -/
theorem sum_affine {D J : ℕ} (W : Fin J → Fin D → ℝ) (b : Fin J → ℝ) (x : Fin 4096 → Fin D → ℝ) (j : Fin J) :
    ∑ n : Fin 4096, affine W b (x n) j = affineN W b (fun d => ∑ n : Fin 4096, x n d) j := by
  unfold affine affineN
  rw [Finset.sum_add_distrib, Finset.sum_comm]
  congr 1
  · exact Finset.sum_congr rfl fun d _ => (Finset.sum_mul _ _ _).symm
  · rw [Finset.sum_const, Finset.card_univ, Fintype.card_fin, nsmul_eq_mul]
    norm_num

/-- The tiling is a bijection: every position below 4096 is `512 (4 p + t) + 256 c + r` for exactly one half `p`,
step `t`, chunk `c` and row `r`, read off by division with remainder. -/
def rowEquiv : Fin 2 × Fin 4 × Fin 2 × Fin 256 ≃ Fin 4096 where
  toFun x := row x.1 x.2.1 x.2.2.1 x.2.2.2
  invFun n := (⟨n.val / 2048, by omega⟩, ⟨n.val / 512 % 4, by omega⟩, ⟨n.val / 256 % 2, by omega⟩,
    ⟨n.val % 256, by omega⟩)
  left_inv := by
    rintro ⟨p, t, c, r⟩
    simp only [row, Prod.mk.injEq, Fin.ext_iff]
    omega
  right_inv := by
    intro n
    simp only [row, Fin.ext_iff]
    omega

/-- Retiling a sum: summing over the halves, steps, chunks and rows of the tiling visits every one of the 4096
positions exactly once. -/
theorem sum_row {M : Type*} [AddCommMonoid M] (f : Fin 4096 → M) :
    ∑ p : Fin 2, ∑ t : Fin 4, ∑ c : Fin 2, ∑ r : Fin 256, f (row p t c r) = ∑ n : Fin 4096, f n := by
  rw [← Equiv.sum_comp rowEquiv f]
  simp only [Fintype.sum_prod_type]
  rfl

/-- The kernel's tiled total is the plain total: the bound pairs summed half by half, step by step, chunk by
chunk and row by row are the bound pairs summed over all 4096 positions. -/
theorem kvSum_eq_sum (K V : Fin 8 → Fin 4096 → Fin 512 → ℝ) (Wbk Wbv : Fin 64 → Fin 512 → ℝ) (bbk bbv : Fin 64 → ℝ)
    (i : Fin 8) :
    kvSum K V Wbk Wbv bbk bbv i = fun j => ∑ n : Fin 4096, kv K V Wbk Wbv bbk bbv i n j := by
  funext j
  unfold kvSum part
  exact sum_row (fun n => kv K V Wbk Wbv bbk bbv i n j)

/-- The kernel and the reference compute the same number. The kernel's total of the bound pairs is the total over
all positions (the retiling); pushing that total through the binding layer and then through the query layer, each
bias counted 4096 times, is the same as summing the layers' outputs position by position (the layer law, twice);
and the projected query does not depend on the position, so it comes out of the sum. -/
theorem matchKer_eq_matchRef (K V : Fin 8 → Fin 4096 → Fin 512 → ℝ) (Q : Fin 8 → Fin 512 → ℝ)
    (Wbk Wbv Wuq : Fin 64 → Fin 512 → ℝ) (bbk bbv buq : Fin 64 → ℝ) (Wbc : Fin 512 → Fin 64 → ℝ) (bbc : Fin 512 → ℝ)
    (i : Fin 8) (j : Fin 64) :
    matchKer K V Q Wbk Wbv Wuq bbk bbv buq Wbc bbc i j = matchRef K V Q Wbk Wbv Wuq bbk bbv buq Wbc bbc i j := by
  have hbind : affineN Wbc bbc (fun j' => ∑ n : Fin 4096, kv K V Wbk Wbv bbk bbv i n j')
      = fun d => ∑ n : Fin 4096, affine Wbc bbc (kv K V Wbk Wbv bbk bbv i n) d :=
    funext fun d => (sum_affine Wbc bbc (kv K V Wbk Wbv bbk bbv i) d).symm
  unfold matchKer matchRef
  rw [kvSum_eq_sum, hbind,
    ← sum_affine Wuq buq (fun n => affine Wbc bbc (kv K V Wbk Wbv bbk bbv i n)) j, Finset.mul_sum]
  exact Finset.sum_congr rfl fun n _ => mul_comm _ _

end Cert.BindSum

end
-- ==== Proof.KerResult.lean ====
/-
  The kernel's result is the reference's function of the kernel's own arguments.

  After the region the sixty-nine host lines compute the result from the region's output array P (the two partial sums)
  and eleven of the arguments; written as one function of those, the last thirty-six lines are the tail both programs
  share, applied to the product of the [8, 64] match array with the extraction weights — the kernel multiplying by the
  transposed weights, the reference contracting the untransposed ones, the same sum. So it remains that the two match
  arrays agree entry by entry. Under the precondition every argument entry is a real number; then the kernel's entry is
  the summed pairs pushed through the two layers and multiplied by the query, the reference's is the per-position match
  summed over the positions, and an affine layer commutes with a finite sum up to the count of its bias.
-/
import proofs.«164664_j59974923321458_2_alg».proof.Proof.RunResult
import proofs.«164664_j59974923321458_2_alg».proof.Proof.KerTailEq
import proofs.«164664_j59974923321458_2_alg».proof.Proof.KerMatch
import proofs.«164664_j59974923321458_2_alg».proof.Proof.RefMatch
import proofs.«164664_j59974923321458_2_alg».proof.Proof.Finite
import proofs.«164664_j59974923321458_2_alg».proof.Proof.BindLaw
import proofs.«164664_j59974923321458_2_alg».proof.Proof.Gen.Pre_finite_inputs
import Idealize.ShloMosaic.Lib.StableHlo.Run
import Idealize.ShloMosaic.Lib.ValueIdx

set_option maxRecDepth 16384

noncomputable section

namespace Cert.KernelIdeal.Result

open Cert.KernelIdeal Cert.KernelIdeal.Gen Cert.KernelIdeal.Run
open Idealize.ShloMosaic Idealize.ShloMosaic.TcCoe Idealize.SL.Sem
open Idealize.ShloMosaic.Pipeline (Dat)

set_option maxHeartbeats 40000000 in
/-- From any contents of the buffers, the later lines leave in the result buffer one function of the region's output
    array and eleven arguments. -/
theorem after_tail (W : Valuation τ sig (Elt Ideal)) :
    StableHlo.after (hostOps1 (F := Ideal)) W (Proc.devRef .tc main_v63)
      = Cert.KerTail.kerTail (W (Proc.devRef .tc main_v4)) (W (Proc.devRef .tc main_arg2)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  after_results_simp; rfl

variable (m : (ℓ : Loc nD τ sig) → Buf (Elt Ideal) ℓ)

set_option maxHeartbeats 4000000 in
/-- After the run: that function of what the region left in its output array and of the launch contents of the
    arguments, which no line writes. -/
theorem tail_read (c : Dev nD) :
    Pipeline.afterTail₀ cfgs (dats (F := Ideal) m) 0 (V0 m) [hostOps1] c main_v63
      = Cert.KerTail.kerTail ((dats m 0 c).arrAt 6 cfg0.N) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold Pipeline.afterTail₀
  show StableHlo.after hostOps1 _ (Proc.devRef .tc main_v63) = _
  rw [after_tail]
  have h4 : Pipeline.withArrays (cfgs 0).spec c (V0 m c) (fun w => (dats m 0 c).arrAt w (cfgs 0).N) (Proc.devRef .tc main_v4)
      = (dats m 0 c).arrAt 6 cfg0.N :=
    Pipeline.withArrays_arr spec0 launch0.win.arr_inj c _ _ 6
  rw [h4]
  rw [Pipeline.withArrays_of_ne _ c (V0 m c) _ main_arg2 (by exact (by decide : ∀ w, Pipeline.arrRef spec0 w ≠ main_arg2)),
    Pipeline.withArrays_of_ne _ c (V0 m c) _ main_arg7 (by exact (by decide : ∀ w, Pipeline.arrRef spec0 w ≠ main_arg7)),
    Pipeline.withArrays_of_ne _ c (V0 m c) _ main_arg8 (by exact (by decide : ∀ w, Pipeline.arrRef spec0 w ≠ main_arg8)),
    Pipeline.withArrays_of_ne _ c (V0 m c) _ main_arg9 (by exact (by decide : ∀ w, Pipeline.arrRef spec0 w ≠ main_arg9)),
    Pipeline.withArrays_of_ne _ c (V0 m c) _ main_arg10 (by exact (by decide : ∀ w, Pipeline.arrRef spec0 w ≠ main_arg10)),
    Pipeline.withArrays_of_ne _ c (V0 m c) _ main_arg11 (by exact (by decide : ∀ w, Pipeline.arrRef spec0 w ≠ main_arg11)),
    Pipeline.withArrays_of_ne _ c (V0 m c) _ main_arg12 (by exact (by decide : ∀ w, Pipeline.arrRef spec0 w ≠ main_arg12)),
    Pipeline.withArrays_of_ne _ c (V0 m c) _ main_arg13 (by exact (by decide : ∀ w, Pipeline.arrRef spec0 w ≠ main_arg13)),
    Pipeline.withArrays_of_ne _ c (V0 m c) _ main_arg14 (by exact (by decide : ∀ w, Pipeline.arrRef spec0 w ≠ main_arg14)),
    Pipeline.withArrays_of_ne _ c (V0 m c) _ main_arg15 (by exact (by decide : ∀ w, Pipeline.arrRef spec0 w ≠ main_arg15)),
    Pipeline.withArrays_of_ne _ c (V0 m c) _ main_arg16 (by exact (by decide : ∀ w, Pipeline.arrRef spec0 w ≠ main_arg16))]
  show Cert.KerTail.kerTail _ (V m c main_arg2) (V m c main_arg7) (V m c main_arg8) (V m c main_arg9) (V m c main_arg10) (V m c main_arg11) (V m c main_arg12) (V m c main_arg13) (V m c main_arg14) (V m c main_arg15) (V m c main_arg16) = _
  rw [V_main_arg2 m c, V_main_arg7 m c, V_main_arg8 m c, V_main_arg9 m c, V_main_arg10 m c, V_main_arg11 m c, V_main_arg12 m c, V_main_arg13 m c, V_main_arg14 m c, V_main_arg15 m c, V_main_arg16 m c]

set_option maxHeartbeats 4000000 in
/-- Under the precondition, given what the region leaves in its output array — entry (p, i, j) the bound pairs summed
    over half p's positions —, the kernel's result is the shared tail of the reference's own match array. -/
theorem kres_eq_of (hpre : Cert.Pre_KernelIdeal m) (c : Dev nD)
    (hreg : ∀ (K V : Fin 8 → Fin 4096 → Fin 512 → ℝ) (Wbk Wbv : Fin 64 → Fin 512 → ℝ) (bbk bbv : Fin 64 → ℝ),
      (∀ i n d, (m ((c.tc : Thread nD τ).loc main_arg0)) (ValueIdx.ix3 i n d) = ((K i n d : ℝ) : EReal)) →
      (∀ i n d, (m ((c.tc : Thread nD τ).loc main_arg1)) (ValueIdx.ix3 i n d) = ((V i n d : ℝ) : EReal)) →
      (∀ j d, (m ((c.tc : Thread nD τ).loc main_arg3)) (ValueIdx.ix2 j d) = ((Wbk j d : ℝ) : EReal)) →
      (∀ j, (m ((c.tc : Thread nD τ).loc main_arg4)) (ValueIdx.ix1 j) = ((bbk j : ℝ) : EReal)) →
      (∀ j d, (m ((c.tc : Thread nD τ).loc main_arg5)) (ValueIdx.ix2 j d) = ((Wbv j d : ℝ) : EReal)) →
      (∀ j, (m ((c.tc : Thread nD τ).loc main_arg6)) (ValueIdx.ix1 j) = ((bbv j : ℝ) : EReal)) →
      ∀ (p : Fin 2) (i : Fin 8) (j : Fin 64), (dats m 0 c).arrAt 6 cfg0.N (ValueIdx.ix3 p i j)
        = ((Cert.BindSum.part K V Wbk Wbv bbk bbv p i j : ℝ) : EReal)) :
    Pipeline.afterTail₀ cfgs (dats (F := Ideal) m) 0 (V0 m) [hostOps1] c main_v63
      = Cert.Tail.tail (Host.dotGeneral (F := Ideal) (φ₁ := .f32) (φ₂ := .f32) Cert.ReferenceIdeal.dot_S8x64_S512x64_S8x512_1_1_0_0_n_n none
          (Cert.RefMatch.refMatch (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg11)))
          (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [tail_read, Cert.KerTail.kerTail_eq_tail, Cert.KerMatch.dot_transposed]
  obtain ⟨r0, r1, r2, r3, r4, r5, r6, r7, r8, r9, r10, -⟩ := Cert.Finite.real_of_pre m hpre c
  choose f0 h0 using r0
  choose f1 h1 using r1
  choose f2 h2 using r2
  choose f3 h3 using r3
  choose f4 h4 using r4
  choose f5 h5 using r5
  choose f6 h6 using r6
  choose f7 h7 using r7
  choose f8 h8 using r8
  choose f9 h9 using r9
  choose f10 h10 using r10
  have hM : Cert.KerTail.kerMatch ((dats m 0 c).arrAt 6 cfg0.N) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10))
      = Cert.RefMatch.refMatch (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
    funext y
    obtain ⟨i, j, rfl⟩ : ∃ (i : Fin 8) (j : Fin 64), y = ValueIdx.ix2 i j := ⟨y 0, y 1, ValueIdx.eq_ix2 y⟩
    rw [Cert.KerMatch.kerMatch_apply (fun i n d => f0 (ValueIdx.ix3 i n d)) (fun i n d => f1 (ValueIdx.ix3 i n d)) (fun i d => f2 (ValueIdx.ix2 i d)) (fun i d => f3 (ValueIdx.ix2 i d)) (fun i d => f5 (ValueIdx.ix2 i d)) (fun i d => f9 (ValueIdx.ix2 i d))
        (fun j => f4 (ValueIdx.ix1 j)) (fun j => f6 (ValueIdx.ix1 j)) (fun j => f10 (ValueIdx.ix1 j)) (fun i d => f7 (ValueIdx.ix2 i d)) (fun j => f8 (ValueIdx.ix1 j)) _ _ _ _ _ _
        (hreg _ _ _ _ _ _ (fun i n d => h0 (ValueIdx.ix3 i n d)) (fun i n d => h1 (ValueIdx.ix3 i n d)) (fun i d => h3 (ValueIdx.ix2 i d)) (fun j => h4 (ValueIdx.ix1 j)) (fun i d => h5 (ValueIdx.ix2 i d)) (fun j => h6 (ValueIdx.ix1 j)))
        (fun i d => h2 (ValueIdx.ix2 i d)) (fun i d => h7 (ValueIdx.ix2 i d)) (fun j => h8 (ValueIdx.ix1 j)) (fun i d => h9 (ValueIdx.ix2 i d)) (fun j => h10 (ValueIdx.ix1 j)) i j,
      Cert.RefMatch.refMatch_apply _ _ _ _ _ _ _ _ _ _ _ (fun i n d => f0 (ValueIdx.ix3 i n d)) (fun i n d => f1 (ValueIdx.ix3 i n d)) (fun i d => f2 (ValueIdx.ix2 i d)) (fun i d => f3 (ValueIdx.ix2 i d)) (fun i d => f5 (ValueIdx.ix2 i d)) (fun i d => f9 (ValueIdx.ix2 i d))
        (fun j => f4 (ValueIdx.ix1 j)) (fun j => f6 (ValueIdx.ix1 j)) (fun j => f10 (ValueIdx.ix1 j)) (fun i d => f7 (ValueIdx.ix2 i d)) (fun j => f8 (ValueIdx.ix1 j))
        (fun i n d => h0 (ValueIdx.ix3 i n d)) (fun i n d => h1 (ValueIdx.ix3 i n d)) (fun i d => h2 (ValueIdx.ix2 i d)) (fun i d => h3 (ValueIdx.ix2 i d)) (fun j => h4 (ValueIdx.ix1 j)) (fun i d => h5 (ValueIdx.ix2 i d)) (fun j => h6 (ValueIdx.ix1 j)) (fun i d => h7 (ValueIdx.ix2 i d)) (fun j => h8 (ValueIdx.ix1 j)) (fun i d => h9 (ValueIdx.ix2 i d)) (fun j => h10 (ValueIdx.ix1 j)) i j,
      Cert.BindSum.matchKer_eq_matchRef]
  rw [hM]

end Cert.KernelIdeal.Result

end
-- ==== Proof.Payload.lean ====
/-
  The kernel body's arithmetic, read one entry at a time, at the exact (extended-real) values.

  The body keeps a running [8,64] sum of bound pairs. For a chunk of 256 positions it flattens the chunk's
  [8,256,512] keys to [2048,512], multiplies by the [512,64] key weights into a zero accumulator, folds the product
  back to [8,256,64] and adds the bias row; it does the same for the values; it multiplies the two entry by entry and
  sums over the 256 positions. Entry (b, j) of that chunk sum is therefore

      ∑ r < 256, ((∑ d < 512, keys[b,r,d] · W[d,j]) + bias[j]) · ((∑ d < 512, values[b,r,d] · W'[d,j]) + bias'[j]).

  What makes this an identity rather than an approximation: at the extended reals a change of float format is the
  identity, a matrix product into a zero accumulator is the plain sum of products, and a lane sum started from the
  zero word is the plain sum. The only index arithmetic is the flattening: row (b, r) of the chunk is row
  256·b + r of the [2048, ·] view, in both directions, and a [1,1,64] bias row broadcast to [8,256,64] reads its
  entry j everywhere.

  The first chunk's payload is the zero word plus that sum; the stored block is what the output block held, plus the
  first chunk's value, plus the second chunk's sum, viewed as [1,8,64]. The last section restates both over ℝ when
  every entry is the coercion of a real.
-/
import proofs.«164664_j59974923321458_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Payload

open Cert.KernelIdeal Cert.KernelIdeal.Gen Idealize.ShloMosaic Idealize.ShloMosaic.ValueIdx
open scoped BigOperators

/-! ## The layout steps at explicit coordinates -/

/-- Row `256 * b + r` of the flattened [2048, ·] view. -/
abbrev flatRow (b : Fin 8) (r : Fin 256) : Fin 2048 := ⟨256 * b.val + r.val, by omega⟩

theorem cast_flat {α : Type} (x : S8x256x512.Idx → α) (h : S8x256x512.ShapeCasts S2048x512)
    (b : Fin 8) (r : Fin 256) (d : Fin 512) :
    shapeCast S2048x512 x h (ix2 (flatRow b r) d) = x (ix3 b r d) := by
  refine shapeCast_apply x h _ _ ?_
  rw [Shape.rowMajor_val_three, Shape.rowMajor_val_two]
  show (b.val * 256 + r.val) * 512 + d.val = (256 * b.val + r.val) * 512 + d.val
  omega

theorem cast_unflat {α : Type} (y : S2048x64.Idx → α) (h : S2048x64.ShapeCasts S8x256x64)
    (b : Fin 8) (r : Fin 256) (j : Fin 64) :
    shapeCast S8x256x64 y h (ix3 b r j) = y (ix2 (flatRow b r) j) := by
  refine shapeCast_apply y h _ _ ?_
  rw [Shape.rowMajor_val_three, Shape.rowMajor_val_two]
  show (256 * b.val + r.val) * 64 + j.val = (b.val * 256 + r.val) * 64 + j.val
  omega

theorem bcast_bias {α : Type} (x : S1x1x64.Idx → α) (h : S1x1x64.Broadcasts S8x256x64)
    (b : Fin 8) (r : Fin 256) (j : Fin 64) :
    broadcastTo S8x256x64 x h (ix3 b r j) = x (ix3 0 0 j) := by
  refine broadcastTo_apply x h _ _ fun a => ?_
  match a with
  | ⟨0, _⟩ => rfl
  | ⟨1, _⟩ => rfl
  | ⟨2, _⟩ => rfl

/-! ## The matrix product and the lane sum at explicit coordinates -/

/-- Left operand index of the [2048,512]·[512,64] product at output (row, j), axis 0: the row. -/
theorem mm_lhs0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem mm_lhs1 (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q
theorem mm_rhs0 (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q
theorem mm_rhs1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

/-- The matrix product into a zero accumulator, read at (row, j): the sum over the 512 contracted coordinates. -/
theorem mm_apply {φ₁ φ₂ : FTy} (lhs : FVec Ideal S2048x512 φ₁) (rhs : FVec Ideal S512x64 φ₂) (row : Fin 2048) (j : Fin 64) :
    matmul dot_S2048x512_S512x64_S2048x64_1_0_0_1_n_n none lhs rhs (constant (F := Ideal) S2048x64 .f32 0x00000000#32) (ix2 row j)
      = ∑ d : Fin 512, lhs (ix2 row d) * rhs (ix2 d j) := by
  refine (Ideal.matmul_constant_zero_apply dot_S2048x512_S512x64_S2048x64_1_0_0_1_n_n none lhs rhs (ix2 row j)).trans ?_
  rw [← Equiv.sum_comp (ValueIdx.contrEquiv1 dot_S2048x512_S512x64_S2048x64_1_0_0_1_n_n 512 rfl rfl).symm]
  refine Finset.sum_congr rfl fun k _ => ?_
  have hk := ValueIdx.contrEquiv1_symm_val dot_S2048x512_S512x64_S2048x64_1_0_0_1_n_n 512 rfl rfl k
  have el : dot_S2048x512_S512x64_S2048x64_1_0_0_1_n_n.lhsIdx (ix2 row j) ((ValueIdx.contrEquiv1 dot_S2048x512_S512x64_S2048x64_1_0_0_1_n_n 512 rfl rfl).symm k) = ix2 row k := funext fun a => Fin.ext (by
    match a with
    | ⟨0, _⟩ => exact mm_lhs0 _ _
    | ⟨1, _⟩ => exact (mm_lhs1 _ _).trans hk)
  have er : dot_S2048x512_S512x64_S2048x64_1_0_0_1_n_n.rhsIdx (ix2 row j) ((ValueIdx.contrEquiv1 dot_S2048x512_S512x64_S2048x64_1_0_0_1_n_n 512 rfl rfl).symm k) = ix2 k j := funext fun a => Fin.ext (by
    match a with
    | ⟨0, _⟩ => exact (mm_rhs0 _ _).trans hk
    | ⟨1, _⟩ => exact mm_rhs1 _ _)
  rw [el, er]

/-- The sum over the middle axis of an [8,256,64] vector, read at (b, j): the sum over the 256 rows. -/
theorem lane_sum (src : FVec Ideal S8x256x64 .f32) (h : S8x256x64.Reduces [1] S8x64) (hφ : FKind.Formats .f32)
    (hacc : (0x00000000#32 : BitVec 32) = FKind.add.neutral .f32 hφ) (b : Fin 8) (j : Fin 64) :
    multiReduction (F := Ideal) .add [1] S8x64 src 0x00000000#32 h hφ hacc (ix2 b j) = ∑ r : Fin 256, src (ix3 b r j) := by
  refine (Ideal.multiReduction_add_single src 0x00000000#32 h hφ hacc (ix2 b j)).trans ?_
  refine Finset.sum_congr rfl fun r _ => congrArg src ?_
  funext a
  match a with
  | ⟨0, _⟩ => rfl
  | ⟨1, _⟩ => rfl
  | ⟨2, _⟩ => rfl

/-! ## The payloads that are their arguments -/

theorem pay2_apply (y : S1x8x64.Idx) : k0_pay2 (F := Ideal) y = Ideal.ofBits .f32 0x00000000#32 := rfl

theorem pay2_apply_zero (y : S1x8x64.Idx) : k0_pay2 (F := Ideal) y = (0 : EReal) :=
  (pay2_apply y).trans Ideal.ofBits_zero_f32

theorem pay3_eq (v3 : Vec Ideal S512x64 .f32) : (k0_pay3 (F := Ideal) v3 : S512x64.Idx → EReal) = v3 := by
  unfold k0_pay3
  exact shapeCast_self v3 _

theorem pay4_eq (v6 : Vec Ideal S512x64 .f32) : (k0_pay4 (F := Ideal) v6 : S512x64.Idx → EReal) = v6 := by
  unfold k0_pay4
  exact shapeCast_self v6 _

theorem pay5_eq (v9 : Vec Ideal S1x1x64 .f32) : (k0_pay5 (F := Ideal) v9 : S1x1x64.Idx → EReal) = v9 := by
  unfold k0_pay5
  exact shapeCast_self v9 _

theorem pay6_eq (v11 : Vec Ideal S1x1x64 .f32) : (k0_pay6 (F := Ideal) v11 : S1x1x64.Idx → EReal) = v11 := by
  unfold k0_pay6
  exact shapeCast_self v11 _

/-! ## One chunk of 256 rows -/

/-- One projection of a chunk as the body computes it: the [8,256,512] rows flattened to [2048,512], multiplied
    by the [512,64] weights into a zero accumulator, folded back to [8,256,64], plus the bias row broadcast. -/
def proj (w : FVec Ideal S512x64 .bf16) (bias : FVec Ideal S1x1x64 .f32) (x : Vec Ideal S8x256x512 .f32) :
    FVec Ideal S8x256x64 .f32 :=
  addf
    (shapeCast S8x256x64
      (matmul dot_S2048x512_S512x64_S2048x64_1_0_0_1_n_n none
        (shapeCast S2048x512 (truncf (F := Ideal) .bf16 x bitsLt_bf16_f32) shapeCasts_S8x256x512_S2048x512) w
        (constant (F := Ideal) S2048x64 .f32 0x00000000#32))
      shapeCasts_S2048x64_S8x256x64)
    (broadcastTo S8x256x64 bias broadcasts_S1x1x64_S8x256x64)

/-- At (b, r, j): row (b, r) of the chunk against column j of the weights, plus entry j of the bias. -/
theorem proj_apply (w : FVec Ideal S512x64 .bf16) (bias : FVec Ideal S1x1x64 .f32) (x : Vec Ideal S8x256x512 .f32)
    (b : Fin 8) (r : Fin 256) (j : Fin 64) :
    proj w bias x (ix3 b r j) = (∑ d : Fin 512, x (ix3 b r d) * w (ix2 d j)) + bias (ix3 0 0 j) := by
  unfold proj
  refine (addf_apply _ _ _).trans ?_
  refine congrArg₂ (· + ·) ?_ (bcast_bias bias _ b r j)
  refine (cast_unflat _ _ b r j).trans ?_
  refine (mm_apply _ w (flatRow b r) j).trans ?_
  refine Finset.sum_congr rfl fun d _ => ?_
  exact congrArg (· * w (ix2 d j)) (cast_flat _ _ b r d)

/-- One chunk's contribution as the body computes it: the product of the two projections summed over the 256 rows. -/
def chunk (w w' : FVec Ideal S512x64 .bf16) (bias bias' : FVec Ideal S1x1x64 .f32) (x y : Vec Ideal S8x256x512 .f32) :
    FVec Ideal S8x64 .f32 :=
  multiReduction (F := Ideal) .add [1] S8x64 (mulf (proj w bias x) (proj w' bias' y)) 0x00000000#32
    reduces_S8x256x64_S8x64 (.inl rfl) rfl

theorem chunk_apply (w w' : FVec Ideal S512x64 .bf16) (bias bias' : FVec Ideal S1x1x64 .f32) (x y : Vec Ideal S8x256x512 .f32)
    (b : Fin 8) (j : Fin 64) :
    chunk w w' bias bias' x y (ix2 b j)
      = ∑ r : Fin 256, ((∑ d : Fin 512, x (ix3 b r d) * w (ix2 d j)) + bias (ix3 0 0 j))
          * ((∑ d : Fin 512, y (ix3 b r d) * w' (ix2 d j)) + bias' (ix3 0 0 j)) := by
  unfold chunk
  refine (lane_sum _ _ _ _ b j).trans ?_
  refine Finset.sum_congr rfl fun r _ => ?_
  refine (mulf_apply _ _ _).trans ?_
  exact congrArg₂ (· * ·) (proj_apply w bias x b r j) (proj_apply w' bias' y b r j)

/-! ## The two accumulating payloads over `chunk` -/

theorem pay7_eq_chunk (v3 v6 : Vec Ideal S512x64 .f32) (v9 v11 : Vec Ideal S1x1x64 .f32) (v14 v17 : Vec Ideal S8x256x512 .f32) :
    k0_pay7 (F := Ideal) v3 v6 v9 v11 v14 v17
      = addf (broadcast S8x64 (Ideal.ofBits .f32 0x00000000#32))
          (chunk (k0_pay3 v3) (k0_pay4 v6) (k0_pay5 v9) (k0_pay6 v11) v14 v17) := rfl

theorem pay1_eq_chunk (v5 v8 : FVec Ideal S512x64 .bf16) (v10 v12 : FVec Ideal S1x1x64 .f32) (v30 : FVec Ideal S8x64 .f32)
    (v31 v34 : Vec Ideal S8x256x512 .f32) (v48 : Vec Ideal S1x8x64 .f32) :
    k0_pay1 (F := Ideal) v5 v8 v10 v12 v30 v31 v34 v48
      = addf (shapeCast S1x8x64 v48 shapeCasts_S1x8x64_S1x8x64)
          (shapeCast S1x8x64 (addf v30 (chunk v5 v8 v10 v12 v31 v34)) shapeCasts_S8x64_S1x8x64) := rfl

/-- The [8,64] → [1,8,64] view at (0, b, j) is the entry (b, j). -/
theorem cast_lead {α : Type} (z : S8x64.Idx → α) (h : S8x64.ShapeCasts S1x8x64) (b : Fin 8) (j : Fin 64) :
    shapeCast S1x8x64 z h (ix3 0 b j) = z (ix2 b j) := by
  refine shapeCast_apply z h _ _ ?_
  rw [Shape.rowMajor_val_three, Shape.rowMajor_val_two]
  show b.val * 64 + j.val = (0 * 8 + b.val) * 64 + j.val
  omega

/-- Chunk 0's payload at (b, j): the zero word the body starts its accumulator from, plus the chunk's sum over its
    256 rows of (keys·W + bias) ∘ (values·W' + bias'). The lane sum and the two products into zero accumulators add no
    further zero word: at the extended reals they ARE the sums. -/
theorem pay7_apply (v3 v6 : Vec Ideal S512x64 .f32) (v9 v11 : Vec Ideal S1x1x64 .f32) (v14 v17 : Vec Ideal S8x256x512 .f32)
    (b : Fin 8) (j : Fin 64) :
    k0_pay7 (F := Ideal) v3 v6 v9 v11 v14 v17 (ix2 b j)
      = Ideal.ofBits .f32 0x00000000#32 + ∑ r : Fin 256,
          ((∑ d : Fin 512, v14 (ix3 b r d) * v3 (ix2 d j)) + v9 (ix3 0 0 j))
            * ((∑ d : Fin 512, v17 (ix3 b r d) * v6 (ix2 d j)) + v11 (ix3 0 0 j)) := by
  rw [pay7_eq_chunk]
  refine (addf_apply _ _ _).trans ?_
  refine congrArg (Ideal.ofBits .f32 0x00000000#32 + ·) ?_
  refine (chunk_apply _ _ _ _ v14 v17 b j).trans ?_
  rw [pay3_eq, pay4_eq, pay5_eq, pay6_eq]

/-- The same with the zero word read as the extended real 0 and dropped. -/
theorem pay7_apply_zero (v3 v6 : Vec Ideal S512x64 .f32) (v9 v11 : Vec Ideal S1x1x64 .f32) (v14 v17 : Vec Ideal S8x256x512 .f32)
    (b : Fin 8) (j : Fin 64) :
    k0_pay7 (F := Ideal) v3 v6 v9 v11 v14 v17 (ix2 b j)
      = ∑ r : Fin 256,
          ((∑ d : Fin 512, v14 (ix3 b r d) * v3 (ix2 d j)) + v9 (ix3 0 0 j))
            * ((∑ d : Fin 512, v17 (ix3 b r d) * v6 (ix2 d j)) + v11 (ix3 0 0 j)) := by
  rw [pay7_apply, Ideal.ofBits_zero_f32, zero_add]

/-- The stored block at (0, b, j): what the output block held, plus (chunk 0's value plus chunk 1's sum). -/
theorem pay1_apply (v5 v8 : FVec Ideal S512x64 .bf16) (v10 v12 : FVec Ideal S1x1x64 .f32) (v30 : FVec Ideal S8x64 .f32)
    (v31 v34 : Vec Ideal S8x256x512 .f32) (v48 : Vec Ideal S1x8x64 .f32) (b : Fin 8) (j : Fin 64) :
    k0_pay1 (F := Ideal) v5 v8 v10 v12 v30 v31 v34 v48 (ix3 0 b j)
      = v48 (ix3 0 b j) + (v30 (ix2 b j) + ∑ r : Fin 256,
          ((∑ d : Fin 512, v31 (ix3 b r d) * v5 (ix2 d j)) + v10 (ix3 0 0 j))
            * ((∑ d : Fin 512, v34 (ix3 b r d) * v8 (ix2 d j)) + v12 (ix3 0 0 j))) := by
  rw [pay1_eq_chunk]
  refine (addf_apply _ _ _).trans ?_
  refine congrArg₂ (· + ·) (congrFun (shapeCast_self v48 _) _) ?_
  refine (cast_lead _ _ b j).trans ?_
  refine (addf_apply _ _ _).trans ?_
  exact congrArg (v30 (ix2 b j) + ·) (chunk_apply v5 v8 v10 v12 v31 v34 b j)

/-! ## When every entry is a real number

The right-hand sides above are then the coercion of the same expression computed in ℝ: the coercion ℝ → extended
reals commutes with products, sums of two, and (by induction on the index set) finite sums. -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- A row against a column plus a bias entry, all real: the coercion of the real affine form. -/
theorem affine_real (x w : Fin 512 → EReal) (c : EReal) (X W : Fin 512 → ℝ) (C : ℝ)
    (hx : ∀ d, x d = ((X d : ℝ) : EReal)) (hw : ∀ d, w d = ((W d : ℝ) : EReal)) (hc : c = ((C : ℝ) : EReal)) :
    (∑ d : Fin 512, x d * w d) + c = (((∑ d : Fin 512, X d * W d) + C : ℝ) : EReal) := by
  rw [EReal.coe_add, coe_sum, hc]
  exact congrArg (· + ((C : ℝ) : EReal)) (Finset.sum_congr rfl fun d _ => by rw [hx, hw, EReal.coe_mul])

/-- The sum over a chunk's 256 rows of the product of two real affine forms. -/
theorem chunkSum_real (x y : Fin 256 → Fin 512 → EReal) (w w' : Fin 512 → EReal) (c c' : EReal)
    (X Y : Fin 256 → Fin 512 → ℝ) (W W' : Fin 512 → ℝ) (C C' : ℝ)
    (hx : ∀ r d, x r d = ((X r d : ℝ) : EReal)) (hy : ∀ r d, y r d = ((Y r d : ℝ) : EReal))
    (hw : ∀ d, w d = ((W d : ℝ) : EReal)) (hw' : ∀ d, w' d = ((W' d : ℝ) : EReal))
    (hc : c = ((C : ℝ) : EReal)) (hc' : c' = ((C' : ℝ) : EReal)) :
    (∑ r : Fin 256, ((∑ d : Fin 512, x r d * w d) + c) * ((∑ d : Fin 512, y r d * w' d) + c'))
      = ((∑ r : Fin 256, ((∑ d : Fin 512, X r d * W d) + C) * ((∑ d : Fin 512, Y r d * W' d) + C') : ℝ) : EReal) := by
  rw [coe_sum]
  exact Finset.sum_congr rfl fun r _ => by
    rw [EReal.coe_mul, affine_real (x r) w c (X r) W C (hx r) hw hc, affine_real (y r) w' c' (Y r) W' C' (hy r) hw' hc']

/-- Chunk 0's payload over real entries. -/
theorem pay7_real (v3 v6 : Vec Ideal S512x64 .f32) (v9 v11 : Vec Ideal S1x1x64 .f32) (v14 v17 : Vec Ideal S8x256x512 .f32)
    (W W' : Fin 512 → Fin 64 → ℝ) (C C' : Fin 64 → ℝ) (X Y : Fin 8 → Fin 256 → Fin 512 → ℝ)
    (h3 : ∀ d j, v3 (ix2 d j) = ((W d j : ℝ) : EReal)) (h6 : ∀ d j, v6 (ix2 d j) = ((W' d j : ℝ) : EReal))
    (h9 : ∀ j, v9 (ix3 0 0 j) = ((C j : ℝ) : EReal)) (h11 : ∀ j, v11 (ix3 0 0 j) = ((C' j : ℝ) : EReal))
    (h14 : ∀ b r d, v14 (ix3 b r d) = ((X b r d : ℝ) : EReal)) (h17 : ∀ b r d, v17 (ix3 b r d) = ((Y b r d : ℝ) : EReal))
    (b : Fin 8) (j : Fin 64) :
    k0_pay7 (F := Ideal) v3 v6 v9 v11 v14 v17 (ix2 b j)
      = ((∑ r : Fin 256, ((∑ d : Fin 512, X b r d * W d j) + C j) * ((∑ d : Fin 512, Y b r d * W' d j) + C' j) : ℝ) : EReal) := by
  rw [pay7_apply_zero]
  exact chunkSum_real (fun r d => v14 (ix3 b r d)) (fun r d => v17 (ix3 b r d)) (fun d => v3 (ix2 d j)) (fun d => v6 (ix2 d j))
    (v9 (ix3 0 0 j)) (v11 (ix3 0 0 j)) (X b) (Y b) (fun d => W d j) (fun d => W' d j) (C j) (C' j)
    (fun r d => h14 b r d) (fun r d => h17 b r d) (fun d => h3 d j) (fun d => h6 d j) (h9 j) (h11 j)

/-- The stored block over real entries. -/
theorem pay1_real (v5 v8 : FVec Ideal S512x64 .bf16) (v10 v12 : FVec Ideal S1x1x64 .f32) (v30 : FVec Ideal S8x64 .f32)
    (v31 v34 : Vec Ideal S8x256x512 .f32) (v48 : Vec Ideal S1x8x64 .f32)
    (W W' : Fin 512 → Fin 64 → ℝ) (C C' : Fin 64 → ℝ) (A : Fin 8 → Fin 64 → ℝ) (X Y : Fin 8 → Fin 256 → Fin 512 → ℝ)
    (O : Fin 8 → Fin 64 → ℝ)
    (h5 : ∀ d j, v5 (ix2 d j) = ((W d j : ℝ) : EReal)) (h8 : ∀ d j, v8 (ix2 d j) = ((W' d j : ℝ) : EReal))
    (h10 : ∀ j, v10 (ix3 0 0 j) = ((C j : ℝ) : EReal)) (h12 : ∀ j, v12 (ix3 0 0 j) = ((C' j : ℝ) : EReal))
    (h30 : ∀ b j, v30 (ix2 b j) = ((A b j : ℝ) : EReal))
    (h31 : ∀ b r d, v31 (ix3 b r d) = ((X b r d : ℝ) : EReal)) (h34 : ∀ b r d, v34 (ix3 b r d) = ((Y b r d : ℝ) : EReal))
    (h48 : ∀ b j, v48 (ix3 0 b j) = ((O b j : ℝ) : EReal))
    (b : Fin 8) (j : Fin 64) :
    k0_pay1 (F := Ideal) v5 v8 v10 v12 v30 v31 v34 v48 (ix3 0 b j)
      = ((O b j + (A b j + ∑ r : Fin 256,
          ((∑ d : Fin 512, X b r d * W d j) + C j) * ((∑ d : Fin 512, Y b r d * W' d j) + C' j)) : ℝ) : EReal) := by
  rw [pay1_apply, EReal.coe_add, EReal.coe_add, h48, h30]
  exact congrArg (fun z => ((O b j : ℝ) : EReal) + (((A b j : ℝ) : EReal) + z))
    (chunkSum_real (fun r d => v31 (ix3 b r d)) (fun r d => v34 (ix3 b r d)) (fun d => v5 (ix2 d j)) (fun d => v8 (ix2 d j))
      (v10 (ix3 0 0 j)) (v12 (ix3 0 0 j)) (X b) (Y b) (fun d => W d j) (fun d => W' d j) (C j) (C' j)
      (fun r d => h31 b r d) (fun r d => h34 b r d) (fun d => h5 d j) (fun d => h8 d j) (h10 j) (h12 j))

end Cert.Payload

end
-- ==== Proof.Blocks.lean ====
/-
  The windows' blocks read at an index, for the idealized kernel.

  When the region is entered the buffers hold the launch contents after four host lines: two weight matrices transposed
  ([64, 512] to [512, 64]) and two bias vectors reshaped ([64] to [1, 1, 64]). The region's seven windows stage these
  four arrays whole, the two big inputs ([8, 4096, 512]) in blocks of 512 positions along the middle axis (block t at
  grid point t), and the output ([2, 8, 64]) in blocks [1, 8, 64] chosen by the outer grid coordinate. Here each of
  these facts is stated at an index with explicit coordinates: an entry of a block is the entry of its array at the
  block's offset plus the coordinate inside the block.
-/
import proofs.«164664_j59974923321458_2_alg».proof.Proof.RunBase
import proofs.«164664_j59974923321458_2_alg».proof.Proof.TailKeeps
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.KernelIdeal.Run
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-! ## The arrays the four host lines make -/

/-- The first transposed weight matrix, as a function of the launch contents. -/
theorem V_main_v0 (c : Dev nD) :
    (V m c main_v0 : S512x64.Idx → Elt F .f32)
      = transpose S512x64 [1, 0] (m ((c.tc : Thread nD τ).loc main_arg3)) transposes_S64x512_S512x64_1_0 := by
  show StableHlo.after hostOps0 (fun b => m (c, b)) (Proc.devRef .tc main_v0) = _
  after_results

/-- Its entry (d, j) is entry (j, d) of the weight matrix. -/
theorem V_main_v0_apply (c : Dev nD) (d : Fin 512) (j : Fin 64) :
    (V m c main_v0 : S512x64.Idx → Elt F .f32) (ix2 d j) = m ((c.tc : Thread nD τ).loc main_arg3) (ix2 j d) :=
  (congrFun (V_main_v0 m c) (ix2 d j)).trans (transpose_ix2_apply _ _ d j)

/-- The second transposed weight matrix, as a function of the launch contents. -/
theorem V_main_v1 (c : Dev nD) :
    (V m c main_v1 : S512x64.Idx → Elt F .f32)
      = transpose S512x64 [1, 0] (m ((c.tc : Thread nD τ).loc main_arg5)) transposes_S64x512_S512x64_1_0 := by
  show StableHlo.after hostOps0 (fun b => m (c, b)) (Proc.devRef .tc main_v1) = _
  after_results

/-- Its entry (d, j) is entry (j, d) of the weight matrix. -/
theorem V_main_v1_apply (c : Dev nD) (d : Fin 512) (j : Fin 64) :
    (V m c main_v1 : S512x64.Idx → Elt F .f32) (ix2 d j) = m ((c.tc : Thread nD τ).loc main_arg5) (ix2 j d) :=
  (congrFun (V_main_v1 m c) (ix2 d j)).trans (transpose_ix2_apply _ _ d j)

/-- The first reshaped bias vector, as a function of the launch contents. -/
theorem V_main_v2 (c : Dev nD) :
    (V m c main_v2 : S1x1x64.Idx → Elt F .f32)
      = shapeCast S1x1x64 (m ((c.tc : Thread nD τ).loc main_arg4)) shapeCasts_S64_S1x1x64 := by
  show StableHlo.after hostOps0 (fun b => m (c, b)) (Proc.devRef .tc main_v2) = _
  after_results
  rfl

/-- A vector [64] viewed as [1, 1, 64]: entry (0, 0, j) is entry j. -/
theorem shapeCast_row_apply {α : Type} (x : S64.Idx → α) (h : S64.ShapeCasts S1x1x64) (j : Fin 64) :
    shapeCast S1x1x64 x h (ix3 (0 : Fin 1) (0 : Fin 1) j) = x (ix1 j) :=
  shapeCast_apply x h _ _ (by
    rw [Shape.rowMajor_val_one, Shape.rowMajor_val_three]
    show j.val = (0 * 1 + 0) * 64 + j.val
    omega)

/-- Its entry (0, 0, j) is entry j of the bias vector. -/
theorem V_main_v2_apply (c : Dev nD) (j : Fin 64) :
    (V m c main_v2 : S1x1x64.Idx → Elt F .f32) (ix3 (0 : Fin 1) (0 : Fin 1) j) = m ((c.tc : Thread nD τ).loc main_arg4) (ix1 j) :=
  (congrFun (V_main_v2 m c) _).trans (shapeCast_row_apply _ _ j)

/-- The second reshaped bias vector, as a function of the launch contents. -/
theorem V_main_v3 (c : Dev nD) :
    (V m c main_v3 : S1x1x64.Idx → Elt F .f32)
      = shapeCast S1x1x64 (m ((c.tc : Thread nD τ).loc main_arg6)) shapeCasts_S64_S1x1x64 := by
  show StableHlo.after hostOps0 (fun b => m (c, b)) (Proc.devRef .tc main_v3) = _
  after_results
  rfl

/-- Its entry (0, 0, j) is entry j of the bias vector. -/
theorem V_main_v3_apply (c : Dev nD) (j : Fin 64) :
    (V m c main_v3 : S1x1x64.Idx → Elt F .f32) (ix3 (0 : Fin 1) (0 : Fin 1) j) = m ((c.tc : Thread nD τ).loc main_arg6) (ix1 j) :=
  (congrFun (V_main_v3 m c) _).trans (shapeCast_row_apply _ _ j)

/-! ## The input windows' blocks at an index -/

/-- The grid has eight points. -/
theorem pt_lt (t : Fin cfg0.N) : t.val < 8 := lt_of_lt_of_eq t.isLt N_0

/-- The printed index maps of the two big inputs, decided over the grid: block (0, t, 0) at point t. -/
theorem idx_big : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0 :=
  (by decide +kernel : ∀ t : Fin grid0.N, _)

/-- The printed index maps of the four small inputs: block (0, …, 0) at every point. -/
theorem idx_small : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0 :=
  (by decide +kernel : ∀ t : Fin grid0.N, _)

/-- Block t of the first big input: entry (b, r, d) is array entry (b, 512 t + r, d). -/
theorem iblk0_apply (c : Dev nD) (t : Fin cfg0.N) (b : Fin 8) (r d : Fin 512) :
    (iblk m c 0 t : S8x512x512.Idx → Elt F .f32) (ix3 b r d)
      = (V m c main_arg0 : S8x4096x512.Idx → Elt F .f32)
          (ix3 b ⟨512 * t.val + r.val, by have := pt_lt t; omega⟩ d) := by
  obtain ⟨e0, e1, e2, -⟩ := idx_big t
  unfold iblk
  rw [View.read_apply]
  show V m c main_arg0 _ = V m c main_arg0 _
  congr 1
  funext a
  apply Fin.ext
  match a with
  | ⟨0, _⟩ => show win0_0.index t (0 : Fin 3) * 8 + 1 * b.val = b.val; rw [e0]; omega
  | ⟨1, _⟩ => show win0_0.index t (1 : Fin 3) * 512 + 1 * r.val = 512 * t.val + r.val; rw [e1]; omega
  | ⟨2, _⟩ => show win0_0.index t (2 : Fin 3) * 512 + 1 * d.val = d.val; rw [e2]; omega

/-- Block t of the second big input: entry (b, r, d) is array entry (b, 512 t + r, d). -/
theorem iblk1_apply (c : Dev nD) (t : Fin cfg0.N) (b : Fin 8) (r d : Fin 512) :
    (iblk m c 1 t : S8x512x512.Idx → Elt F .f32) (ix3 b r d)
      = (V m c main_arg1 : S8x4096x512.Idx → Elt F .f32)
          (ix3 b ⟨512 * t.val + r.val, by have := pt_lt t; omega⟩ d) := by
  obtain ⟨-, -, -, e0, e1, e2⟩ := idx_big t
  unfold iblk
  rw [View.read_apply]
  show V m c main_arg1 _ = V m c main_arg1 _
  congr 1
  funext a
  apply Fin.ext
  match a with
  | ⟨0, _⟩ => show win0_1.index t (0 : Fin 3) * 8 + 1 * b.val = b.val; rw [e0]; omega
  | ⟨1, _⟩ => show win0_1.index t (1 : Fin 3) * 512 + 1 * r.val = 512 * t.val + r.val; rw [e1]; omega
  | ⟨2, _⟩ => show win0_1.index t (2 : Fin 3) * 512 + 1 * d.val = d.val; rw [e2]; omega

/-- The same two facts with the launch contents on the right: no host line before the region writes a big input. -/
theorem iblk0_launch (c : Dev nD) (t : Fin cfg0.N) (b : Fin 8) (r d : Fin 512) :
    (iblk m c 0 t : S8x512x512.Idx → Elt F .f32) (ix3 b r d)
      = (m ((c.tc : Thread nD τ).loc main_arg0) : S8x4096x512.Idx → Elt F .f32)
          (ix3 b ⟨512 * t.val + r.val, by have := pt_lt t; omega⟩ d) :=
  (iblk0_apply m c t b r d).trans (congrFun (V_main_arg0 m c) _)
theorem iblk1_launch (c : Dev nD) (t : Fin cfg0.N) (b : Fin 8) (r d : Fin 512) :
    (iblk m c 1 t : S8x512x512.Idx → Elt F .f32) (ix3 b r d)
      = (m ((c.tc : Thread nD τ).loc main_arg1) : S8x4096x512.Idx → Elt F .f32)
          (ix3 b ⟨512 * t.val + r.val, by have := pt_lt t; omega⟩ d) :=
  (iblk1_apply m c t b r d).trans (congrFun (V_main_arg1 m c) _)

/-- The first transposed weight matrix is staged whole: its block at every point is the array. -/
theorem iblk2_eq (c : Dev nD) (t : Fin cfg0.N) :
    (iblk m c 2 t : S512x64.Idx → Elt F .f32) = (V m c main_v0 : S512x64.Idx → Elt F .f32) := by
  obtain ⟨e0, e1, -⟩ := idx_small t
  funext x
  unfold iblk
  rw [View.read_apply]
  show V m c main_v0 _ = V m c main_v0 x
  congr 1
  funext a
  apply Fin.ext
  match a with
  | ⟨0, _⟩ => show win0_2.index t (0 : Fin 2) * 512 + 1 * (x 0).val = (x 0).val; rw [e0]; omega
  | ⟨1, _⟩ => show win0_2.index t (1 : Fin 2) * 64 + 1 * (x 1).val = (x 1).val; rw [e1]; omega

/-- So is the second. -/
theorem iblk3_eq (c : Dev nD) (t : Fin cfg0.N) :
    (iblk m c 3 t : S512x64.Idx → Elt F .f32) = (V m c main_v1 : S512x64.Idx → Elt F .f32) := by
  obtain ⟨-, -, e0, e1, -⟩ := idx_small t
  funext x
  unfold iblk
  rw [View.read_apply]
  show V m c main_v1 _ = V m c main_v1 x
  congr 1
  funext a
  apply Fin.ext
  match a with
  | ⟨0, _⟩ => show win0_3.index t (0 : Fin 2) * 512 + 1 * (x 0).val = (x 0).val; rw [e0]; omega
  | ⟨1, _⟩ => show win0_3.index t (1 : Fin 2) * 64 + 1 * (x 1).val = (x 1).val; rw [e1]; omega

/-- The first reshaped bias vector is staged whole. -/
theorem iblk4_eq (c : Dev nD) (t : Fin cfg0.N) :
    (iblk m c 4 t : S1x1x64.Idx → Elt F .f32) = (V m c main_v2 : S1x1x64.Idx → Elt F .f32) := by
  obtain ⟨-, -, -, -, e0, e1, e2, -⟩ := idx_small t
  funext x
  unfold iblk
  rw [View.read_apply]
  show V m c main_v2 _ = V m c main_v2 x
  congr 1
  funext a
  apply Fin.ext
  match a with
  | ⟨0, _⟩ => show win0_4.index t (0 : Fin 3) * 1 + 1 * (x 0).val = (x 0).val; rw [e0]; omega
  | ⟨1, _⟩ => show win0_4.index t (1 : Fin 3) * 1 + 1 * (x 1).val = (x 1).val; rw [e1]; omega
  | ⟨2, _⟩ => show win0_4.index t (2 : Fin 3) * 64 + 1 * (x 2).val = (x 2).val; rw [e2]; omega

/-- So is the second. -/
theorem iblk5_eq (c : Dev nD) (t : Fin cfg0.N) :
    (iblk m c 5 t : S1x1x64.Idx → Elt F .f32) = (V m c main_v3 : S1x1x64.Idx → Elt F .f32) := by
  obtain ⟨-, -, -, -, -, -, -, e0, e1, e2⟩ := idx_small t
  funext x
  unfold iblk
  rw [View.read_apply]
  show V m c main_v3 _ = V m c main_v3 x
  congr 1
  funext a
  apply Fin.ext
  match a with
  | ⟨0, _⟩ => show win0_5.index t (0 : Fin 3) * 1 + 1 * (x 0).val = (x 0).val; rw [e0]; omega
  | ⟨1, _⟩ => show win0_5.index t (1 : Fin 3) * 1 + 1 * (x 1).val = (x 1).val; rw [e1]; omega
  | ⟨2, _⟩ => show win0_5.index t (2 : Fin 3) * 64 + 1 * (x 2).val = (x 2).val; rw [e2]; omega

/-- The four small blocks at an index, in the launch contents: the transposed weights and the biases. -/
theorem iblk2_apply (c : Dev nD) (t : Fin cfg0.N) (d : Fin 512) (j : Fin 64) :
    (iblk m c 2 t : S512x64.Idx → Elt F .f32) (ix2 d j) = m ((c.tc : Thread nD τ).loc main_arg3) (ix2 j d) :=
  (congrFun (iblk2_eq m c t) _).trans (V_main_v0_apply m c d j)
theorem iblk3_apply (c : Dev nD) (t : Fin cfg0.N) (d : Fin 512) (j : Fin 64) :
    (iblk m c 3 t : S512x64.Idx → Elt F .f32) (ix2 d j) = m ((c.tc : Thread nD τ).loc main_arg5) (ix2 j d) :=
  (congrFun (iblk3_eq m c t) _).trans (V_main_v1_apply m c d j)
theorem iblk4_apply (c : Dev nD) (t : Fin cfg0.N) (j : Fin 64) :
    (iblk m c 4 t : S1x1x64.Idx → Elt F .f32) (ix3 (0 : Fin 1) (0 : Fin 1) j) = m ((c.tc : Thread nD τ).loc main_arg4) (ix1 j) :=
  (congrFun (iblk4_eq m c t) _).trans (V_main_v2_apply m c j)
theorem iblk5_apply (c : Dev nD) (t : Fin cfg0.N) (j : Fin 64) :
    (iblk m c 5 t : S1x1x64.Idx → Elt F .f32) (ix3 (0 : Fin 1) (0 : Fin 1) j) = m ((c.tc : Thread nD τ).loc main_arg6) (ix1 j) :=
  (congrFun (iblk5_eq m c t) _).trans (V_main_v3_apply m c j)

/-! ## The body's two half-block loads -/

/-- The lower half of a big block along its middle axis: positions 0 … 255. -/
abbrev lo : Rect S8x512x512 := Rect.unit (s := S8x512x512) ![0, 0, 0] S8x256x512.size inb_S8x512x512_S8x256x512_0_0_0
/-- The upper half: positions 256 … 511. -/
abbrev hi : Rect S8x512x512 := Rect.unit (s := S8x512x512) ![0, 256, 0] S8x256x512.size inb_S8x512x512_S8x256x512_0_256_0

/-- A load through the lower half reads entry (b, r, d) of the block at (b, r, d). -/
theorem ld_lo_apply (x : Vec F S8x512x512 .f32) (b : Fin 8) (r : Fin 256) (d : Fin 512) :
    (View.ld x lo : S8x256x512.Idx → Elt F .f32) (ix3 b r d) = x (ix3 b ⟨r.val, by omega⟩ d) := by
  show x _ = x _
  congr 1
  funext a
  apply Fin.ext
  match a with
  | ⟨0, _⟩ => show 0 + 1 * b.val = b.val; omega
  | ⟨1, _⟩ => show 0 + 1 * r.val = r.val; omega
  | ⟨2, _⟩ => show 0 + 1 * d.val = d.val; omega

/-- A load through the upper half reads entry (b, r, d) at (b, 256 + r, d). -/
theorem ld_hi_apply (x : Vec F S8x512x512 .f32) (b : Fin 8) (r : Fin 256) (d : Fin 512) :
    (View.ld x hi : S8x256x512.Idx → Elt F .f32) (ix3 b r d) = x (ix3 b ⟨256 + r.val, by omega⟩ d) := by
  show x _ = x _
  congr 1
  funext a
  apply Fin.ext
  match a with
  | ⟨0, _⟩ => show 0 + 1 * b.val = b.val; omega
  | ⟨1, _⟩ => show 256 + 1 * r.val = 256 + r.val; omega
  | ⟨2, _⟩ => show 0 + 1 * d.val = d.val; omega

/-! ## The output window -/

/-- The printed index map of the output, decided over the grid: block (t / 4, 0, 0) at point t. -/
theorem idx_out : ∀ t : Fin cfg0.N,
    win0_6.index t (0 : Fin 3) = t.val / 4 ∧ win0_6.index t (1 : Fin 3) = 0 ∧ win0_6.index t (2 : Fin 3) = 0 :=
  (by decide +kernel : ∀ t : Fin grid0.N, _)

/-- Entry (0, i, j) of the output's block at point t lies at array entry (t / 4, i, j). -/
theorem emb6_apply (t : Fin cfg0.N) (i : Fin 8) (j : Fin 64) :
    (((cfg0.win 6).blk t).view.emb (ix3 (0 : Fin 1) i j) : S2x8x64.Idx)
      = ix3 ⟨t.val / 4, by have := pt_lt t; omega⟩ i j := by
  obtain ⟨e0, e1, e2⟩ := idx_out t
  funext a
  apply Fin.ext
  match a with
  | ⟨0, _⟩ => show win0_6.index t (0 : Fin 3) * 1 + 1 * 0 = t.val / 4; rw [e0]; omega
  | ⟨1, _⟩ => show win0_6.index t (1 : Fin 3) * 8 + 1 * i.val = i.val; rw [e1]; omega
  | ⟨2, _⟩ => show win0_6.index t (2 : Fin 3) * 64 + 1 * j.val = j.val; rw [e2]; omega

/-- An index of the output array is in point t's block iff each coordinate is in the block's range on its axis. -/
theorem mem_blk6 (t : Fin cfg0.N) (i : S2x8x64.Idx) :
    i ∈ ((cfg0.win 6).blk t).view.set
      ↔ ∀ a : Fin 3, win0_6.index t a * S1x8x64.size a ≤ (i a).val ∧ (i a).val < win0_6.index t a * S1x8x64.size a + S1x8x64.size a := by
  show i ∈ ((View.whole main_v4).slice (win0_6.rect t)).set ↔ _
  rw [View.set_slice_whole, Rect.mem_set_unit]
  exact Iff.rfl

/-- That is: iff its first coordinate is t / 4. -/
theorem mem_blk6_iff (t : Fin cfg0.N) (i : S2x8x64.Idx) :
    i ∈ ((cfg0.win 6).blk t).view.set ↔ (i 0).val = t.val / 4 := by
  rw [mem_blk6]
  obtain ⟨e0, e1, e2⟩ := idx_out t
  have h1 : (i 1).val < 8 := (i 1).isLt
  have h2 : (i 2).val < 64 := (i 2).isLt
  constructor
  · intro h
    have b0 : win0_6.index t (0 : Fin 3) * 1 ≤ (i 0).val ∧ (i 0).val < win0_6.index t (0 : Fin 3) * 1 + 1 := h 0
    omega
  · intro h a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 8 ≤ (i 1).val ∧ (i 1).val < win0_6.index t (1 : Fin 3) * 8 + 8; omega
    | ⟨2, _⟩ => show win0_6.index t (2 : Fin 3) * 64 ≤ (i 2).val ∧ (i 2).val < win0_6.index t (2 : Fin 3) * 64 + 64; omega

/-- The point that writes back outer step p: its last inner step, 4 p + 3. -/
def lastPt (p : Fin 2) : Fin cfg0.N := ⟨4 * p.val + 3, by rw [show cfg0.N = 8 from N_0]; omega⟩

theorem lastPt_val (p : Fin 2) : (lastPt p).val = 4 * p.val + 3 := rfl

/-- It does write back. -/
theorem flush_lastPt (p : Fin 2) : (cfg0.win 6).flush (lastPt p) = true :=
  (flush0_6 (lastPt p)).mpr (by rw [lastPt_val]; omega)

/-- THE COVER: every index of the output array lies in the block of a point that writes back, the last inner step of
    its outer step. -/
theorem cover6 (c : Dev nD) :
    ∀ i : ((cfg0.win 6).arr.view.loc (c.tc : Thread nD τ)).2.ty.Idx,
      ∃ t : Fin cfg0.N, (cfg0.win 6).flush t = true ∧ i ∈ ((cfg0.win 6).blk t).view.set := by
  intro i
  have h0 : ((i : S2x8x64.Idx) 0).val < 2 := ((i : S2x8x64.Idx) 0).isLt
  refine ⟨lastPt ⟨((i : S2x8x64.Idx) 0).val, h0⟩, flush_lastPt _, ?_⟩
  rw [mem_blk6_iff, lastPt_val]
  show ((i : S2x8x64.Idx) 0).val = (4 * ((i : S2x8x64.Idx) 0).val + 3) / 4
  omega

end Cert.KernelIdeal.Blocks

end
-- ==== Proof.Region.lean ====
/-
  The region's output array.

  The region runs the body at eight points, four for each half of the 4096 positions. The output's block [1, 8, 64] is
  chosen by the half alone, so it stays in its buffer across the half's four points: the body clears it at the first and
  adds to it at every one, and the pipeline writes it back after the fourth.

  Three steps. First, what the body leaves in the buffer, read back from the pieces its stores wrote, is the body's own
  arithmetic: the stored block's payload over the point's blocks, over the cleared block at a first point and over the
  buffer's earlier contents at a later one. Second, when every entry the body reads is a real number — block `t` of the
  keys and values holds positions 512 t … 512 t + 511, the weight windows hold the transposed weights, the bias windows
  the biases — each point adds the bound pairs of its 512 positions (first its positions 0 … 255, then 256 … 511), so the
  buffer after point `n` holds a running total defined by the same recursion on the point, by induction. Third, after the
  fourth point of half `p` (point 4 p + 3) the running total is the sum over the half's four steps, two chunks and 256
  rows — the half's sum of bound pairs — and the two blocks written back tile the [2, 8, 64] array, which therefore
  ends holding, at (p, i, j), half `p`'s sum at (i, j).
-/
import proofs.«164664_j59974923321458_2_alg».proof.Proof.KernelRun
import proofs.«164664_j59974923321458_2_alg».proof.Proof.Payload
import proofs.«164664_j59974923321458_2_alg».proof.Proof.Spec
import proofs.«164664_j59974923321458_2_alg».proof.Proof.Blocks
import Idealize.ShloMosaic.Lib.Pipeline.Value
import Idealize.ShloMosaic.Lib.Tactic

set_option maxRecDepth 16384

noncomputable section

namespace Cert.KernelIdeal.Region

open Cert.KernelIdeal Cert.KernelIdeal.Gen Cert.KernelIdeal.Run
open Idealize.ShloMosaic Idealize.ShloMosaic.TcCoe Idealize.ShloMosaic.Tactic Idealize.ShloMosaic.ValueIdx
open Idealize.SL.Sem
open Cert.KernelIdeal.Blocks (lo hi ld_lo_apply ld_hi_apply)
open Idealize.ShloMosaic.Pipeline (Dat)
open scoped BigOperators

variable {F : FTy → Type} [FloatOps F]

/-! ## What the body leaves in the output's buffer, as its payloads -/

theorem hz3 : (![0, 0, 0] : Fin 3 → Nat) = fun _ => 0 := funext fun a => by fin_cases a <;> rfl
theorem hz2 : (![0, 0] : Fin 2 → Nat) = fun _ => 0 := funext fun a => by fin_cases a <;> rfl

/-- What one point adds: the two chunks' sums over the point's blocks, as the body's payloads spell them. -/
abbrev stepOn (x0 x1 : Vec F S8x512x512 .f32) (x2 x3 : Vec F S512x64 .f32) (x4 x5 : Vec F S1x1x64 .f32)
    (xo : Vec F S1x8x64 .f32) : Vec F S1x8x64 .f32 :=
  k0_pay1 (k0_pay3 x2) (k0_pay4 x3) (k0_pay5 x4) (k0_pay6 x5)
    (k0_pay7 x2 x3 x4 x5 (View.ld x0 lo) (View.ld x1 lo)) (View.ld x0 hi) (View.ld x1 hi) xo

theorem out_carry (c : Dev nD) (i : grid0.Coords) (arg2 : Memref sig .tc .vmem S8x512x512 .f32) (harg2 : arg2.IsWhole) (arg3 : Memref sig .tc .vmem S8x512x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (hc : ¬resets i)
    (x0 x1 : Vec F S8x512x512 .f32) (x2 x3 : Vec F S512x64 .f32) (x4 x5 : Vec F S1x1x64 .f32) (xo : Vec F S1x8x64 .f32) :
    outCarry c i arg2 harg2 arg3 harg3 arg4 harg4 arg5 harg5 arg6 harg6 arg7 harg7 arg8 harg8 hc x0 x1 x2 x3 x4 x5 xo = stepOn x0 x1 x2 x3 x4 x5 xo := by
  unfold outCarry
  rw [View.read_writes_eq_canon _ _ _ (coverCarry c i arg2 harg2 arg3 harg3 arg4 harg4 arg5 harg5 arg6 harg6 arg7 harg7 arg8 harg8 hc x0 x1 x2 x3 x4 x5 xo)]
  unfold runCarry
  dsimp only
  sl_unfold_words
  rw [View.canon_unit_zero hz3]
  simp only [View.readAt_eq_ld, harg2.read_unread, harg3.read_unread, harg4.read_unread, harg5.read_unread, harg6.read_unread,
    harg7.read_unread, harg8.read_unread, View.ld_unit_zero (S := S512x64) hz2, View.ld_unit_zero (S := S1x1x64) hz3,
    View.ld_unit_zero (S := S1x8x64) hz3]

theorem out_reset (c : Dev nD) (i : grid0.Coords) (arg2 : Memref sig .tc .vmem S8x512x512 .f32) (harg2 : arg2.IsWhole) (arg3 : Memref sig .tc .vmem S8x512x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (hc : resets i)
    (x0 x1 : Vec F S8x512x512 .f32) (x2 x3 : Vec F S512x64 .f32) (x4 x5 : Vec F S1x1x64 .f32) :
    outReset c i arg2 harg2 arg3 harg3 arg4 harg4 arg5 harg5 arg6 harg6 arg7 harg7 arg8 harg8 hc x0 x1 x2 x3 x4 x5 = stepOn x0 x1 x2 x3 x4 x5 (k0_pay2 (F := F)) := by
  unfold outReset
  rw [View.read_writes_eq_canon _ _ _ (coverReset c i arg2 harg2 arg3 harg3 arg4 harg4 arg5 harg5 arg6 harg6 arg7 harg7 arg8 harg8 hc x0 x1 x2 x3 x4 x5)]
  unfold runReset
  dsimp only
  sl_unfold_words
  rw [View.canon_cons_unit_zero (S := S1x8x64) hz3, View.readCov_unit_zero (S := S1x8x64) _ hz3]
  simp only [View.readAt_eq_ld, harg2.read_unread, harg3.read_unread, harg4.read_unread, harg5.read_unread, harg6.read_unread,
    harg7.read_unread, View.ld_unit_zero (S := S512x64) hz2, View.ld_unit_zero (S := S1x1x64) hz3]

/-! ## One point over real entries -/

open Cert.Payload in
/-- With every entry of the point's blocks, the weights, the biases and the buffer's earlier contents a real number, what
    the body leaves at (0, i, j) is the real number: earlier contents + (first chunk's sum + second chunk's sum). -/
theorem stepOn_real (x0 x1 : Vec Ideal S8x512x512 .f32) (x2 x3 : Vec Ideal S512x64 .f32) (x4 x5 : Vec Ideal S1x1x64 .f32)
    (xo : Vec Ideal S1x8x64 .f32)
    (X Y : Fin 8 → Fin 512 → Fin 512 → ℝ) (W W' : Fin 512 → Fin 64 → ℝ) (C C' : Fin 64 → ℝ) (O : Fin 8 → Fin 64 → ℝ)
    (h0 : ∀ b r d, x0 (ix3 b r d) = ((X b r d : ℝ) : EReal)) (h1 : ∀ b r d, x1 (ix3 b r d) = ((Y b r d : ℝ) : EReal))
    (h2 : ∀ d j, x2 (ix2 d j) = ((W d j : ℝ) : EReal)) (h3 : ∀ d j, x3 (ix2 d j) = ((W' d j : ℝ) : EReal))
    (h4 : ∀ j, x4 (ix3 0 0 j) = ((C j : ℝ) : EReal)) (h5 : ∀ j, x5 (ix3 0 0 j) = ((C' j : ℝ) : EReal))
    (ho : ∀ b j, xo (ix3 0 b j) = ((O b j : ℝ) : EReal)) (i : Fin 8) (j : Fin 64) :
    stepOn x0 x1 x2 x3 x4 x5 xo (ix3 0 i j)
      = ((O i j + ((∑ r : Fin 256, ((∑ d : Fin 512, X i ⟨r.val, by omega⟩ d * W d j) + C j)
                      * ((∑ d : Fin 512, Y i ⟨r.val, by omega⟩ d * W' d j) + C' j))
                  + ∑ r : Fin 256, ((∑ d : Fin 512, X i ⟨256 + r.val, by omega⟩ d * W d j) + C j)
                      * ((∑ d : Fin 512, Y i ⟨256 + r.val, by omega⟩ d * W' d j) + C' j)) : ℝ) : EReal) :=
  pay1_real (k0_pay3 x2) (k0_pay4 x3) (k0_pay5 x4) (k0_pay6 x5) (k0_pay7 x2 x3 x4 x5 (View.ld x0 lo) (View.ld x1 lo))
    (View.ld x0 hi) (View.ld x1 hi) xo W W' C C'
    (fun b j => ∑ r : Fin 256, ((∑ d : Fin 512, X b ⟨r.val, by omega⟩ d * W d j) + C j)
                      * ((∑ d : Fin 512, Y b ⟨r.val, by omega⟩ d * W' d j) + C' j))
    (fun b r d => X b ⟨256 + r.val, by omega⟩ d) (fun b r d => Y b ⟨256 + r.val, by omega⟩ d) O
    (fun d j => (congrFun (pay3_eq x2) _).trans (h2 d j)) (fun d j => (congrFun (pay4_eq x3) _).trans (h3 d j))
    (fun j => (congrFun (pay5_eq x4) _).trans (h4 j)) (fun j => (congrFun (pay6_eq x5) _).trans (h5 j))
    (fun b j => pay7_real x2 x3 x4 x5 (View.ld x0 lo) (View.ld x1 lo) W W' C C'
      (fun b r d => X b ⟨r.val, by omega⟩ d) (fun b r d => Y b ⟨r.val, by omega⟩ d) h2 h3 h4 h5
      (fun b r d => (ld_lo_apply x0 b r d).trans (h0 b _ d)) (fun b r d => (ld_lo_apply x1 b r d).trans (h1 b _ d)) b j)
    (fun b r d => (ld_hi_apply x0 b r d).trans (h0 b _ d)) (fun b r d => (ld_hi_apply x1 b r d).trans (h1 b _ d))
    ho i j

/-! ## The running total over the points -/

open Cert.BindSum

/-- A point's index is below 8. -/
theorem lt8 (t : Fin cfg0.N) : t.val < 8 := lt_of_lt_of_eq t.isLt N_0

/-- The position row `r` of block `t` reads: `512 t + r`. -/
def posOf (t : Fin 8) (r : Fin 512) : Fin 4096 := ⟨512 * t.val + r.val, by omega⟩

section Real
variable (K V : Fin 8 → Fin 4096 → Fin 512 → ℝ) (Wbk Wbv : Fin 64 → Fin 512 → ℝ) (bbk bbv : Fin 64 → ℝ)

/-- What point `t` adds at (i, j): the bound pairs of its first 256 positions, then of its last 256. -/
def addR (t : Fin 8) (i : Fin 8) (j : Fin 64) : ℝ :=
  (∑ r : Fin 256, kv K V Wbk Wbv bbk bbv i (posOf t ⟨r.val, by omega⟩) j)
    + ∑ r : Fin 256, kv K V Wbk Wbv bbk bbv i (posOf t ⟨256 + r.val, by omega⟩) j

/-- The running total after point `n`: restarted from 0 at the points divisible by 4, carried otherwise. -/
def totalR : (n : ℕ) → n < 8 → Fin 8 → Fin 64 → ℝ
  | 0, h, i, j => 0 + addR K V Wbk Wbv bbk bbv ⟨0, h⟩ i j
  | n + 1, h, i, j =>
    if (n + 1) % 4 = 0 then 0 + addR K V Wbk Wbv bbk bbv ⟨n + 1, h⟩ i j
    else totalR n (Nat.lt_of_succ_lt h) i j + addR K V Wbk Wbv bbk bbv ⟨n + 1, h⟩ i j

variable (m : (ℓ : Loc nD τ sig) → Buf (Elt Ideal) ℓ) (c : Dev nD)

/-- Every entry the body reads is a real number: at each point the two big windows' blocks hold the keys and values of
    the block's 512 positions, the weight windows the transposed weights, the bias windows the biases. -/
structure RealBlocks : Prop where
  keys : ∀ (t : Fin cfg0.N) (b : Fin 8) (r : Fin 512) (d : Fin 512),
    (iblk m c 0 t : Vec Ideal S8x512x512 .f32) (ix3 b r d) = ((K b (posOf ⟨t.val, lt8 t⟩ r) d : ℝ) : EReal)
  vals : ∀ (t : Fin cfg0.N) (b : Fin 8) (r : Fin 512) (d : Fin 512),
    (iblk m c 1 t : Vec Ideal S8x512x512 .f32) (ix3 b r d) = ((V b (posOf ⟨t.val, lt8 t⟩ r) d : ℝ) : EReal)
  wk : ∀ (t : Fin cfg0.N) (d : Fin 512) (j : Fin 64), (iblk m c 2 t : Vec Ideal S512x64 .f32) (ix2 d j) = ((Wbk j d : ℝ) : EReal)
  wv : ∀ (t : Fin cfg0.N) (d : Fin 512) (j : Fin 64), (iblk m c 3 t : Vec Ideal S512x64 .f32) (ix2 d j) = ((Wbv j d : ℝ) : EReal)
  bk : ∀ (t : Fin cfg0.N) (j : Fin 64), (iblk m c 4 t : Vec Ideal S1x1x64 .f32) (ix3 0 0 j) = ((bbk j : ℝ) : EReal)
  bv : ∀ (t : Fin cfg0.N) (j : Fin 64), (iblk m c 5 t : Vec Ideal S1x1x64 .f32) (ix3 0 0 j) = ((bbv j : ℝ) : EReal)

variable {K V Wbk Wbv bbk bbv m c}

/-- At a point divisible by 4 the buffer is cleared first: it ends at 0 plus the point's addend. -/
theorem reset_real (h : RealBlocks K V Wbk Wbv bbk bbv m c) (t : Fin cfg0.N) (h0 : t.val % 4 = 0) (i : Fin 8) (j : Fin 64) :
    outsAt (F := Ideal) m c t.val t.isLt (ix3 0 i j) = ((0 + addR K V Wbk Wbv bbk bbv ⟨t.val, lt8 t⟩ i j : ℝ) : EReal) := by
  rw [outsAt_reset m c t h0, out_reset]
  exact stepOn_real (iblk m c 0 t) (iblk m c 1 t) (iblk m c 2 t) (iblk m c 3 t) (iblk m c 4 t) (iblk m c 5 t) (k0_pay2 (F := Ideal))
    (fun b r d => K b (posOf ⟨t.val, lt8 t⟩ r) d) (fun b r d => V b (posOf ⟨t.val, lt8 t⟩ r) d) (fun d j => Wbk j d) (fun d j => Wbv j d)
    bbk bbv (fun _ _ => 0) (h.keys t) (h.vals t) (h.wk t) (h.wv t) (h.bk t) (h.bv t)
    (fun b j => (Cert.Payload.pay2_apply_zero _).trans EReal.coe_zero.symm) i j

/-- At any other point it ends at what the point before left plus the point's addend. -/
theorem carry_real (h : RealBlocks K V Wbk Wbv bbk bbv m c) (t : Fin cfg0.N) (h0 : ¬t.val % 4 = 0) (O : Fin 8 → Fin 64 → ℝ)
    (hO : ∀ b j, outsAt (F := Ideal) m c (t.val - 1) (Nat.lt_of_le_of_lt (Nat.sub_le _ _) t.isLt) (ix3 0 b j) = ((O b j : ℝ) : EReal))
    (i : Fin 8) (j : Fin 64) :
    outsAt (F := Ideal) m c t.val t.isLt (ix3 0 i j) = ((O i j + addR K V Wbk Wbv bbk bbv ⟨t.val, lt8 t⟩ i j : ℝ) : EReal) := by
  rw [outsAt_carry m c t h0, out_carry]
  exact stepOn_real (iblk m c 0 t) (iblk m c 1 t) (iblk m c 2 t) (iblk m c 3 t) (iblk m c 4 t) (iblk m c 5 t) _
    (fun b r d => K b (posOf ⟨t.val, lt8 t⟩ r) d) (fun b r d => V b (posOf ⟨t.val, lt8 t⟩ r) d) (fun d j => Wbk j d) (fun d j => Wbv j d)
    bbk bbv O (h.keys t) (h.vals t) (h.wk t) (h.wv t) (h.bk t) (h.bv t) hO i j

/-- So the output's buffer after point `n` holds the running total, by induction on the point. -/
theorem outsAt_real (h : RealBlocks K V Wbk Wbv bbk bbv m c) : ∀ (n : ℕ) (hn : n < cfg0.N) (i : Fin 8) (j : Fin 64),
    outsAt (F := Ideal) m c n hn (ix3 0 i j) = ((totalR K V Wbk Wbv bbk bbv n (lt_of_lt_of_eq hn N_0) i j : ℝ) : EReal)
  | 0, hn, i, j => reset_real h ⟨0, hn⟩ rfl i j
  | n + 1, hn, i, j => by
    unfold totalR
    split_ifs with h0
    · exact reset_real h ⟨n + 1, hn⟩ h0 i j
    · exact carry_real h ⟨n + 1, hn⟩ h0 (totalR K V Wbk Wbv bbk bbv n (Nat.lt_of_succ_lt (lt_of_lt_of_eq hn N_0)))
        (fun b j => outsAt_real h n (Nat.lt_of_succ_lt hn) b j) i j

end Real

/-! ## From the last point of each outer step to the array -/

section Array
open Cert.BindSum
variable {K V : Fin 8 → Fin 4096 → Fin 512 → ℝ} {Wbk Wbv : Fin 64 → Fin 512 → ℝ} {bbk bbv : Fin 64 → ℝ}
variable {m : (ℓ : Loc nD τ sig) → Buf (Elt Ideal) ℓ} {c : Dev nD}

/-- Point `4 p + s` adds the bound pairs of step `s` of half `p`: both chunks. -/
theorem addR_eq (t : Fin 8) (p : Fin 2) (s : Fin 4) (ht : t.val = 4 * p.val + s.val) (i : Fin 8) (j : Fin 64) :
    addR K V Wbk Wbv bbk bbv t i j = ∑ c : Fin 2, ∑ r : Fin 256, kv K V Wbk Wbv bbk bbv i (row p s c r) j := by
  rw [Fin.sum_univ_two]
  unfold addR
  refine congrArg₂ (· + ·) (Finset.sum_congr rfl fun r _ => ?_) (Finset.sum_congr rfl fun r _ => ?_)
  · refine congrArg (fun n => kv K V Wbk Wbv bbk bbv i n j) (Fin.ext ?_)
    show 512 * t.val + r.val = 512 * (4 * p.val + s.val) + 256 * 0 + r.val
    omega
  · refine congrArg (fun n => kv K V Wbk Wbv bbk bbv i n j) (Fin.ext ?_)
    show 512 * t.val + (256 + r.val) = 512 * (4 * p.val + s.val) + 256 * 1 + r.val
    omega

/-- After the last point of the first half the total is the first half's sum; -/
theorem total_three (i : Fin 8) (j : Fin 64) :
    totalR K V Wbk Wbv bbk bbv 3 (by norm_num) i j = part K V Wbk Wbv bbk bbv 0 i j := by
  unfold part
  rw [Fin.sum_univ_four, ← addR_eq ⟨0, by norm_num⟩ 0 0 rfl, ← addR_eq ⟨1, by norm_num⟩ 0 1 rfl, ← addR_eq ⟨2, by norm_num⟩ 0 2 rfl,
    ← addR_eq ⟨3, by norm_num⟩ 0 3 rfl]
  simp [totalR]

/-- after the last point of the second half, the second half's. -/
theorem total_seven (i : Fin 8) (j : Fin 64) :
    totalR K V Wbk Wbv bbk bbv 7 (by norm_num) i j = part K V Wbk Wbv bbk bbv 1 i j := by
  unfold part
  rw [Fin.sum_univ_four, ← addR_eq ⟨4, by norm_num⟩ 1 0 rfl, ← addR_eq ⟨5, by norm_num⟩ 1 1 rfl, ← addR_eq ⟨6, by norm_num⟩ 1 2 rfl,
    ← addR_eq ⟨7, by norm_num⟩ 1 3 rfl]
  simp [totalR]

/-- At a point ≡ 3 (mod 4), `n = 4 p + 3`, the total is half `p`'s sum. -/
theorem total_last (n : ℕ) (hn : n < 8) (h3 : n % 4 = 3) (i : Fin 8) (j : Fin 64) :
    totalR K V Wbk Wbv bbk bbv n hn i j = part K V Wbk Wbv bbk bbv ⟨n / 4, by omega⟩ i j := by
  rcases (show n = 3 ∨ n = 7 by omega) with rfl | rfl
  · exact total_three i j
  · exact total_seven i j

end Array

section Array2
open Cert.BindSum
variable (K V : Fin 8 → Fin 4096 → Fin 512 → ℝ) (Wbk Wbv : Fin 64 → Fin 512 → ℝ) (bbk bbv : Fin 64 → ℝ)

/-- What the region's output array ends holding: entry (p, i, j) is half `p`'s sum of bound pairs at (i, j). -/
def halves : S2x8x64.Idx → EReal := fun y =>
  ((part K V Wbk Wbv bbk bbv ⟨(y 0).val, (y 0).isLt⟩ ⟨(y 1).val, (y 1).isLt⟩ ⟨(y 2).val, (y 2).isLt⟩ : ℝ) : EReal)

variable {K V Wbk Wbv bbk bbv}
variable {m : (ℓ : Loc nD τ sig) → Buf (Elt Ideal) ℓ} {c : Dev nD}

/-- The output window's block index at point `t`: (t / 4, 0, 0), decided over the grid. -/
theorem idx_facts6 : ∀ t : Fin cfg0.N, win0_6.index t (0 : Fin 3) = t.val / 4 ∧ win0_6.index t (1 : Fin 3) = 0
    ∧ win0_6.index t (2 : Fin 3) = 0 :=
  (by decide +kernel : ∀ t : Fin grid0.N, _)

/-- At the last point of an outer step the buffer holds that half's sums. -/
theorem outsAt_last (h : RealBlocks K V Wbk Wbv bbk bbv m c) (t : Fin cfg0.N) (h3 : t.val % 4 = 3) (x : S1x8x64.Idx) :
    outsAt (F := Ideal) m c t.val t.isLt x
      = ((part K V Wbk Wbv bbk bbv ⟨t.val / 4, by have := lt8 t; omega⟩ ⟨(x 1).val, (x 1).isLt⟩ ⟨(x 2).val, (x 2).isLt⟩ : ℝ) : EReal) := by
  obtain ⟨a, b, j, rfl⟩ : ∃ (a : Fin 1) (b : Fin 8) (j : Fin 64), x = ix3 a b j := ⟨x 0, x 1, x 2, eq_ix3 x⟩
  obtain rfl : a = 0 := Subsingleton.elim _ _
  rw [outsAt_real h t.val t.isLt b j, total_last t.val (lt8 t) h3 b j]

/-- What a writing-back point writes is its block of `halves`. -/
theorem flushed_eq (h : RealBlocks K V Wbk Wbv bbk bbv m c) (t : Fin cfg0.N) (hf : (cfg0.win 6).flush t = true) :
    (dats m 0 c).flushed 6 t = ((cfg0.win 6).blk t).view.read (Elt Ideal) (halves K V Wbk Wbv bbk bbv) := by
  have h3 : t.val % 4 = 3 := (flush0_6 t).mp hf
  show (cfg0.win 6).cut (grid0.coords t) ((dats m 0 c).after 6 t) = _
  rw [after_out]
  funext y
  obtain ⟨a, b, j, rfl⟩ : ∃ (a : Fin 1) (b : Fin 8) (j : Fin 64), y = ix3 a b j :=
    ⟨y 0, y 1, y 2, eq_ix3 (n0 := 1) (n1 := 8) (n2 := 64) y⟩
  obtain rfl : a = 0 := Subsingleton.elim _ _
  rw [View.read_apply, Blocks.emb6_apply t b j]
  exact outsAt_last h t h3 _

/-- So the region's output array ends holding `halves`: the two last points' blocks tile it. -/
theorem region_array (h : RealBlocks K V Wbk Wbv bbk bbv m c) :
    (dats m 0 c).arrAt 6 cfg0.N = halves K V Wbk Wbv bbk bbv :=
  (dats m 0 c).arrAt_eq_of_cover 6 (halves K V Wbk Wbv bbk bbv) (flushed_eq h) (Blocks.cover6 c)

/-- Entry (p, i, j) of the region's output array is half `p`'s sum of bound pairs at (i, j). -/
theorem region_out (h : RealBlocks K V Wbk Wbv bbk bbv m c) (p : Fin 2) (i : Fin 8) (j : Fin 64) :
    ((dats m 0 c).arrAt 6 cfg0.N : S2x8x64.Idx → EReal) (ix3 p i j) = ((part K V Wbk Wbv bbk bbv p i j : ℝ) : EReal) := by
  rw [region_array h]
  rfl

/-- The blocks are real when the launch contents of the six arguments the region reads are. -/
theorem realBlocks_of
    (hK : ∀ i n d, m ((c.tc : Thread nD τ).loc main_arg0) (ix3 i n d) = ((K i n d : ℝ) : EReal))
    (hV : ∀ i n d, m ((c.tc : Thread nD τ).loc main_arg1) (ix3 i n d) = ((V i n d : ℝ) : EReal))
    (hWbk : ∀ j d, m ((c.tc : Thread nD τ).loc main_arg3) (ix2 j d) = ((Wbk j d : ℝ) : EReal))
    (hbbk : ∀ j, m ((c.tc : Thread nD τ).loc main_arg4) (ix1 j) = ((bbk j : ℝ) : EReal))
    (hWbv : ∀ j d, m ((c.tc : Thread nD τ).loc main_arg5) (ix2 j d) = ((Wbv j d : ℝ) : EReal))
    (hbbv : ∀ j, m ((c.tc : Thread nD τ).loc main_arg6) (ix1 j) = ((bbv j : ℝ) : EReal)) :
    RealBlocks K V Wbk Wbv bbk bbv m c where
  keys t b r d := (Blocks.iblk0_launch m c t b r d).trans (hK b _ d)
  vals t b r d := (Blocks.iblk1_launch m c t b r d).trans (hV b _ d)
  wk t d j := (Blocks.iblk2_apply m c t d j).trans (hWbk j d)
  wv t d j := (Blocks.iblk3_apply m c t d j).trans (hWbv j d)
  bk t j := (Blocks.iblk4_apply m c t j).trans (hbbk j)
  bv t j := (Blocks.iblk5_apply m c t j).trans (hbbv j)

end Array2

section Launch
open Cert.BindSum
variable {K V : Fin 8 → Fin 4096 → Fin 512 → ℝ} {Wbk Wbv : Fin 64 → Fin 512 → ℝ} {bbk bbv : Fin 64 → ℝ}
variable {m : (ℓ : Loc nD τ sig) → Buf (Elt Ideal) ℓ} {c : Dev nD}

/-- The same two facts from the launch contents of the six arguments the region reads. -/
theorem region_array_launch
    (hK : ∀ i n d, m ((c.tc : Thread nD τ).loc main_arg0) (ix3 i n d) = ((K i n d : ℝ) : EReal))
    (hV : ∀ i n d, m ((c.tc : Thread nD τ).loc main_arg1) (ix3 i n d) = ((V i n d : ℝ) : EReal))
    (hWbk : ∀ j d, m ((c.tc : Thread nD τ).loc main_arg3) (ix2 j d) = ((Wbk j d : ℝ) : EReal))
    (hbbk : ∀ j, m ((c.tc : Thread nD τ).loc main_arg4) (ix1 j) = ((bbk j : ℝ) : EReal))
    (hWbv : ∀ j d, m ((c.tc : Thread nD τ).loc main_arg5) (ix2 j d) = ((Wbv j d : ℝ) : EReal))
    (hbbv : ∀ j, m ((c.tc : Thread nD τ).loc main_arg6) (ix1 j) = ((bbv j : ℝ) : EReal)) :
    (dats m 0 c).arrAt 6 cfg0.N = halves K V Wbk Wbv bbk bbv :=
  region_array (realBlocks_of hK hV hWbk hbbk hWbv hbbv)

theorem region_out_launch
    (hK : ∀ i n d, m ((c.tc : Thread nD τ).loc main_arg0) (ix3 i n d) = ((K i n d : ℝ) : EReal))
    (hV : ∀ i n d, m ((c.tc : Thread nD τ).loc main_arg1) (ix3 i n d) = ((V i n d : ℝ) : EReal))
    (hWbk : ∀ j d, m ((c.tc : Thread nD τ).loc main_arg3) (ix2 j d) = ((Wbk j d : ℝ) : EReal))
    (hbbk : ∀ j, m ((c.tc : Thread nD τ).loc main_arg4) (ix1 j) = ((bbk j : ℝ) : EReal))
    (hWbv : ∀ j d, m ((c.tc : Thread nD τ).loc main_arg5) (ix2 j d) = ((Wbv j d : ℝ) : EReal))
    (hbbv : ∀ j, m ((c.tc : Thread nD τ).loc main_arg6) (ix1 j) = ((bbv j : ℝ) : EReal))
    (p : Fin 2) (i : Fin 8) (j : Fin 64) :
    ((dats m 0 c).arrAt 6 cfg0.N : S2x8x64.Idx → EReal) (ix3 p i j) = ((part K V Wbk Wbv bbk bbv p i j : ℝ) : EReal) :=
  region_out (realBlocks_of hK hV hWbk hbbk hWbv hbbv) p i j

end Launch

end Cert.KernelIdeal.Region

end
-- ==== Proof.AlgebraicOf.lean ====
/-
  The two programs agree, from ONE fact about the kernel's result.

  If the kernel runs to a result `kres m c` with its seventeen arguments unchanged, and under the
  precondition that result is the shared tail applied to `refMatch · Wueᵀ` of the kernel's OWN argument
  arrays — the function the reference computes of its arguments — then the two programs, started from
  memories that agree on the arguments, end with equal results: the reference runs to that same function
  of its arguments, and its arguments are the kernel's.
-/
import proofs.«164664_j59974923321458_2_alg».proof.Defs
import proofs.«164664_j59974923321458_2_alg».proof.Proof.RefMatch
import proofs.«164664_j59974923321458_2_alg».proof.Proof.Tail
import proofs.«164664_j59974923321458_2_alg».proof.Proof.Gen.KernelIdeal
import proofs.«164664_j59974923321458_2_alg».proof.Proof.Gen.ReferenceIdeal
import proofs.«164664_j59974923321458_2_alg».proof.Proof.Gen.Pre_finite_inputs
import proofs.«164664_j59974923321458_2_alg».proof.Proof.Gen.ReferenceIdeal.Run

noncomputable section

namespace Cert.AlgebraicOf

open Idealize.ShloMosaic Idealize.SL.Sem

/-- From the kernel's run (`hrun`: it ends with `kres m c` in its result and its arguments as launched) and
    the value of that result under the precondition (`hres`: the reference's function of the kernel's own
    arguments), the agreement of the two programs. -/
theorem algebraic_of
    (kres : (m : (ℓ : Loc Cert.KernelIdeal.nD Cert.KernelIdeal.τ Cert.KernelIdeal.sig) → Buf (Elt Ideal) ℓ) →
      (c : Dev Cert.KernelIdeal.nD) →
      Buf (Elt Ideal) ((c.tc : Thread Cert.KernelIdeal.nD Cert.KernelIdeal.τ).loc Cert.KernelIdeal.main_v63))
    (hrun : ∀ (m : (ℓ : Loc Cert.KernelIdeal.nD Cert.KernelIdeal.τ Cert.KernelIdeal.sig) → Buf (Elt Ideal) ℓ)
      (g : Dev Cert.KernelIdeal.nD → PrngReg),
      θ_run (Cert.KernelIdeal.defs (F := Ideal)) (onTc (τ := Cert.KernelIdeal.τ) (Cert.KernelIdeal.main (F := Ideal)))
        ⟨m, fun _ => 0, g⟩ (fun r => ∀ c : Dev Cert.KernelIdeal.nD,
          r.2.mem ((c.tc : Thread Cert.KernelIdeal.nD Cert.KernelIdeal.τ).loc Cert.KernelIdeal.main_v63) = kres m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)))
    (hres : ∀ (m : (ℓ : Loc Cert.KernelIdeal.nD Cert.KernelIdeal.τ Cert.KernelIdeal.sig) → Buf (Elt Ideal) ℓ),
      Cert.Pre_KernelIdeal m → ∀ c : Dev Cert.KernelIdeal.nD,
      kres m c = Cert.Tail.tail
        (Host.dotGeneral (F := Ideal) (φ₁ := .f32) (φ₂ := .f32) Cert.ReferenceIdeal.dot_S8x64_S512x64_S8x512_1_1_0_0_n_n none
          (Cert.RefMatch.refMatch (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10)))
          (m ((c.tc : Thread Cert.KernelIdeal.nD Cert.KernelIdeal.τ).loc Cert.KernelIdeal.main_arg11)))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))) :
    Cert.algebraic_KernelIdeal_ReferenceIdeal := by
  intro m g m' g' hpre hagree
  refine ⟨kres m, hrun m g, ?_⟩
  refine (θ_run (Cert.ReferenceIdeal.defs (F := Ideal)) _ _).mono (fun _ h c => ⟨(h c).1.trans ?_, (h c).2⟩)
    (Cert.ReferenceIdeal.Value.run (F := Ideal) m' g')
  -- the reference's result is the tail of its own arguments; its arguments are the kernel's
  obtain ⟨e0, e1, e2, e3, e4, e5, e6, e7, e8, e9, e10, e11, e12, e13, e14, e15, e16⟩ := hagree c
  rw [Cert.RefMatch.ref_result_run m' c, e0, e1, e2, e3, e4, e5, e6, e7, e8, e9, e10, e11, e12, e13, e14, e15, e16]
  exact (hres m hpre c).symm

/-- The claim above is stated with the facts' witnesses found as instances; they are the proved instances
    the certificate's claim names, so it is literally the conjunct that claim asks for. -/
theorem algebraic_named (h : Cert.algebraic_KernelIdeal_ReferenceIdeal) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := h

end Cert.AlgebraicOf

end
-- ==== Proof.lean ====
/-
  Eight batches of 4096 key rows and 4096 value rows, 512 wide. Both programs project every key and every value to 64
  entries (a linear layer with bias each), multiply the two projections entry by entry, and from these bound pairs
  compute an [8, 64] "match" array; from it an extraction layer, a division by 64 = √4096, a layer normalisation and an
  output layer give the [8, 512] result, in the same operations with the same constants in both programs.

  They differ in how the match array is reached. The reference pushes every position's bound pair through a combining
  layer and a projection layer, multiplies by the projected query, and only then sums over the 4096 positions. The
  kernel sums the bound pairs over the positions first — in a pipelined region over a 2 × 4 grid, each point adding two
  chunks of 256 positions into an output block that is cleared at the first inner step and written back after the last,
  the two halves then added on the host — and pushes the SUM through the same two layers, each bias counted 4096 times,
  before the product with the query. An affine layer commutes with a finite sum up to the count of its bias; over the
  extended reals that step needs every entry to be a real number, which is what the precondition gives.

  The three frames: the kernel's region is run point by point (the clearing case and the adding case, the output block's
  running total carried between points), once for the word-level program and once for its idealization, and the host
  lines before and after it write only their own results; the reference is host operations only. The idealization
  rewrote no operation.
-/
import proofs.«164664_j59974923321458_2_alg».proof.Defs
import proofs.«164664_j59974923321458_2_alg».proof.Proof.Gen.Kernel
import proofs.«164664_j59974923321458_2_alg».proof.Proof.Gen.KernelIdeal
import proofs.«164664_j59974923321458_2_alg».proof.Proof.Gen.ReferenceIdeal
import proofs.«164664_j59974923321458_2_alg».proof.Proof.Gen.Pre_finite_inputs
import proofs.«164664_j59974923321458_2_alg».proof.Proof.Gen.ReferenceIdeal.Run
import proofs.«164664_j59974923321458_2_alg».proof.Proof.Gen.ReferenceIdeal.Read
import proofs.«164664_j59974923321458_2_alg».proof.Proof.AroundW
import proofs.«164664_j59974923321458_2_alg».proof.Proof.KerResult
import proofs.«164664_j59974923321458_2_alg».proof.Proof.Region
import proofs.«164664_j59974923321458_2_alg».proof.Proof.AlgebraicOf

noncomputable section

namespace Cert.Proof

open Idealize.ShloMosaic Idealize.SL.Sem

/-- The word-level kernel runs to its end, nothing faulting, its arguments unchanged. -/
theorem frame_kernel : Cert.frame_Kernel := fun m ρ _ => Cert.Kernel.Run.frame m ρ

/-- So does its idealization. -/
theorem frame_kernelIdeal : Cert.frame_KernelIdeal := fun m ρ _ => Cert.KernelIdeal.Run.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same result: the kernel's is what its
    later host lines compute from the region's output, and under the precondition that is the reference's function of the
    same arguments. -/
theorem algebraic : Cert.algebraic_KernelIdeal_ReferenceIdeal :=
  Cert.AlgebraicOf.algebraic_of
    (fun m c => Pipeline.afterTail₀ Cert.KernelIdeal.cfgs (Cert.KernelIdeal.Run.dats m) 0 (Cert.KernelIdeal.Run.V0 m)
      [Cert.KernelIdeal.Gen.hostOps1] c Cert.KernelIdeal.main_v63)
    (fun m g => Cert.KernelIdeal.Run.run_result m g)
    (fun m hpre c => Cert.KernelIdeal.Result.kres_eq_of m hpre c
      (fun K V Wbk Wbv bbk bbv hK hV hWbk hbbk hWbv hbbv p i j =>
        Cert.KernelIdeal.Region.region_out_launch hK hV hWbk hbbk hWbv hbbv p i j))

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
